-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024 : Shape := ⟨2, ![256, 1024]⟩
abbrev S512x1024 : Shape := ⟨2, ![512, 1024]⟩
abbrev S1 : Shape := ⟨1, ![1]⟩
abbrev S_ : Shape := ⟨0, ![]⟩

class Facts : Prop where
  bcast_S_S256x1024 : S_.BroadcastsInDim S256x1024 (![] : Fin 0 → Fin S256x1024.rank)
  reducesTo_S256x1024_S_d0_1 : S256x1024.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S256x1024 .f32) (main_arg1 : FVec F S512x1024 .f32) (main_arg2 : FVec F S256x1024 .f32) (main_arg3 : FVec F S1 .f32) (main_arg4 : FVec F S1 .f32) (main_arg5 : FVec F S1 .f32) : IVec S_ 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_c : IVec S_ 1 := constantI S_ 1 1#1
  let main_v3 : IVec S_ 1 := (fun x v => Host.reduce IntOp.andi x v reducesTo_S256x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S256x1024 .f32 := Host.absf main_arg2
  let main_cst_2 : FVec F S_ .f32 := constant S_ .f32 0x7F800000#32
  let main_v10 : FVec F S256x1024 .f32 := broadcastInDim S256x1024 ![] bcast_S_S256x1024 main_cst_2
  let main_v11 : IVec S256x1024 1 := cmpf .olt main_v9 main_v10
  let main_c_3 : IVec S_ 1 := constantI S_ 1 1#1
  let main_v12 : IVec S_ 1 := (fun x v => Host.reduce IntOp.andi x v reducesTo_S256x1024_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_v13 main_v16
-- ==== Kernel.lean ====
abbrev S256x1024 : Shape := ⟨2, ![256, 1024]⟩
abbrev S512x1024 : Shape := ⟨2, ![512, 1024]⟩
abbrev S1 : Shape := ⟨1, ![1]⟩
abbrev S512x512 : Shape := ⟨2, ![512, 512]⟩
abbrev S256x512 : Shape := ⟨2, ![256, 512]⟩
abbrev S1x1 : Shape := ⟨2, ![1, 1]⟩
abbrev S256x256 : Shape := ⟨2, ![256, 256]⟩
abbrev S64x128 : Shape := ⟨2, ![64, 128]⟩
abbrev S128x128 : Shape := ⟨2, ![128, 128]⟩
abbrev S64x1x128 : Shape := ⟨3, ![64, 1, 128]⟩
abbrev S1x128x128 : Shape := ⟨3, ![1, 128, 128]⟩
abbrev S64x128x128 : Shape := ⟨3, ![64, 128, 128]⟩

abbrev nBuf : Space → Nat
  | .hbm => 17
  | .vmem => 20
  | .smem => 0
  | _ => 0

abbrev bufTy : (tb : Table) → Fin (tcTables nBuf tb) → BufTy
  | .hbm, ⟨0, _⟩ => ⟨S256x1024, .f32⟩
  | .hbm, ⟨1, _⟩ => ⟨S512x1024, .f32⟩
  | .hbm, ⟨2, _⟩ => ⟨S256x1024, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S512x1024, .f32⟩
  | .hbm, ⟨7, _⟩ => ⟨S512x512, .f32⟩
  | .hbm, ⟨8, _⟩ => ⟨S512x512, .f32⟩
  | .hbm, ⟨9, _⟩ => ⟨S256x512, .f32⟩
  | .hbm, ⟨10, _⟩ => ⟨S256x512, .f32⟩
  | .hbm, ⟨11, _⟩ => ⟨S256x512, .f32⟩
  | .hbm, ⟨12, _⟩ => ⟨S256x512, .f32⟩
  | .hbm, ⟨13, _⟩ => ⟨S1x1, .f32⟩
  | .hbm, ⟨14, _⟩ => ⟨S1x1, .f32⟩
  | .hbm, ⟨15, _⟩ => ⟨S1x1, .f32⟩
  | .hbm, ⟨16, _⟩ => ⟨S256x256, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S64x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S64x128, .f32⟩
  | .local _ .vmem, ⟨16, _⟩ => ⟨S64x128, .f32⟩
  | .local _ .vmem, ⟨17, _⟩ => ⟨S64x128, .f32⟩
  | .local _ .vmem, ⟨18, _⟩ => ⟨S64x128, .f32⟩
  | .local _ .vmem, ⟨19, _⟩ => ⟨S64x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨3, ![4, 2, 4], ![false, false, false]⟩

def k1_cond2 (i : grid1.Coords) : BitVec 1 :=
  let arg2 : BitVec 32 := BitVec.ofNat 32 (i 2).val
  let c3_i32 : BitVec 32 := 3#32
  let v69 : BitVec 1 := Scalar.cmpi .eq arg2 c3_i32
  let v70 : BitVec 32 := Scalar.extui v69
  let c0_i32_32 : BitVec 32 := 0#32
  let v71 : BitVec 1 := Scalar.cmpi .ne v70 c0_i32_32
  v71

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S64x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 2 → Memref sig .tc .vmem S128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, true]

abbrev stage1_6 : Fin 2 → Memref sig .tc .vmem S128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, true]

abbrev stage1_7 : Fin 2 → Memref sig .tc .vmem S64x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

class Facts₀ : Prop where
  concatenates_S256x1024_S256x1024_S512x1024_d0 : Shape.Concatenates [S256x1024, S256x1024] S512x1024 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  slices_S512x512_S256x512_0_0 : S512x512.Slices ![0, 0] S256x512
  slices_S512x512_S256x512_256_0 : S512x512.Slices ![256, 0] S256x512
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  reduces_S64x128x128_S64x128 : S64x128x128.Reduces [2] S64x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  dot_S512x1024_S512x1024_S512x512_1_1_0_0_n_n_wf : DotDims.WF S512x1024 S512x1024 S512x512 [1] [1] [0] [0] [] []
  dot_S64x128_S128x128_S64x128_1_1_0_0_n_n_wf : DotDims.WF S64x128 S128x128 S64x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .f32 = 32 ∨ (Rect.block (s := S512x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S256x512.size a
  hwx1_3 : ∀ i : grid1.Coords, EltTy.bits .f32 = 32 ∨ (Rect.block (s := S256x512) S64x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S256x512.size a
  hwx1_4 : ∀ i : grid1.Coords, EltTy.bits .f32 = 32 ∨ (Rect.block (s := S256x512) S64x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S256x512.size a
  hwx1_5 : ∀ i : grid1.Coords, EltTy.bits .f32 = 32 ∨ (Rect.block (s := S256x512) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S256x512.size a
  hwx1_6 : ∀ i : grid1.Coords, EltTy.bits .f32 = 32 ∨ (Rect.block (s := S256x512) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S64x128.size a ≤ S256x256.size a
  hwx1_7 : ∀ i : grid1.Coords, EltTy.bits .f32 = 32 ∨ (Rect.block (s := S256x256) S64x128.size (cc1_transform_7 i) (hinb1_7 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S64x128_S128x128_S64x128_1_1_0_0_n_n : DotDims S64x128 S128x128 S64x128 where
  lhsContracting := [1]
  rhsContracting := [1]
  lhsNonContracting := [0]
  rhsNonContracting := [0]
  lhsBatch := []
  rhsBatch := []
  wf := dot_S64x128_S128x128_S64x128_1_1_0_0_n_n_wf

abbrev win0_0 : Pipeline.Window sig grid0 :=
  Pipeline.Window.ofSpec (Memref.whole main_v0) S512x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S512x512.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S512x512.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S64x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S128x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v5) S128x128.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v9) S64x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S256x1024 : Shape := ⟨2, ![256, 1024]⟩
abbrev S512x1024 : Shape := ⟨2, ![512, 1024]⟩
abbrev S1 : Shape := ⟨1, ![1]⟩
abbrev S1024x512 : Shape := ⟨2, ![1024, 512]⟩
abbrev S256x512 : Shape := ⟨2, ![256, 512]⟩
abbrev S_ : Shape := ⟨0, ![]⟩
abbrev S512x256 : Shape := ⟨2, ![512, 256]⟩
abbrev S256x256 : Shape := ⟨2, ![256, 256]⟩
abbrev S256x1x512 : Shape := ⟨3, ![256, 1, 512]⟩
abbrev S1x256x512 : Shape := ⟨3, ![1, 256, 512]⟩
abbrev S256x256x512 : Shape := ⟨3, ![256, 256, 512]⟩
abbrev S1x1 : Shape := ⟨2, ![1, 1]⟩

abbrev nBuf : Space → Nat
  | .hbm => 97
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S512x1024, .f32⟩
  | .hbm, ⟨2, _⟩ => ⟨S256x1024, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S1024x512, .f32⟩
  | .hbm, ⟨7, _⟩ => ⟨S256x512, .f32⟩
  | .hbm, ⟨8, _⟩ => ⟨S1024x512, .f32⟩
  | .hbm, ⟨9, _⟩ => ⟨S256x512, .f32⟩
  | .hbm, ⟨10, _⟩ => ⟨S_, .f32⟩
  | .hbm, ⟨11, _⟩ => ⟨S256x512, .f32⟩
  | .hbm, ⟨12, _⟩ => ⟨S256x512, .f32⟩
  | .hbm, ⟨13, _⟩ => ⟨S_, .f32⟩
  | .hbm, ⟨14, _⟩ => ⟨S256x512, .f32⟩
  | .hbm, ⟨15, _⟩ => ⟨S256x512, .f32⟩
  | .hbm, ⟨16, _⟩ => ⟨S256x512, .f32⟩
  | .hbm, ⟨17, _⟩ => ⟨S_, .f32⟩
  | .hbm, ⟨18, _⟩ => ⟨S256x512, .f32⟩
  | .hbm, ⟨19, _⟩ => ⟨S256x512, .f32⟩
  | .hbm, ⟨20, _⟩ => ⟨S_, .f32⟩
  | .hbm, ⟨21, _⟩ => ⟨S256x512, .f32⟩
  | .hbm, ⟨22, _⟩ => ⟨S256x512, .f32⟩
  | .hbm, ⟨23, _⟩ => ⟨S_, .f32⟩
  | .hbm, ⟨24, _⟩ => ⟨S256x512, .f32⟩
  | .hbm, ⟨25, _⟩ => ⟨S256x512, .f32⟩
  | .hbm, ⟨26, _⟩ => ⟨S_, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S_, .f32⟩
  | .hbm, ⟨31, _⟩ => ⟨S256x512, .f32⟩
  | .hbm, ⟨32, _⟩ => ⟨S256x512, .f32⟩
  | .hbm, ⟨33, _⟩ => ⟨S_, .f32⟩
  | .hbm, ⟨34, _⟩ => ⟨S256x512, .f32⟩
  | .hbm, ⟨35, _⟩ => ⟨S256x512, .f32⟩
  | .hbm, ⟨36, _⟩ => ⟨S256x512, .f32⟩
  | .hbm, ⟨37, _⟩ => ⟨S256x512, .f32⟩
  | .hbm, ⟨38, _⟩ => ⟨S512x256, .f32⟩
  | .hbm, ⟨39, _⟩ => ⟨S256x256, .f32⟩
  | .hbm, ⟨40, _⟩ => ⟨S256x1x512, .f32⟩
  | .hbm, ⟨41, _⟩ => ⟨S1x256x512, .f32⟩
  | .hbm, ⟨42, _⟩ => ⟨S256x256x512, .f32⟩
  | .hbm, ⟨43, _⟩ => ⟨S256x256x512, .f32⟩
  | .hbm, ⟨44, _⟩ => ⟨S256x256x512, .f32⟩
  | .hbm, ⟨45, _⟩ => ⟨S256x1x512, .f32⟩
  | .hbm, ⟨46, _⟩ => ⟨S1x256x512, .f32⟩
  | .hbm, ⟨47, _⟩ => ⟨S256x256x512, .f32⟩
  | .hbm, ⟨48, _⟩ => ⟨S256x256x512, .f32⟩
  | .hbm, ⟨49, _⟩ => ⟨S256x256x512, .f32⟩
  | .hbm, ⟨50, _⟩ => ⟨S256x256x512, .f32⟩
  | .hbm, ⟨51, _⟩ => ⟨S_, .f32⟩
  | .hbm, ⟨52, _⟩ => ⟨S256x256x512, .f32⟩
  | .hbm, ⟨53, _⟩ => ⟨S256x256x512, .f32⟩
  | .hbm, ⟨54, _⟩ => ⟨S_, .f32⟩
  | .hbm, ⟨55, _⟩ => ⟨S256x256x512, .f32⟩
  | .hbm, ⟨56, _⟩ => ⟨S256x256x512, .f32⟩
  | .hbm, ⟨57, _⟩ => ⟨S256x256x512, .f32⟩
  | .hbm, ⟨58, _⟩ => ⟨S_, .f32⟩
  | .hbm, ⟨59, _⟩ => ⟨S256x256x512, .f32⟩
  | .hbm, ⟨60, _⟩ => ⟨S256x256x512, .f32⟩
  | .hbm, ⟨61, _⟩ => ⟨S_, .f32⟩
  | .hbm, ⟨62, _⟩ => ⟨S256x256x512, .f32⟩
  | .hbm, ⟨63, _⟩ => ⟨S256x256x512, .f32⟩
  | .hbm, ⟨64, _⟩ => ⟨S256x256x512, .f32⟩
  | .hbm, ⟨65, _⟩ => ⟨S_, .f32⟩
  | .hbm, ⟨66, _⟩ => ⟨S256x256, .f32⟩
  | .hbm, ⟨67, _⟩ => ⟨S256x256x512, .f32⟩
  | .hbm, ⟨68, _⟩ => ⟨S256x256x512, .f32⟩
  | .hbm, ⟨69, _⟩ => ⟨S256x256x512, .f32⟩
  | .hbm, ⟨70, _⟩ => ⟨S_, .f32⟩
  | .hbm, ⟨71, _⟩ => ⟨S256x256x512, .f32⟩
  | .hbm, ⟨72, _⟩ => ⟨S256x256x512, .f32⟩
  | .hbm, ⟨73, _⟩ => ⟨S_, .f32⟩
  | .hbm, ⟨74, _⟩ => ⟨S256x256x512, .f32⟩
  | .hbm, ⟨75, _⟩ => ⟨S256x256x512, .f32⟩
  | .hbm, ⟨76, _⟩ => ⟨S256x256x512, .f32⟩
  | .hbm, ⟨77, _⟩ => ⟨S_, .f32⟩
  | .hbm, ⟨78, _⟩ => ⟨S256x256x512, .f32⟩
  | .hbm, ⟨79, _⟩ => ⟨S256x256x512, .f32⟩
  | .hbm, ⟨80, _⟩ => ⟨S_, .f32⟩
  | .hbm, ⟨81, _⟩ => ⟨S256x256x512, .f32⟩
  | .hbm, ⟨82, _⟩ => ⟨S256x256x512, .f32⟩
  | .hbm, ⟨83, _⟩ => ⟨S256x256x512, .f32⟩
  | .hbm, ⟨84, _⟩ => ⟨S_, .f32⟩
  | .hbm, ⟨85, _⟩ => ⟨S256x256, .f32⟩
  | .hbm, ⟨86, _⟩ => ⟨S1x1, .f32⟩
  | .hbm, ⟨87, _⟩ => ⟨S256x256, .f32⟩
  | .hbm, ⟨88, _⟩ => ⟨S256x256, .f32⟩
  | .hbm, ⟨89, _⟩ => ⟨S1x1, .f32⟩
  | .hbm, ⟨90, _⟩ => ⟨S256x256, .f32⟩
  | .hbm, ⟨91, _⟩ => ⟨S256x256, .f32⟩
  | .hbm, ⟨92, _⟩ => ⟨S256x256, .f32⟩
  | .hbm, ⟨93, _⟩ => ⟨S1x1, .f32⟩
  | .hbm, ⟨94, _⟩ => ⟨S256x256, .f32⟩
  | .hbm, ⟨95, _⟩ => ⟨S256x256, .f32⟩
  | .hbm, ⟨96, _⟩ => ⟨S256x256, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_cst_8 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_cst_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_16 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S_S256x512 : S_.BroadcastsInDim S256x512 (![] : Fin 0 → Fin S256x512.rank)
  transposes_S256x512_S512x256_1_0 : S256x512.Transposes [1, 0] S512x256
  bcast_S256x512_S256x1x512_0_2 : S256x512.BroadcastsInDim S256x1x512 (![0, 2] : Fin 2 → Fin S256x1x512.rank)
  bcast_S256x512_S1x256x512_1_2 : S256x512.BroadcastsInDim S1x256x512 (![1, 2] : Fin 2 → Fin S1x256x512.rank)
  bcast_S256x1x512_S256x256x512_0_1_2 : S256x1x512.BroadcastsInDim S256x256x512 (![0, 1, 2] : Fin 3 → Fin S256x256x512.rank)
  bcast_S1x256x512_S256x256x512_0_1_2 : S1x256x512.BroadcastsInDim S256x256x512 (![0, 1, 2] : Fin 3 → Fin S256x256x512.rank)
  bcast_S_S256x256x512 : S_.BroadcastsInDim S256x256x512 (![] : Fin 0 → Fin S256x256x512.rank)
  reducesTo_S256x256x512_S256x256_d2 : S256x256x512.ReducesTo [2] S256x256
  h_S_ : 0 < S_.numel
  bcast_S1_S1x1_1 : S1.BroadcastsInDim S1x1 (![1] : Fin 1 → Fin S1x1.rank)
  bcast_S1x1_S256x256_0_1 : S1x1.BroadcastsInDim S256x256 (![0, 1] : Fin 2 → Fin S256x256.rank)
  dot_S256x1024_S1024x512_S256x512_1_0_0_1_n_n_wf : DotDims.WF S256x1024 S1024x512 S256x512 [1] [0] [0] [1] [] []
  dot_S256x512_S512x256_S256x256_1_0_0_1_n_n_wf : DotDims.WF S256x512 S512x256 S256x256 [1] [0] [0] [1] [] []

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

class Facts : Prop extends Facts₀ where

variable [Facts]
-- ==== Proof.K.Region0.lean ====
/- The first pallas_call of the idealized program (`cc0__proj_kernel`, pipeline 0, grid of one point), at a
   PARAMETER `V` — the TensorCore's buffer contents when the region is entered —: each window's block at a point
   (`iblk0`), what the body leaves in each output window's buffer (`out0_2`, `out0_3`), the body's triple
   (`sound_kernel0`), the pipeline's proof data (`dat0`) and the body obligation (`body_obligation0`).
   The body reads its two input windows whole, writes the contraction of the two over their long axis into
   output window 2 and the squashed contraction into output window 3; it also reads both output buffers before
   writing them, and uses neither value. -/
import proofs.«149419_j58626303590625_1_alg».proof.Proof.Gen.Kernel.Launch
import proofs.«149419_j58626303590625_1_alg».proof.Proof.Gen.Kernel.Skeleton
import proofs.«149419_j58626303590625_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents (`View.cover_of_tiled`): the elaborator's structural look
-- recurses once per coordinate of the long axes
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of an input window's buffer. -/
abbrev r0_0 : Rect S512x1024 := Rect.unit (s := S512x1024) ![0, 0] S512x1024.size inb_S512x1024_S512x1024_0_0
/-- The whole of an output window's buffer. -/
abbrev r0_1 : Rect S512x512 := Rect.unit (s := S512x512) ![0, 0] S512x512.size inb_S512x512_S512x512_0_0

/-! ## What the body leaves in each output window's buffer -/

/-- Window 2's staging buffer after the body, from the input windows' blocks: its one store as a piece, the
    payload the contraction of the two blocks. -/
def out0_2 (x0 x1 : Vec F S512x1024 .f32) : Vec F S512x512 .f32 :=
  View.canon [⟨r0_1, k0_pay1 (View.ld x0 r0_0) (View.ld x1 r0_0)⟩]

/-- Window 3's staging buffer after the body: its one store as a piece, the payload the squashed contraction. -/
def out0_3 (x0 x1 : Vec F S512x1024 .f32) : Vec F S512x512 .f32 :=
  View.canon [⟨r0_1, k0_pay2 (View.ld x0 r0_0) (View.ld x1 r0_0)⟩]

/-- One store over the whole buffer tiles it (checked by evaluation), so it covers it. -/
theorem cover0_out (p0 : Vec F S512x512 .f32) (y : S512x512.Idx) :
    ∃ pc ∈ ([⟨r0_1, p0⟩] : List (View.Piece (Elt F) S512x512 .f32)), y ∈ pc.1.set :=
  View.cover_of_tiled [⟨r0_1, p0⟩] S512x512.size (by rfl) y

/-! ## The body's triple -/

set_option maxHeartbeats 4000000 in
/-- The kernel body on whole staging memrefs, the inputs' at read contents `x0`, `x1` and the outputs' at anything,
    runs to the continuation holding the inputs' as they were and each output's at `out0_W` of the inputs'. The two
    reads of the output buffers take whatever is there and the values are dropped. -/
theorem sound_kernel0 (c : Dev nD) (E : Set ℕ) (i : grid0.Coords)
    (arg0 : Memref sig .tc .vmem S512x1024 .f32) (harg0 : arg0.IsWhole) (arg1 : Memref sig .tc .vmem S512x1024 .f32) (harg1 : arg1.IsWhole)
    (arg2 : Memref sig .tc .vmem S512x512 .f32) (harg2 : arg2.IsWhole) (arg3 : Memref sig .tc .vmem S512x512 .f32) (harg3 : arg3.IsWhole)
    (x0 x1 : Vec F S512x1024 .f32) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1
            ∗ owns (c : Thread nD τ) arg2 fullShare (out0_2 x0 x1) ∗ owns (c : Thread nD τ) arg3 fullShare (out0_3 x0 x1)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_out _)
  iexists _; isplitr
  swap; · iexact H3
  ipureintro
  exact View.read_writes_eq_canon _ _ _ (cover0_out _)

/-! ## The pipeline's proof data -/

/-- The proof data of pipeline 0 on core `c`: the arrays as the region finds them (`V`); after the body at
    point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Fr

end
-- ==== Proof.K.R1Base.lean ====
import proofs.«149419_j58626303590625_1_alg».proof.Proof.Gen.Kernel.Launch
import proofs.«149419_j58626303590625_1_alg».proof.Proof.Gen.Kernel.Skeleton
import proofs.«149419_j58626303590625_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call: what its runs are stated over

The grid is 4 × 2 × 4, the last axis innermost: point `t` has last coordinate `t % 4`.  The three accumulators are
zeroed at the points with last coordinate 0 and the output block is stored at those with last coordinate 3. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The accumulators are zeroed: the last coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The output block is stored: the last coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## The staging and scratch memrefs -/

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
abbrev scM1_0 : Memref sig .tc .vmem S64x128 .f32 := Memref.whole cc1_scratch0
abbrev scM1_1 : Memref sig .tc .vmem S64x128 .f32 := Memref.whole cc1_scratch1
abbrev scM1_2 : Memref sig .tc .vmem S64x128 .f32 := Memref.whole cc1_scratch2

/-- The first pallas_call's staging buffers, which this region never touches, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f))

/-- The class invariant with the scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Fr

end
-- ==== Proof.K.R1RunA.lean ====
import proofs.«149419_j58626303590625_1_alg».proof.Proof.K.R1Base

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call's body, case A
The accumulators are zeroed first (last grid coordinate 0); nothing is stored into the output block. -/

set_option maxHeartbeats 4000000 in
/-- What the body's stores leave in the output's and the three accumulators' memrefs, as pieces (last first), with the
    proof that on whole memrefs — the inputs' at their contents, the output's handed back untouched, the accumulators' at
    anything — the body runs to the continuation holding them so. -/
noncomputable def kernelRun1_A (c : Dev nD) (i : grid1.Coords) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S64x128 .f32) (harg13 : arg13.IsWhole) (hc0 : cond1_0 i) (hc1 : ¬cond1_1 i)
    (x0 : Vec F S1x1 .f32) (x1 : Vec F S1x1 .f32) (x2 : Vec F S1x1 .f32) (x3 : Vec F S64x128 .f32) (x4 : Vec F S64x128 .f32) (x5 : Vec F S128x128 .f32) (x6 : Vec F S128x128 .f32) :
    Σ' (L7 : List (View.Piece (Elt F) S64x128 .f32)) (LS0 : List (View.Piece (Elt F) S64x128 .f32)) (LS1 : List (View.Piece (Elt F) S64x128 .f32)), { LS2 : List (View.Piece (Elt F) S64x128 .f32) //
      ∀ (xi7 : Vec F S64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc1__pairwise_kernel i arg3 harg3 arg4 harg4 arg5 harg5 arg6 harg6 arg7 harg7 arg8 harg8 arg9 harg9 arg10 harg10 arg11 harg11 arg12 harg12 arg13 harg13) K } := by
  refine ⟨[], ?_, ?_, ?_, fun xi7 E K => ?run⟩
  case run =>
    simp only [cc1__pairwise_kernel_eq_skeleton]; unfold cc1__pairwise_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    iexists _; iexact HS2

end Cert.Kernel.Fr

end
-- ==== Proof.K.R1RunB.lean ====
import proofs.«149419_j58626303590625_1_alg».proof.Proof.K.R1RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call's body, case B
The accumulators are added to (last grid coordinate 1 or 2); nothing is stored into the output block. -/

set_option maxHeartbeats 4000000 in
/-- What the body's stores leave in the output's and the three accumulators' memrefs, as pieces (last first), with the
    proof that on whole memrefs — the inputs' at their contents, the output's handed back untouched, the accumulators' at
    what the point before left — the body runs to the continuation holding them so. -/
noncomputable def kernelRun1_B (c : Dev nD) (i : grid1.Coords) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S64x128 .f32) (harg13 : arg13.IsWhole) (hc0 : ¬cond1_0 i) (hc1 : ¬cond1_1 i)
    (x0 : Vec F S1x1 .f32) (x1 : Vec F S1x1 .f32) (x2 : Vec F S1x1 .f32) (x3 : Vec F S64x128 .f32) (x4 : Vec F S64x128 .f32) (x5 : Vec F S128x128 .f32) (x6 : Vec F S128x128 .f32) (xs0 : Vec F S64x128 .f32) (xs1 : Vec F S64x128 .f32) (xs2 : Vec F S64x128 .f32) :
    Σ' (L7 : List (View.Piece (Elt F) S64x128 .f32)) (LS0 : List (View.Piece (Elt F) S64x128 .f32)) (LS1 : List (View.Piece (Elt F) S64x128 .f32)), { LS2 : List (View.Piece (Elt F) S64x128 .f32) //
      ∀ (xi7 : Vec F S64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0 ∗ owns (c : Thread nD τ) arg12 fullShare xs1 ∗ owns (c : Thread nD τ) arg13 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc1__pairwise_kernel i arg3 harg3 arg4 harg4 arg5 harg5 arg6 harg6 arg7 harg7 arg8 harg8 arg9 harg9 arg10 harg10 arg11 harg11 arg12 harg12 arg13 harg13) K } := by
  refine ⟨[], ?_, ?_, ?_, fun xi7 E K => ?run⟩
  case run =>
    simp only [cc1__pairwise_kernel_eq_skeleton]; unfold cc1__pairwise_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    iexists _; iexact HS2

end Cert.Kernel.Fr

end
-- ==== Proof.K.R1RunC.lean ====
import proofs.«149419_j58626303590625_1_alg».proof.Proof.K.R1RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call's body, case C
The accumulators are added to and the output block is stored from them (last grid coordinate 3). -/

set_option maxHeartbeats 4000000 in
/-- What the body's stores leave in the output's and the three accumulators' memrefs, as pieces (last first), with the
    proof that on whole memrefs — the inputs' at their contents, the output's at anything, the accumulators' at
    what the point before left — the body runs to the continuation holding them so. -/
noncomputable def kernelRun1_C (c : Dev nD) (i : grid1.Coords) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S64x128 .f32) (harg13 : arg13.IsWhole) (hc0 : ¬cond1_0 i) (hc1 : cond1_1 i)
    (x0 : Vec F S1x1 .f32) (x1 : Vec F S1x1 .f32) (x2 : Vec F S1x1 .f32) (x3 : Vec F S64x128 .f32) (x4 : Vec F S64x128 .f32) (x5 : Vec F S128x128 .f32) (x6 : Vec F S128x128 .f32) (xs0 : Vec F S64x128 .f32) (xs1 : Vec F S64x128 .f32) (xs2 : Vec F S64x128 .f32) :
    Σ' (L7 : List (View.Piece (Elt F) S64x128 .f32)) (LS0 : List (View.Piece (Elt F) S64x128 .f32)) (LS1 : List (View.Piece (Elt F) S64x128 .f32)), { LS2 : List (View.Piece (Elt F) S64x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc1__pairwise_kernel i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc1__pairwise_kernel_eq_skeleton]; unfold cc1__pairwise_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]; · iexists _; iexact HS1
    iexists _; iexact HS2

end Cert.Kernel.Fr

end
-- ==== Proof.K.R1Frame.lean ====
import proofs.«149419_j58626303590625_1_alg».proof.Proof.K.R1RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call: what its buffers hold point by point, its proof data and its body obligation -/

variable (V : (c : Dev nD) → (b : Ref sig .tc) → Buf (Elt F) ((c : Thread nD τ).loc b))

/-- Views through which the output block's and the accumulators' contents are stated. -/
abbrev VO1_7 : View sig .tc .vmem S64x128 .f32 := (Memref.whole cc1_stg7_0 : Memref sig .tc .vmem S64x128 .f32).view
abbrev VS1_0 : View sig .tc .vmem S64x128 .f32 := scM1_0.view
abbrev VS1_1 : View sig .tc .vmem S64x128 .f32 := scM1_1.view
abbrev VS1_2 : View sig .tc .vmem S64x128 .f32 := scM1_2.view

/-- The contents named for the output block's buffer at the points where nothing is stored into it: never consulted. -/
def junk7 : Vec F S64x128 .f32 := VO1_7.read (Elt F) VO1_7.junk

/-- What a covering list of pieces (last first) leaves in a buffer. -/
def readBack (L : List (View.Piece (Elt F) S64x128 .f32)) : Vec F S64x128 .f32 := View.canon L

section Cases
variable (c : Dev nD) (t : Fin cfg1.N)

/-- The run of the point `t` when it zeroes the accumulators. -/
def runA (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)
/-- The run of the point `t` when it only adds to the accumulators, from their contents `xs`. -/
def runB (h0 : ¬t.val % 4 = 0) (h1 : ¬t.val % 4 = 3) (xs : Vec F S64x128 .f32 × Vec F S64x128 .f32 × Vec F S64x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs.1 xs.2.1 xs.2.2
/-- The run of the point `t` when it adds to the accumulators and stores the output block. -/
def runC (h0 : ¬t.val % 4 = 0) (h1 : t.val % 4 = 3) (xs : Vec F S64x128 .f32 × Vec F S64x128 .f32 × Vec F S64x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs.1 xs.2.1 xs.2.2

/-- Case A's pieces for accumulator 0 cover it. -/
theorem scover_A_0 (h0 : t.val % 4 = 0) (h1 : ¬t.val % 4 = 3) (y : S64x128.Idx) : ∃ pc ∈ (runA V c t h0 h1).2.1, y ∈ pc.1.set :=
  View.cover_of_tiledL (runA V c t h0 h1).2.1 S64x128.size (by unfold runA; sl_kernel_rfl) y
/-- Case A's pieces for accumulator 1 cover it. -/
theorem scover_A_1 (h0 : t.val % 4 = 0) (h1 : ¬t.val % 4 = 3) (y : S64x128.Idx) : ∃ pc ∈ (runA V c t h0 h1).2.2.1, y ∈ pc.1.set :=
  View.cover_of_tiledL (runA V c t h0 h1).2.2.1 S64x128.size (by unfold runA; sl_kernel_rfl) y
/-- Case A's pieces for accumulator 2 cover it. -/
theorem scover_A_2 (h0 : t.val % 4 = 0) (h1 : ¬t.val % 4 = 3) (y : S64x128.Idx) : ∃ pc ∈ (runA V c t h0 h1).2.2.2.1, y ∈ pc.1.set :=
  View.cover_of_tiledL (runA V c t h0 h1).2.2.2.1 S64x128.size (by unfold runA; sl_kernel_rfl) y
/-- What case A leaves in the three accumulators. -/
def scA (h0 : t.val % 4 = 0) (h1 : ¬t.val % 4 = 3) : Vec F S64x128 .f32 × Vec F S64x128 .f32 × Vec F S64x128 .f32 :=
  (readBack (runA V c t h0 h1).2.1, readBack (runA V c t h0 h1).2.2.1, readBack (runA V c t h0 h1).2.2.2.1)

/-- Case B's pieces for accumulator 0 cover it. -/
theorem scover_B_0 (h0 : ¬t.val % 4 = 0) (h1 : ¬t.val % 4 = 3) (xs : Vec F S64x128 .f32 × Vec F S64x128 .f32 × Vec F S64x128 .f32) (y : S64x128.Idx) : ∃ pc ∈ (runB V c t h0 h1 xs).2.1, y ∈ pc.1.set :=
  View.cover_of_tiledL (runB V c t h0 h1 xs).2.1 S64x128.size (by unfold runB; sl_kernel_rfl) y
/-- Case B's pieces for accumulator 1 cover it. -/
theorem scover_B_1 (h0 : ¬t.val % 4 = 0) (h1 : ¬t.val % 4 = 3) (xs : Vec F S64x128 .f32 × Vec F S64x128 .f32 × Vec F S64x128 .f32) (y : S64x128.Idx) : ∃ pc ∈ (runB V c t h0 h1 xs).2.2.1, y ∈ pc.1.set :=
  View.cover_of_tiledL (runB V c t h0 h1 xs).2.2.1 S64x128.size (by unfold runB; sl_kernel_rfl) y
/-- Case B's pieces for accumulator 2 cover it. -/
theorem scover_B_2 (h0 : ¬t.val % 4 = 0) (h1 : ¬t.val % 4 = 3) (xs : Vec F S64x128 .f32 × Vec F S64x128 .f32 × Vec F S64x128 .f32) (y : S64x128.Idx) : ∃ pc ∈ (runB V c t h0 h1 xs).2.2.2.1, y ∈ pc.1.set :=
  View.cover_of_tiledL (runB V c t h0 h1 xs).2.2.2.1 S64x128.size (by unfold runB; sl_kernel_rfl) y
/-- What case B leaves in the three accumulators. -/
def scB (h0 : ¬t.val % 4 = 0) (h1 : ¬t.val % 4 = 3) (xs : Vec F S64x128 .f32 × Vec F S64x128 .f32 × Vec F S64x128 .f32) : Vec F S64x128 .f32 × Vec F S64x128 .f32 × Vec F S64x128 .f32 :=
  (readBack (runB V c t h0 h1 xs).2.1, readBack (runB V c t h0 h1 xs).2.2.1, readBack (runB V c t h0 h1 xs).2.2.2.1)

/-- Case C's pieces for accumulator 0 cover it. -/
theorem scover_C_0 (h0 : ¬t.val % 4 = 0) (h1 : t.val % 4 = 3) (xs : Vec F S64x128 .f32 × Vec F S64x128 .f32 × Vec F S64x128 .f32) (y : S64x128.Idx) : ∃ pc ∈ (runC V c t h0 h1 xs).2.1, y ∈ pc.1.set :=
  View.cover_of_tiledL (runC V c t h0 h1 xs).2.1 S64x128.size (by unfold runC; sl_kernel_rfl) y
/-- Case C's pieces for accumulator 1 cover it. -/
theorem scover_C_1 (h0 : ¬t.val % 4 = 0) (h1 : t.val % 4 = 3) (xs : Vec F S64x128 .f32 × Vec F S64x128 .f32 × Vec F S64x128 .f32) (y : S64x128.Idx) : ∃ pc ∈ (runC V c t h0 h1 xs).2.2.1, y ∈ pc.1.set :=
  View.cover_of_tiledL (runC V c t h0 h1 xs).2.2.1 S64x128.size (by unfold runC; sl_kernel_rfl) y
/-- Case C's pieces for accumulator 2 cover it. -/
theorem scover_C_2 (h0 : ¬t.val % 4 = 0) (h1 : t.val % 4 = 3) (xs : Vec F S64x128 .f32 × Vec F S64x128 .f32 × Vec F S64x128 .f32) (y : S64x128.Idx) : ∃ pc ∈ (runC V c t h0 h1 xs).2.2.2.1, y ∈ pc.1.set :=
  View.cover_of_tiledL (runC V c t h0 h1 xs).2.2.2.1 S64x128.size (by unfold runC; sl_kernel_rfl) y
/-- Case C's pieces for the output block cover it. -/
theorem cover_C_7 (h0 : ¬t.val % 4 = 0) (h1 : t.val % 4 = 3) (xs : Vec F S64x128 .f32 × Vec F S64x128 .f32 × Vec F S64x128 .f32) (y : S64x128.Idx) : ∃ pc ∈ (runC V c t h0 h1 xs).1, y ∈ pc.1.set :=
  View.cover_of_tiledL (runC V c t h0 h1 xs).1 S64x128.size (by unfold runC; sl_kernel_rfl) y
/-- What case C leaves in the three accumulators. -/
def scC (h0 : ¬t.val % 4 = 0) (h1 : t.val % 4 = 3) (xs : Vec F S64x128 .f32 × Vec F S64x128 .f32 × Vec F S64x128 .f32) : Vec F S64x128 .f32 × Vec F S64x128 .f32 × Vec F S64x128 .f32 :=
  (readBack (runC V c t h0 h1 xs).2.1, readBack (runC V c t h0 h1 xs).2.2.1, readBack (runC V c t h0 h1 xs).2.2.2.1)
/-- What case C leaves in the output block's buffer. -/
def outC (h0 : ¬t.val % 4 = 0) (h1 : t.val % 4 = 3) (xs : Vec F S64x128 .f32 × Vec F S64x128 .f32 × Vec F S64x128 .f32) : Vec F S64x128 .f32 := readBack (runC V c t h0 h1 xs).1

end Cases

/-! ## What the buffers hold after each point -/

/-- After the body at position `n`: the output block's buffer, then the three accumulators. -/
def outsAt1 (c : Dev nD) : (n : ℕ) → n < cfg1.N → Vec F S64x128 .f32 × Vec F S64x128 .f32 × Vec F S64x128 .f32 × Vec F S64x128 .f32
  | 0, hn => (junk7, scA V c ⟨0, hn⟩ (Nat.zero_mod _) (show ¬(0 % 4 = 3) by decide))
  | n + 1, hn =>
    if h0 : (n + 1) % 4 = 0 then (junk7, scA V c ⟨n + 1, hn⟩ h0 (show ¬((n + 1) % 4 = 3) by omega))
    else if h1 : (n + 1) % 4 = 3 then
      (outC V c ⟨n + 1, hn⟩ h0 h1 (outsAt1 c n (Nat.lt_of_succ_lt hn)).2, scC V c ⟨n + 1, hn⟩ h0 h1 (outsAt1 c n (Nat.lt_of_succ_lt hn)).2)
    else (junk7, scB V c ⟨n + 1, hn⟩ h0 h1 (outsAt1 c n (Nat.lt_of_succ_lt hn)).2)

theorem outsAt1_A (c : Dev nD) (t : Fin cfg1.N) (h0 : t.val % 4 = 0) (h1 : ¬t.val % 4 = 3) :
    outsAt1 V c t.val t.isLt = (junk7, scA V c t h0 h1) := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = (junk7, scB V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (outC V c t h0 h1 (outsAt1 V c (t.val - 1) (Nat.lt_of_le_of_lt (Nat.sub_le _ _) t.isLt)).2, scC V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: before the first point the class's (every scoped buffer at anything);
    afterwards the other call's staging buffers at anything, each accumulator at what the point before left in it, and
    the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

/-- The proof data of the second pallas_call on core `c`: the arrays as the region finds them; after the body at point
    `t` each input's buffer at its block and the output's at `outsAt1`'s first component; the invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

end Cert.Kernel.Fr

end
-- ==== Proof.K.R1Body.lean ====
import proofs.«149419_j58626303590625_1_alg».proof.Proof.K.R1Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call's body obligation -/

variable (V : (c : Dev nD) → (b : Ref sig .tc) → Buf (Elt F) ((c : Thread nD τ).loc b))

set_option maxHeartbeats 8000000 in
/-- The body at any point: the inputs' memrefs hold their blocks; the point's last coordinate says which case it is in;
    the invariant hands the body the accumulators at what the point before left (at anything at the first point) and
    takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 4 = 0
  · have h1 : ¬t.val % 4 = 3 := by omega
    rw [Dat.leavesExact_idle (dat1 V c) 7 t (idleAt1_7 t (fun h => h1 ((hcond1_1 t).mp h))) (noFlush1_7 t (fun h => h1 ((hcond1_1 t).mp h)))]
    rw [outsAt1_A V c t h0 h1]
    unfold scA readBack; (try dsimp only)
    by_cases hz : t.val = 0
    · rw [PhiS1_castSucc V c t, PhiS1_zero V c _ _ hz, PhiA1_eq]
      iintro ⟨⟨⟨Ho0, Ho1, Ho2, Ho3, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es0, HS0⟩, ⟨%es1, HS1⟩, ⟨%es2, HS2⟩⟩
      isplitl [Ho0 Ho1 Ho2 Ho3 HS0 HS1 HS2 Hg]
      · isplitr [Hg]
        · isplitl [Ho0]; · iexact Ho0
          isplitl [Ho1]; · iexact Ho1
          isplitl [Ho2]; · iexact Ho2
          isplitl [Ho3]; · iexact Ho3
          isplitl [HS0]
          · unfold owns; iexists _; isplitr
            swap; · iexact HS0
            ipureintro; exact View.read_writes_eq_canon _ _ _ (scover_A_0 V c t h0 h1)
          isplitl [HS1]
          · unfold owns; iexists _; isplitr
            swap; · iexact HS1
            ipureintro; exact View.read_writes_eq_canon _ _ _ (scover_A_1 V c t h0 h1)
          unfold owns; iexists _; isplitr
          swap; · iexact HS2
          ipureintro; exact View.read_writes_eq_canon _ _ _ (scover_A_2 V c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]
      iintro ⟨⟨⟨Ho0, Ho1, Ho2, Ho3, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      iintro ⟨H0, H1, H2, H3, H4, H5, H6, H7, ⟨%es0, HS0⟩, ⟨%es1, HS1⟩, ⟨%es2, HS2⟩⟩
      isplitl [Ho0 Ho1 Ho2 Ho3 HS0 HS1 HS2 Hg]
      · isplitr [Hg]
        · isplitl [Ho0]; · iexact Ho0
          isplitl [Ho1]; · iexact Ho1
          isplitl [Ho2]; · iexact Ho2
          isplitl [Ho3]; · iexact Ho3
          isplitl [HS0]
          · unfold owns; iexists _; isplitr
            swap; · iexact HS0
            ipureintro; exact View.read_writes_eq_canon _ _ _ (scover_A_0 V c t h0 h1)
          isplitl [HS1]
          · unfold owns; iexists _; isplitr
            swap; · iexact HS1
            ipureintro; exact View.read_writes_eq_canon _ _ _ (scover_A_1 V c t h0 h1)
          unfold owns; iexists _; isplitr
          swap; · iexact HS2
          ipureintro; exact View.read_writes_eq_canon _ _ _ (scover_A_2 V c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := by omega
    by_cases h1 : t.val % 4 = 3
    · rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_C V c t h0 h1]
      unfold outC scC readBack; (try dsimp only)
      rw [PhiS1_castSucc V c t, PhiS1_pos V c _ _ hz]
      iintro ⟨⟨⟨Ho0, Ho1, Ho2, Ho3, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC V c t h0 h1 _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, ⟨%e7, H7⟩, ⟨%es0, HS0⟩, ⟨%es1, HS1⟩, ⟨%es2, HS2⟩⟩
      isplitl [Ho0 Ho1 Ho2 Ho3 HS0 HS1 HS2 Hg]
      · isplitr [Hg]
        · isplitl [Ho0]; · iexact Ho0
          isplitl [Ho1]; · iexact Ho1
          isplitl [Ho2]; · iexact Ho2
          isplitl [Ho3]; · iexact Ho3
          isplitl [HS0]
          · unfold owns; iexists _; isplitr
            swap; · iexact HS0
            ipureintro; exact View.read_writes_eq_canon _ _ _ (scover_C_0 V c t h0 h1 _)
          isplitl [HS1]
          · unfold owns; iexists _; isplitr
            swap; · iexact HS1
            ipureintro; exact View.read_writes_eq_canon _ _ _ (scover_C_1 V c t h0 h1 _)
          unfold owns; iexists _; isplitr
          swap; · iexact HS2
          ipureintro; exact View.read_writes_eq_canon _ _ _ (scover_C_2 V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_eq_canon _ _ _ (cover_C_7 V c t h0 h1 _)
    · rw [Dat.leavesExact_idle (dat1 V c) 7 t (idleAt1_7 t (fun h => h1 ((hcond1_1 t).mp h))) (noFlush1_7 t (fun h => h1 ((hcond1_1 t).mp h)))]
      rw [outsAt1_B V c t h0 h1]
      unfold scB readBack; (try dsimp only)
      rw [PhiS1_castSucc V c t, PhiS1_pos V c _ _ hz]
      iintro ⟨⟨⟨Ho0, Ho1, Ho2, Ho3, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t h0 h1 _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es0, HS0⟩, ⟨%es1, HS1⟩, ⟨%es2, HS2⟩⟩
      isplitl [Ho0 Ho1 Ho2 Ho3 HS0 HS1 HS2 Hg]
      · isplitr [Hg]
        · isplitl [Ho0]; · iexact Ho0
          isplitl [Ho1]; · iexact Ho1
          isplitl [Ho2]; · iexact Ho2
          isplitl [Ho3]; · iexact Ho3
          isplitl [HS0]
          · unfold owns; iexists _; isplitr
            swap; · iexact HS0
            ipureintro; exact View.read_writes_eq_canon _ _ _ (scover_B_0 V c t h0 h1 _)
          isplitl [HS1]
          · unfold owns; iexists _; isplitr
            swap; · iexact HS1
            ipureintro; exact View.read_writes_eq_canon _ _ _ (scover_B_1 V c t h0 h1 _)
          unfold owns; iexists _; isplitr
          swap; · iexact HS2
          ipureintro; exact View.read_writes_eq_canon _ _ _ (scover_B_2 V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulators' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨Ho0, Ho1, Ho2, Ho3, HS0, HS1, HS2⟩, Hg⟩
  isplitr [Hg]
  · isplitl [Ho0]; · iexact Ho0
    isplitl [Ho1]; · iexact Ho1
    isplitl [Ho2]; · iexact Ho2
    isplitl [Ho3]; · iexact Ho3
    isplitl [HS0]; · iexists _; iexact HS0
    isplitl [HS1]; · iexists _; iexact HS1
    iexists _; iexact HS2
  iexact Hg

end Cert.Kernel.Fr

end
-- ==== Proof.K.Run.lean ====
import proofs.«149419_j58626303590625_1_alg».proof.Proof.K.Region0
import proofs.«149419_j58626303590625_1_alg».proof.Proof.K.R1Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # @main from the launch to the return

@main stacks `x` over `prototypes`, calls the projection kernel, slices its two results into their upper and lower
halves and reshapes the three scalars, and calls the pairwise kernel.  Below: what core `c`'s buffers hold at each of the
five boundaries, that no step touches an argument, the two calls as items of @main, and the launch. -/

variable (m : (ℓ : Loc nD τ sig) → Buf (Elt F) ℓ) (ρ : Dev nD → PrngReg)

/-! ## The buffers at the five boundaries -/

/-- At launch. -/
abbrev W0 : Dev nD → Valuation τ sig (Elt F) := fun c b => (s₀ m ρ).mem ((c : Dev nD), b)
/-- After the stacking: what the projection call is entered with. -/
abbrev W1 : Dev nD → Valuation τ sig (Elt F) := fun c => StableHlo.after hostOps0 (W0 m ρ c)
/-- The same at the core's own references. -/
abbrev V1 : (c : Dev nD) → (b : Ref sig .tc) → Buf (Elt F) ((c : Thread nD τ).loc b) := fun c b => W1 m ρ c b
/-- After the projection call: its four arrays at what its write-backs leave, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- After the slices and reshapes: what the pairwise call is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the pairwise call: its eight arrays at what its write-backs leave, every other buffer as before. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-! ## No step touches an argument -/

/-- The stacking writes only the stacked array. -/
theorem stack_keeps (W : Valuation τ sig (Elt F)) (b : Ref sig .tc) (hb : b ≠ main_v0) :
    StableHlo.after hostOps0 W (Proc.devRef .tc b) = W (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

/-- The slices and reshapes write only their seven results. -/
theorem slices_keep (W : Valuation τ sig (Elt F)) (b : Ref sig .tc)
    (hb : b ≠ main_v2 ∧ b ≠ main_v3 ∧ b ≠ main_v4 ∧ b ≠ main_v5 ∧ b ≠ main_v6 ∧ b ≠ main_v7 ∧ b ≠ main_v8) :
    StableHlo.after hostOps1 W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2.1, StableHlo.devRef_ne_of_ne hb.2.2.2.2.2.1,
      StableHlo.devRef_ne_of_ne hb.2.2.2.2.2.2⟩))

/-- A buffer that is no array of either call and no result of a host operation ends as launched. -/
theorem W4_of_untouched (c : Dev nD) (b : Ref sig .tc) (h1 : ∀ w, Pipeline.arrRef spec1 w ≠ b)
    (hs : b ≠ main_v2 ∧ b ≠ main_v3 ∧ b ≠ main_v4 ∧ b ≠ main_v5 ∧ b ≠ main_v6 ∧ b ≠ main_v7 ∧ b ≠ main_v8)
    (h0 : ∀ w, Pipeline.arrRef spec0 w ≠ b) (hk : b ≠ main_v0) :
    W4 m ρ c (Proc.devRef .tc b) = m ((c : Thread nD τ).loc b) :=
  (W4_of_ne m ρ c b h1).trans ((slices_keep _ b hs).trans ((W2_of_ne m ρ c b h0).trans (stack_keeps _ b hk)))

theorem W4_main_arg0 (c : Dev nD) : W4 m ρ c (Proc.devRef .tc main_arg0) = m ((c : Thread nD τ).loc main_arg0) :=
  W4_of_untouched m ρ c main_arg0 (by decide) (by decide) (by decide) (by decide)
theorem W4_main_arg2 (c : Dev nD) : W4 m ρ c (Proc.devRef .tc main_arg2) = m ((c : Thread nD τ).loc main_arg2) :=
  W4_of_untouched m ρ c main_arg2 (by decide) (by decide) (by decide) (by decide)
theorem W4_main_arg3 (c : Dev nD) : W4 m ρ c (Proc.devRef .tc main_arg3) = m ((c : Thread nD τ).loc main_arg3) :=
  W4_of_untouched m ρ c main_arg3 (by decide) (by decide) (by decide) (by decide)
theorem W4_main_arg4 (c : Dev nD) : W4 m ρ c (Proc.devRef .tc main_arg4) = m ((c : Thread nD τ).loc main_arg4) :=
  W4_of_untouched m ρ c main_arg4 (by decide) (by decide) (by decide) (by decide)
theorem W4_main_arg5 (c : Dev nD) : W4 m ρ c (Proc.devRef .tc main_arg5) = m ((c : Thread nD τ).loc main_arg5) :=
  W4_of_untouched m ρ c main_arg5 (by decide) (by decide) (by decide) (by decide)
/-- `features` is the projection call's second input array: an input's array ends as it was entered. -/
theorem W4_main_arg1 (c : Dev nD) : W4 m ρ c (Proc.devRef .tc main_arg1) = m ((c : Thread nD τ).loc main_arg1) :=
  (W4_of_ne m ρ c main_arg1 (by decide)).trans ((slices_keep _ main_arg1 (by decide)).trans
    (((W2_arr m ρ c 1).trans (((dat0 (V1 m ρ) c).arrAt_in 1 rfl _).trans (A_eq0 (V1 m ρ) c 1))).trans
      (stack_keeps _ main_arg1 (by decide))))

/-! ## The two calls' proof data and what rides along -/

/-- Neither call has a prefetched table. -/
abbrev adm : (p : Fin 2) → (pcfgs (F := F) p).Adm := fun p => (cfgs p).toPCfg_adm
/-- Each call's proof data at the contents it is entered with. -/
def stages : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev noVariants : Variants := Variants.none
/-- No core owes another anything. -/
abbrev noPairs : GSem nD τ sig → Finset Unit := fun _ => ∅
abbrev noLevel : GSem nD τ sig → Unit → ℕ := fun _ _ => 0
/-- Beside the buffers every item carries the core's generator register at some state and the fact that it owes nothing. -/
abbrev riding (c : Dev nD) : sProp 𝕄 := iprop((∃ r, prngReg c r) ∗ ∃ O, owes (c : Thread nD τ) (0 : CellTallies nD τ sig Unit) O)
/-- A stretch of host operations as an item, from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem stack_allocates_nothing : (hostOps0 : List (HloOp τ sig (Elt F))).Forall fun op => op.fresh = ∅ := by
  simp only [List.Forall]; repeat' constructor
theorem slices_allocate_nothing : (hostOps1 : List (HloOp τ sig (Elt F))).Forall fun op => op.fresh = ∅ := by
  simp only [List.Forall]; repeat' constructor
theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the last item leaves, apart from the core owing nothing. -/
abbrev endState (c : Dev nD) : sProp 𝕄 := iprop(StableHlo.held (c : Thread nD τ) (Pipeline.ucRefs τ sig) (W4 m ρ c) ∗ ∃ r, prngReg c r)

/-! ## The two calls as items -/

set_option backward.isDefEq.respectTransparency.types false in
/-- The projection call as an item of @main: entered with every unscoped buffer at `W1`, left with them at `W2`.
    On entry the call's arrays are taken out of the unscoped buffers; on exit they are put back at what the write-backs
    left; the generator register goes into the region's invariant and comes back; nothing is owed to another core and
    the kernel has no semaphore of its own. -/
def projRegion : Pipeline.RegionSeg (pcfgs (F := F)) adm (stages m ρ) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noPairs noLevel 0 fun _ _ => rfl
  pre c := iprop(StableHlo.held (c : Thread nD τ) (Pipeline.ucRefs τ sig) (W1 m ρ c) ∗ riding c)
  post c := iprop(StableHlo.held (c : Thread nD τ) (Pipeline.ucRefs τ sig) (W2 m ρ c) ∗ riding c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (stages m ρ) launch0.win launch0.arr_whole c
      ((stages m ρ 0 c).share_full fun _ => rfl) (V1 m ρ c) fun _ => rfl
    rw [Pipeline.unscopedBufs_held] at hsplit
    iintro ⟨⟨Hbufs, Hgen, Howes⟩, -, -⟩
    ihave Hparts := hsplit $$ Hbufs
    icases Hparts with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%O, Howes⟩; iexists O; isplitr; · ipureintro; exact fun _ _ => Or.inl trivial
      iexact Howes
    isplitl [Hgen]; · iexact Hgen
    iexact Hrest
  hin c := by
    -- the class invariant is the scoped rest beside the generator register
    rw [show (stages m ρ 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (stages m ρ 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (stages m ρ) ((stages m ρ 0 c).share_full fun _ => rfl)
      (V1 m ρ c) (fun b => W2 m ρ c b) ((stages m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    unfold Pipeline.Dat.owesAt Pipeline.owesWithin
    icases Howes with ⟨%O, -, Howes⟩; iexists O; iexact Howes

set_option backward.isDefEq.respectTransparency.types false in
/-- The pairwise call as an item of @main: entered with every unscoped buffer at `W3`, left with them at `W4`.
    On entry the call's arrays are taken out of the unscoped buffers; on exit they are put back at what the write-backs
    left; the generator register goes into the region's invariant and comes back; nothing is owed to another core and
    the kernel has no semaphore of its own. -/
def pairRegion : Pipeline.RegionSeg (pcfgs (F := F)) adm (stages m ρ) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ noPairs noLevel 1 fun _ _ => rfl
  pre c := iprop(StableHlo.held (c : Thread nD τ) (Pipeline.ucRefs τ sig) (W3 m ρ c) ∗ riding c)
  post c := iprop(endState m ρ c ∗ ∃ O, owes (c : Thread nD τ) (0 : CellTallies nD τ sig Unit) O)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (stages m ρ) launch1.win launch1.arr_whole c
      ((stages m ρ 1 c).share_full fun _ => rfl) (V3 m ρ c) fun _ => rfl
    rw [Pipeline.unscopedBufs_held] at hsplit
    iintro ⟨⟨Hbufs, Hgen, Howes⟩, -, -⟩
    ihave Hparts := hsplit $$ Hbufs
    icases Hparts with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%O, Howes⟩; iexists O; isplitr; · ipureintro; exact fun _ _ => Or.inl trivial
      iexact Howes
    isplitl [Hgen]; · iexact Hgen
    iexact Hrest
  hin c := by
    -- before the first point the tracked invariant is the class invariant
    rw [show (stages m ρ 1 c).Φ 0 = Pipeline.ΦA spec1 c from rfl]; unfold Pipeline.ΦA
    iintro ⟨Hgen, -, Hscoped⟩
    isplitl [Hscoped]; · iexact Hscoped
    iexact Hgen
  hout c := by
    -- after the last point the accumulators' contents are forgotten: the class invariant again
    rw [Pipeline.ownSems0_none]
    refine (hout1 (V3 m ρ) c).trans (?_ : Pipeline.ΦA spec1 c ⊢ _)
    unfold Pipeline.ΦA
    iintro ⟨Hscoped, Hgen⟩
    isplitl [Hgen]; · iexact Hgen
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (stages m ρ) ((stages m ρ 1 c).share_full fun _ => rfl)
      (V3 m ρ c) (fun b => W4 m ρ c b) ((stages m ρ 1 c).arrAt · cfg1.N) (fun w => (W4_arr m ρ c w).symm)
      (fun b hb => W4_of_ne m ρ c b fun w e => hb (Finset.mem_image.mpr ⟨w, Finset.mem_univ _, e⟩))
    rw [Pipeline.unscopedBufs_held] at hjoin
    iintro ⟨Harr, Howes, Hgen, Hrest⟩
    imodintro
    isplitl [Harr Hrest Hgen]
    · isplitl [Harr Hrest]
      · iapply hjoin; isplitl [Harr] <;> iassumption
      iexact Hgen
    unfold Pipeline.Dat.owesAt Pipeline.owesWithin
    icases Howes with ⟨%O, -, Howes⟩; iexists O; iexact Howes

/-! ## The launch -/

/-- @main's four items in order. -/
abbrev items : List (Pipeline.Seg (pcfgs (F := F)) adm (stages m ρ) () defs₀ noVariants noPairs noLevel) :=
  [ .host (hostItem hostOps0 hostOps0_sub stack_allocates_nothing (W0 m ρ)),
    .region (projRegion m ρ),
    .host (hostItem hostOps1 hostOps1_sub slices_allocate_nothing (W2 m ρ)),
    .region (pairRegion m ρ) ]
theorem main_is_items (c : Dev nD) : main (F := F) c = Pipeline.Seg.run (items m ρ) := (main_chain c).trans (by chain_rfl)

set_option backward.isDefEq.respectTransparency.types false in
/-- Every weakly fair execution of @main from memory `m` with zero counters terminates, nothing faulting, and every final
    state has the result array at the last boundary's contents and the six argument arrays as launched. -/
theorem run_main : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (stages m ρ) () cellOf_inj emb₁ defs₀ noVariants noPairs noLevel m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the user component is the cells' launch state; no ghost resource beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ riding c)) (Tₙ := endState m ρ)
    (hch := ⟨fun _ => .rfl, fun _ => .rfl, fun _ => .rfl, fun _ => .rfl, fun _ => .rfl⟩)
    (hinit := by
      -- the launch hands each core its unscoped buffers at the launch memory, its generator register and nothing owed
      refine Pipeline.initEach noPairs noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = W4 m ρ c b)
    (hfin := fun c s' => by
      -- the last state's buffers are read against the final memory
      iintro ⟨⟨Hbufs, -⟩, HSI⟩
      unfold StableHlo.held
      imodintro
      iapply (pointsTo_read_all (Pipeline.ucRefs τ sig) (fun b => (((c : Thread nD τ)).1, b)) (W4 m ρ c) s')
      isplitl [Hbufs] <;> iassumption)
    (hQ := fun s h c =>
      ⟨h c _ (unscoped_mem main_v9 (by decide)),
       (h c _ (unscoped_mem main_arg0 (by decide))).trans (W4_main_arg0 m ρ c),
       (h c _ (unscoped_mem main_arg1 (by decide))).trans (W4_main_arg1 m ρ c),
       (h c _ (unscoped_mem main_arg2 (by decide))).trans (W4_main_arg2 m ρ c),
       (h c _ (unscoped_mem main_arg3 (by decide))).trans (W4_main_arg3 m ρ c),
       (h c _ (unscoped_mem main_arg4 (by decide))).trans (W4_main_arg4 m ρ c),
       (h c _ (unscoped_mem main_arg5 (by decide))).trans (W4_main_arg5 m ρ c)⟩)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.Kernel.Fr

end
-- ==== Proof.KI.Region0.lean ====
/- The first pallas_call of the idealized program (`cc0__proj_kernel`, pipeline 0, grid of one point), at a
   PARAMETER `V` — the TensorCore's buffer contents when the region is entered —: each window's block at a point
   (`iblk0`), what the body leaves in each output window's buffer (`out0_2`, `out0_3`), the body's triple
   (`sound_kernel0`), the pipeline's proof data (`dat0`) and the body obligation (`body_obligation0`).
   The body reads its two input windows whole, writes the contraction of the two over their long axis into
   output window 2 and the squashed contraction into output window 3; it also reads both output buffers before
   writing them, and uses neither value. -/
import proofs.«149419_j58626303590625_1_alg».proof.Proof.Gen.KernelIdeal.Launch
import proofs.«149419_j58626303590625_1_alg».proof.Proof.Gen.KernelIdeal.Skeleton
import proofs.«149419_j58626303590625_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents (`View.cover_of_tiled`): the elaborator's structural look
-- recurses once per coordinate of the long axes
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole of an input window's buffer. -/
abbrev r0_0 : Rect S512x1024 := Rect.unit (s := S512x1024) ![0, 0] S512x1024.size inb_S512x1024_S512x1024_0_0
/-- The whole of an output window's buffer. -/
abbrev r0_1 : Rect S512x512 := Rect.unit (s := S512x512) ![0, 0] S512x512.size inb_S512x512_S512x512_0_0

/-! ## What the body leaves in each output window's buffer -/

/-- Window 2's staging buffer after the body, from the input windows' blocks: its one store as a piece, the
    payload the contraction of the two blocks. -/
def out0_2 (x0 x1 : Vec F S512x1024 .f32) : Vec F S512x512 .f32 :=
  View.canon [⟨r0_1, k0_pay1 (View.ld x0 r0_0) (View.ld x1 r0_0)⟩]

/-- Window 3's staging buffer after the body: its one store as a piece, the payload the squashed contraction. -/
def out0_3 (x0 x1 : Vec F S512x1024 .f32) : Vec F S512x512 .f32 :=
  View.canon [⟨r0_1, k0_pay2 (View.ld x0 r0_0) (View.ld x1 r0_0)⟩]

/-- One store over the whole buffer tiles it (checked by evaluation), so it covers it. -/
theorem cover0_out (p0 : Vec F S512x512 .f32) (y : S512x512.Idx) :
    ∃ pc ∈ ([⟨r0_1, p0⟩] : List (View.Piece (Elt F) S512x512 .f32)), y ∈ pc.1.set :=
  View.cover_of_tiled [⟨r0_1, p0⟩] S512x512.size (by rfl) y

/-! ## The body's triple -/

set_option maxHeartbeats 4000000 in
/-- The kernel body on whole staging memrefs, the inputs' at read contents `x0`, `x1` and the outputs' at anything,
    runs to the continuation holding the inputs' as they were and each output's at `out0_W` of the inputs'. The two
    reads of the output buffers take whatever is there and the values are dropped. -/
theorem sound_kernel0 (c : Dev nD) (E : Set ℕ) (i : grid0.Coords)
    (arg0 : Memref sig .tc .vmem S512x1024 .f32) (harg0 : arg0.IsWhole) (arg1 : Memref sig .tc .vmem S512x1024 .f32) (harg1 : arg1.IsWhole)
    (arg2 : Memref sig .tc .vmem S512x512 .f32) (harg2 : arg2.IsWhole) (arg3 : Memref sig .tc .vmem S512x512 .f32) (harg3 : arg3.IsWhole)
    (x0 x1 : Vec F S512x1024 .f32) (K : PUnit → sProp 𝕄) :
    iprop(owns (c : Thread nD τ) arg0 fullShare x0 ∗ owns (c : Thread nD τ) arg1 fullShare x1
        ∗ (∃ d, owns (c : Thread nD τ) arg2 fullShare d) ∗ (∃ d, owns (c : Thread nD τ) arg3 fullShare d)
        ∗ (iprop(owns (c : Thread nD τ) arg0 fullShare x0 ∗ owns (c : Thread nD τ) arg1 fullShare x1
            ∗ owns (c : Thread nD τ) arg2 fullShare (out0_2 x0 x1) ∗ owns (c : Thread nD τ) arg3 fullShare (out0_3 x0 x1)) -∗ K ⟨⟩))
      ⊢ wp frame (wpE (defs₀ (F := F)) Variants.none c none) E (cc0__proj_kernel i arg0 harg0 arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, ⟨%d3, %f3, -, H3⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_out _)
  iexists _; isplitr
  swap; · iexact H3
  ipureintro
  exact View.read_writes_eq_canon _ _ _ (cover0_out _)

/-! ## The pipeline's proof data -/

/-- The proof data of pipeline 0 on core `c`: the arrays as the region finds them (`V`); after the body at
    point `t` each input's buffer at its block and each output's at `out0_W` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Fr

end
-- ==== Proof.KI.R1Base.lean ====
import proofs.«149419_j58626303590625_1_alg».proof.Proof.Gen.KernelIdeal.Launch
import proofs.«149419_j58626303590625_1_alg».proof.Proof.Gen.KernelIdeal.Skeleton
import proofs.«149419_j58626303590625_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call: what its runs are stated over

The grid is 4 × 2 × 4, the last axis innermost: point `t` has last coordinate `t % 4`.  The three accumulators are
zeroed at the points with last coordinate 0 and the output block is stored at those with last coordinate 3. -/

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The accumulators are zeroed: the last coordinate is 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- The output block is stored: the last coordinate is 3. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

/-! ## The staging and scratch memrefs -/

abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
abbrev ms1_4 (t : Fin cfg1.N) := win1_4.stage (cfg1.slots t 4)
abbrev hs1_4 (t : Fin cfg1.N) : (ms1_4 t).IsWhole := hstage1_4 ((cfg1.slots t 4).cast nbuf1_4)
abbrev ms1_5 (t : Fin cfg1.N) := win1_5.stage (cfg1.slots t 5)
abbrev hs1_5 (t : Fin cfg1.N) : (ms1_5 t).IsWhole := hstage1_5 ((cfg1.slots t 5).cast nbuf1_5)
abbrev ms1_6 (t : Fin cfg1.N) := win1_6.stage (cfg1.slots t 6)
abbrev hs1_6 (t : Fin cfg1.N) : (ms1_6 t).IsWhole := hstage1_6 ((cfg1.slots t 6).cast nbuf1_6)
abbrev ms1_7 (t : Fin cfg1.N) := win1_7.stage (cfg1.slots t 7)
abbrev hs1_7 (t : Fin cfg1.N) : (ms1_7 t).IsWhole := hstage1_7 ((cfg1.slots t 7).cast nbuf1_7)
abbrev scM1_0 : Memref sig .tc .vmem S64x128 .f32 := Memref.whole cc1_scratch0
abbrev scM1_1 : Memref sig .tc .vmem S64x128 .f32 := Memref.whole cc1_scratch1
abbrev scM1_2 : Memref sig .tc .vmem S64x128 .f32 := Memref.whole cc1_scratch2

/-- The first pallas_call's staging buffers, which this region never touches, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f))

/-- The class invariant with the scratch operands as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Fr

end
-- ==== Proof.KI.R1RunA.lean ====
import proofs.«149419_j58626303590625_1_alg».proof.Proof.KI.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call's body, case A
The accumulators are zeroed first (last grid coordinate 0); nothing is stored into the output block. -/

set_option maxHeartbeats 4000000 in
/-- What the body's stores leave in the output's and the three accumulators' memrefs, as pieces (last first), with the
    proof that on whole memrefs — the inputs' at their contents, the output's handed back untouched, the accumulators' at
    anything — the body runs to the continuation holding them so. -/
noncomputable def kernelRun1_A (c : Dev nD) (i : grid1.Coords) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S64x128 .f32) (harg13 : arg13.IsWhole) (hc0 : cond1_0 i) (hc1 : ¬cond1_1 i)
    (x0 : Vec F S1x1 .f32) (x1 : Vec F S1x1 .f32) (x2 : Vec F S1x1 .f32) (x3 : Vec F S64x128 .f32) (x4 : Vec F S64x128 .f32) (x5 : Vec F S128x128 .f32) (x6 : Vec F S128x128 .f32) :
    Σ' (L7 : List (View.Piece (Elt F) S64x128 .f32)) (LS0 : List (View.Piece (Elt F) S64x128 .f32)) (LS1 : List (View.Piece (Elt F) S64x128 .f32)), { LS2 : List (View.Piece (Elt F) S64x128 .f32) //
      ∀ (xi7 : Vec F S64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc1__pairwise_kernel i arg3 harg3 arg4 harg4 arg5 harg5 arg6 harg6 arg7 harg7 arg8 harg8 arg9 harg9 arg10 harg10 arg11 harg11 arg12 harg12 arg13 harg13) K } := by
  refine ⟨[], ?_, ?_, ?_, fun xi7 E K => ?run⟩
  case run =>
    simp only [cc1__pairwise_kernel_eq_skeleton]; unfold cc1__pairwise_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    iexists _; iexact HS2

end Cert.KernelIdeal.Fr

end
-- ==== Proof.KI.R1RunB.lean ====
import proofs.«149419_j58626303590625_1_alg».proof.Proof.KI.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call's body, case B
The accumulators are added to (last grid coordinate 1 or 2); nothing is stored into the output block. -/

set_option maxHeartbeats 4000000 in
/-- What the body's stores leave in the output's and the three accumulators' memrefs, as pieces (last first), with the
    proof that on whole memrefs — the inputs' at their contents, the output's handed back untouched, the accumulators' at
    what the point before left — the body runs to the continuation holding them so. -/
noncomputable def kernelRun1_B (c : Dev nD) (i : grid1.Coords) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S64x128 .f32) (harg13 : arg13.IsWhole) (hc0 : ¬cond1_0 i) (hc1 : ¬cond1_1 i)
    (x0 : Vec F S1x1 .f32) (x1 : Vec F S1x1 .f32) (x2 : Vec F S1x1 .f32) (x3 : Vec F S64x128 .f32) (x4 : Vec F S64x128 .f32) (x5 : Vec F S128x128 .f32) (x6 : Vec F S128x128 .f32) (xs0 : Vec F S64x128 .f32) (xs1 : Vec F S64x128 .f32) (xs2 : Vec F S64x128 .f32) :
    Σ' (L7 : List (View.Piece (Elt F) S64x128 .f32)) (LS0 : List (View.Piece (Elt F) S64x128 .f32)) (LS1 : List (View.Piece (Elt F) S64x128 .f32)), { LS2 : List (View.Piece (Elt F) S64x128 .f32) //
      ∀ (xi7 : Vec F S64x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ owns (c : Thread nD τ) arg11 fullShare xs0 ∗ owns (c : Thread nD τ) arg12 fullShare xs1 ∗ owns (c : Thread nD τ) arg13 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xi7 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc1__pairwise_kernel i arg3 harg3 arg4 harg4 arg5 harg5 arg6 harg6 arg7 harg7 arg8 harg8 arg9 harg9 arg10 harg10 arg11 harg11 arg12 harg12 arg13 harg13) K } := by
  refine ⟨[], ?_, ?_, ?_, fun xi7 E K => ?run⟩
  case run =>
    simp only [cc1__pairwise_kernel_eq_skeleton]; unfold cc1__pairwise_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [HS0]; · iexists _; iexact HS0
    isplitl [HS1]; · iexists _; iexact HS1
    iexists _; iexact HS2

end Cert.KernelIdeal.Fr

end
-- ==== Proof.KI.R1RunC.lean ====
import proofs.«149419_j58626303590625_1_alg».proof.Proof.KI.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call's body, case C
The accumulators are added to and the output block is stored from them (last grid coordinate 3). -/

set_option maxHeartbeats 4000000 in
/-- What the body's stores leave in the output's and the three accumulators' memrefs, as pieces (last first), with the
    proof that on whole memrefs — the inputs' at their contents, the output's at anything, the accumulators' at
    what the point before left — the body runs to the continuation holding them so. -/
noncomputable def kernelRun1_C (c : Dev nD) (i : grid1.Coords) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S64x128 .f32) (harg6 : arg6.IsWhole) (arg7 : Memref sig .tc .vmem S64x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S64x128 .f32) (harg10 : arg10.IsWhole) (arg11 : Memref sig .tc .vmem S64x128 .f32) (harg11 : arg11.IsWhole) (arg12 : Memref sig .tc .vmem S64x128 .f32) (harg12 : arg12.IsWhole) (arg13 : Memref sig .tc .vmem S64x128 .f32) (harg13 : arg13.IsWhole) (hc0 : ¬cond1_0 i) (hc1 : cond1_1 i)
    (x0 : Vec F S1x1 .f32) (x1 : Vec F S1x1 .f32) (x2 : Vec F S1x1 .f32) (x3 : Vec F S64x128 .f32) (x4 : Vec F S64x128 .f32) (x5 : Vec F S128x128 .f32) (x6 : Vec F S128x128 .f32) (xs0 : Vec F S64x128 .f32) (xs1 : Vec F S64x128 .f32) (xs2 : Vec F S64x128 .f32) :
    Σ' (L7 : List (View.Piece (Elt F) S64x128 .f32)) (LS0 : List (View.Piece (Elt F) S64x128 .f32)) (LS1 : List (View.Piece (Elt F) S64x128 .f32)), { LS2 : List (View.Piece (Elt F) S64x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xs0 ∗ owns (c : Thread nD τ) arg12 fullShare xs1 ∗ owns (c : Thread nD τ) arg13 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ f, arg13.view.loc (c : Thread nD τ) ↦[arg13.view.set]{fullShare} arg13.view.writes (Elt F) f LS2)) -∗ K ⟨⟩))
          ⊢ wp frame (wpE (defs₀ (F := F)) Variants.none c none) E (cc1__pairwise_kernel i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc1__pairwise_kernel_eq_skeleton]; unfold cc1__pairwise_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hfs0; obtain rfl := harg12.eq_unread hfs1; obtain rfl := harg13.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [HS0]; · iexists _; iexact HS0
    isplitl [HS1]; · iexists _; iexact HS1
    iexists _; iexact HS2

end Cert.KernelIdeal.Fr

end
-- ==== Proof.KI.R1Frame.lean ====
import proofs.«149419_j58626303590625_1_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call: what its buffers hold point by point, its proof data and its body obligation -/

variable (V : (c : Dev nD) → (b : Ref sig .tc) → Buf (Elt F) ((c : Thread nD τ).loc b))

/-- Views through which the output block's and the accumulators' contents are stated. -/
abbrev VO1_7 : View sig .tc .vmem S64x128 .f32 := (Memref.whole cc1_stg7_0 : Memref sig .tc .vmem S64x128 .f32).view
abbrev VS1_0 : View sig .tc .vmem S64x128 .f32 := scM1_0.view
abbrev VS1_1 : View sig .tc .vmem S64x128 .f32 := scM1_1.view
abbrev VS1_2 : View sig .tc .vmem S64x128 .f32 := scM1_2.view

/-- The contents named for the output block's buffer at the points where nothing is stored into it: never consulted. -/
def junk7 : Vec F S64x128 .f32 := VO1_7.read (Elt F) VO1_7.junk

/-- What a covering list of pieces (last first) leaves in a buffer. -/
def readBack (L : List (View.Piece (Elt F) S64x128 .f32)) : Vec F S64x128 .f32 := View.canon L

section Cases
variable (c : Dev nD) (t : Fin cfg1.N)

/-- The run of the point `t` when it zeroes the accumulators. -/
def runA (h0 : t.val % 4 = 0) (h1 : ¬t.val % 4 = 3) :=
  kernelRun1_A (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t) (iblk1 V c 6 t)
/-- The run of the point `t` when it only adds to the accumulators, from their contents `xs`. -/
def runB (h0 : ¬t.val % 4 = 0) (h1 : ¬t.val % 4 = 3) (xs : Vec F S64x128 .f32 × Vec F S64x128 .f32 × Vec F S64x128 .f32) :=
  kernelRun1_B (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (iblk1 V c 6 t) xs.1 xs.2.1 xs.2.2
/-- The run of the point `t` when it adds to the accumulators and stores the output block. -/
def runC (h0 : ¬t.val % 4 = 0) (h1 : t.val % 4 = 3) (xs : Vec F S64x128 .f32 × Vec F S64x128 .f32 × Vec F S64x128 .f32) :=
  kernelRun1_C (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (iblk1 V c 6 t) xs.1 xs.2.1 xs.2.2

/-- Case A's pieces for accumulator 0 cover it. -/
theorem scover_A_0 (h0 : t.val % 4 = 0) (h1 : ¬t.val % 4 = 3) (y : S64x128.Idx) : ∃ pc ∈ (runA V c t h0 h1).2.1, y ∈ pc.1.set :=
  View.cover_of_tiledL (runA V c t h0 h1).2.1 S64x128.size (by unfold runA; sl_kernel_rfl) y
/-- Case A's pieces for accumulator 1 cover it. -/
theorem scover_A_1 (h0 : t.val % 4 = 0) (h1 : ¬t.val % 4 = 3) (y : S64x128.Idx) : ∃ pc ∈ (runA V c t h0 h1).2.2.1, y ∈ pc.1.set :=
  View.cover_of_tiledL (runA V c t h0 h1).2.2.1 S64x128.size (by unfold runA; sl_kernel_rfl) y
/-- Case A's pieces for accumulator 2 cover it. -/
theorem scover_A_2 (h0 : t.val % 4 = 0) (h1 : ¬t.val % 4 = 3) (y : S64x128.Idx) : ∃ pc ∈ (runA V c t h0 h1).2.2.2.1, y ∈ pc.1.set :=
  View.cover_of_tiledL (runA V c t h0 h1).2.2.2.1 S64x128.size (by unfold runA; sl_kernel_rfl) y
/-- What case A leaves in the three accumulators. -/
def scA (h0 : t.val % 4 = 0) (h1 : ¬t.val % 4 = 3) : Vec F S64x128 .f32 × Vec F S64x128 .f32 × Vec F S64x128 .f32 :=
  (readBack (runA V c t h0 h1).2.1, readBack (runA V c t h0 h1).2.2.1, readBack (runA V c t h0 h1).2.2.2.1)

/-- Case B's pieces for accumulator 0 cover it. -/
theorem scover_B_0 (h0 : ¬t.val % 4 = 0) (h1 : ¬t.val % 4 = 3) (xs : Vec F S64x128 .f32 × Vec F S64x128 .f32 × Vec F S64x128 .f32) (y : S64x128.Idx) : ∃ pc ∈ (runB V c t h0 h1 xs).2.1, y ∈ pc.1.set :=
  View.cover_of_tiledL (runB V c t h0 h1 xs).2.1 S64x128.size (by unfold runB; sl_kernel_rfl) y
/-- Case B's pieces for accumulator 1 cover it. -/
theorem scover_B_1 (h0 : ¬t.val % 4 = 0) (h1 : ¬t.val % 4 = 3) (xs : Vec F S64x128 .f32 × Vec F S64x128 .f32 × Vec F S64x128 .f32) (y : S64x128.Idx) : ∃ pc ∈ (runB V c t h0 h1 xs).2.2.1, y ∈ pc.1.set :=
  View.cover_of_tiledL (runB V c t h0 h1 xs).2.2.1 S64x128.size (by unfold runB; sl_kernel_rfl) y
/-- Case B's pieces for accumulator 2 cover it. -/
theorem scover_B_2 (h0 : ¬t.val % 4 = 0) (h1 : ¬t.val % 4 = 3) (xs : Vec F S64x128 .f32 × Vec F S64x128 .f32 × Vec F S64x128 .f32) (y : S64x128.Idx) : ∃ pc ∈ (runB V c t h0 h1 xs).2.2.2.1, y ∈ pc.1.set :=
  View.cover_of_tiledL (runB V c t h0 h1 xs).2.2.2.1 S64x128.size (by unfold runB; sl_kernel_rfl) y
/-- What case B leaves in the three accumulators. -/
def scB (h0 : ¬t.val % 4 = 0) (h1 : ¬t.val % 4 = 3) (xs : Vec F S64x128 .f32 × Vec F S64x128 .f32 × Vec F S64x128 .f32) : Vec F S64x128 .f32 × Vec F S64x128 .f32 × Vec F S64x128 .f32 :=
  (readBack (runB V c t h0 h1 xs).2.1, readBack (runB V c t h0 h1 xs).2.2.1, readBack (runB V c t h0 h1 xs).2.2.2.1)

/-- Case C's pieces for accumulator 0 cover it. -/
theorem scover_C_0 (h0 : ¬t.val % 4 = 0) (h1 : t.val % 4 = 3) (xs : Vec F S64x128 .f32 × Vec F S64x128 .f32 × Vec F S64x128 .f32) (y : S64x128.Idx) : ∃ pc ∈ (runC V c t h0 h1 xs).2.1, y ∈ pc.1.set :=
  View.cover_of_tiledL (runC V c t h0 h1 xs).2.1 S64x128.size (by unfold runC; sl_kernel_rfl) y
/-- Case C's pieces for accumulator 1 cover it. -/
theorem scover_C_1 (h0 : ¬t.val % 4 = 0) (h1 : t.val % 4 = 3) (xs : Vec F S64x128 .f32 × Vec F S64x128 .f32 × Vec F S64x128 .f32) (y : S64x128.Idx) : ∃ pc ∈ (runC V c t h0 h1 xs).2.2.1, y ∈ pc.1.set :=
  View.cover_of_tiledL (runC V c t h0 h1 xs).2.2.1 S64x128.size (by unfold runC; sl_kernel_rfl) y
/-- Case C's pieces for accumulator 2 cover it. -/
theorem scover_C_2 (h0 : ¬t.val % 4 = 0) (h1 : t.val % 4 = 3) (xs : Vec F S64x128 .f32 × Vec F S64x128 .f32 × Vec F S64x128 .f32) (y : S64x128.Idx) : ∃ pc ∈ (runC V c t h0 h1 xs).2.2.2.1, y ∈ pc.1.set :=
  View.cover_of_tiledL (runC V c t h0 h1 xs).2.2.2.1 S64x128.size (by unfold runC; sl_kernel_rfl) y
/-- Case C's pieces for the output block cover it. -/
theorem cover_C_7 (h0 : ¬t.val % 4 = 0) (h1 : t.val % 4 = 3) (xs : Vec F S64x128 .f32 × Vec F S64x128 .f32 × Vec F S64x128 .f32) (y : S64x128.Idx) : ∃ pc ∈ (runC V c t h0 h1 xs).1, y ∈ pc.1.set :=
  View.cover_of_tiledL (runC V c t h0 h1 xs).1 S64x128.size (by unfold runC; sl_kernel_rfl) y
/-- What case C leaves in the three accumulators. -/
def scC (h0 : ¬t.val % 4 = 0) (h1 : t.val % 4 = 3) (xs : Vec F S64x128 .f32 × Vec F S64x128 .f32 × Vec F S64x128 .f32) : Vec F S64x128 .f32 × Vec F S64x128 .f32 × Vec F S64x128 .f32 :=
  (readBack (runC V c t h0 h1 xs).2.1, readBack (runC V c t h0 h1 xs).2.2.1, readBack (runC V c t h0 h1 xs).2.2.2.1)
/-- What case C leaves in the output block's buffer. -/
def outC (h0 : ¬t.val % 4 = 0) (h1 : t.val % 4 = 3) (xs : Vec F S64x128 .f32 × Vec F S64x128 .f32 × Vec F S64x128 .f32) : Vec F S64x128 .f32 := readBack (runC V c t h0 h1 xs).1

end Cases

/-! ## What the buffers hold after each point -/

/-- After the body at position `n`: the output block's buffer, then the three accumulators. -/
def outsAt1 (c : Dev nD) : (n : ℕ) → n < cfg1.N → Vec F S64x128 .f32 × Vec F S64x128 .f32 × Vec F S64x128 .f32 × Vec F S64x128 .f32
  | 0, hn => (junk7, scA V c ⟨0, hn⟩ (Nat.zero_mod _) (show ¬(0 % 4 = 3) by decide))
  | n + 1, hn =>
    if h0 : (n + 1) % 4 = 0 then (junk7, scA V c ⟨n + 1, hn⟩ h0 (show ¬((n + 1) % 4 = 3) by omega))
    else if h1 : (n + 1) % 4 = 3 then
      (outC V c ⟨n + 1, hn⟩ h0 h1 (outsAt1 c n (Nat.lt_of_succ_lt hn)).2, scC V c ⟨n + 1, hn⟩ h0 h1 (outsAt1 c n (Nat.lt_of_succ_lt hn)).2)
    else (junk7, scB V c ⟨n + 1, hn⟩ h0 h1 (outsAt1 c n (Nat.lt_of_succ_lt hn)).2)

theorem outsAt1_A (c : Dev nD) (t : Fin cfg1.N) (h0 : t.val % 4 = 0) (h1 : ¬t.val % 4 = 3) :
    outsAt1 V c t.val t.isLt = (junk7, scA V c t h0 h1) := by
  obtain ⟨n, hn⟩ := t
  cases n with
  | zero => rfl
  | succ n => exact (dif_pos h0).trans rfl

theorem outsAt1_B (c : Dev nD) (t : Fin cfg1.N) (h0 : ¬t.val % 4 = 0) (h1 : ¬t.val % 4 = 3) :
    outsAt1 V c t.val t.isLt = (junk7, scB V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (outC V c t h0 h1 (outsAt1 V c (t.val - 1) (Nat.lt_of_le_of_lt (Nat.sub_le _ _) t.isLt)).2, scC V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position `n`: before the first point the class's (every scoped buffer at anything);
    afterwards the other call's staging buffers at anything, each accumulator at what the point before left in it, and
    the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The proof data -/

/-- The proof data of the second pallas_call on core `c`: the arrays as the region finds them; after the body at point
    `t` each input's buffer at its block and the output's at `outsAt1`'s first component; the invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

end Cert.KernelIdeal.Fr

end
-- ==== Proof.KI.R1Body.lean ====
import proofs.«149419_j58626303590625_1_alg».proof.Proof.KI.R1Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second pallas_call's body obligation -/

variable (V : (c : Dev nD) → (b : Ref sig .tc) → Buf (Elt F) ((c : Thread nD τ).loc b))

set_option maxHeartbeats 8000000 in
/-- The body at any point: the inputs' memrefs hold their blocks; the point's last coordinate says which case it is in;
    the invariant hands the body the accumulators at what the point before left (at anything at the first point) and
    takes them back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  by_cases h0 : t.val % 4 = 0
  · have h1 : ¬t.val % 4 = 3 := by omega
    rw [Dat.leavesExact_idle (dat1 V c) 7 t (idleAt1_7 t (fun h => h1 ((hcond1_1 t).mp h))) (noFlush1_7 t (fun h => h1 ((hcond1_1 t).mp h)))]
    rw [outsAt1_A V c t h0 h1]
    unfold scA readBack; (try dsimp only)
    by_cases hz : t.val = 0
    · rw [PhiS1_castSucc V c t, PhiS1_zero V c _ _ hz, PhiA1_eq]
      iintro ⟨⟨⟨Ho0, Ho1, Ho2, Ho3, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es0, HS0⟩, ⟨%es1, HS1⟩, ⟨%es2, HS2⟩⟩
      isplitl [Ho0 Ho1 Ho2 Ho3 HS0 HS1 HS2 Hg]
      · isplitr [Hg]
        · isplitl [Ho0]; · iexact Ho0
          isplitl [Ho1]; · iexact Ho1
          isplitl [Ho2]; · iexact Ho2
          isplitl [Ho3]; · iexact Ho3
          isplitl [HS0]
          · unfold owns; iexists _; isplitr
            swap; · iexact HS0
            ipureintro; exact View.read_writes_eq_canon _ _ _ (scover_A_0 V c t h0 h1)
          isplitl [HS1]
          · unfold owns; iexists _; isplitr
            swap; · iexact HS1
            ipureintro; exact View.read_writes_eq_canon _ _ _ (scover_A_1 V c t h0 h1)
          unfold owns; iexists _; isplitr
          swap; · iexact HS2
          ipureintro; exact View.read_writes_eq_canon _ _ _ (scover_A_2 V c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
    · rw [PhiS1_castSucc V c t, PhiS1_pos V c _ _ hz]
      iintro ⟨⟨⟨Ho0, Ho1, Ho2, Ho3, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA V c t h0 h1).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexists _; iexact HS0
      isplitl [HS1]; · iexists _; iexact HS1
      isplitl [HS2]; · iexists _; iexact HS2
      iintro ⟨H0, H1, H2, H3, H4, H5, H6, H7, ⟨%es0, HS0⟩, ⟨%es1, HS1⟩, ⟨%es2, HS2⟩⟩
      isplitl [Ho0 Ho1 Ho2 Ho3 HS0 HS1 HS2 Hg]
      · isplitr [Hg]
        · isplitl [Ho0]; · iexact Ho0
          isplitl [Ho1]; · iexact Ho1
          isplitl [Ho2]; · iexact Ho2
          isplitl [Ho3]; · iexact Ho3
          isplitl [HS0]
          · unfold owns; iexists _; isplitr
            swap; · iexact HS0
            ipureintro; exact View.read_writes_eq_canon _ _ _ (scover_A_0 V c t h0 h1)
          isplitl [HS1]
          · unfold owns; iexists _; isplitr
            swap; · iexact HS1
            ipureintro; exact View.read_writes_eq_canon _ _ _ (scover_A_1 V c t h0 h1)
          unfold owns; iexists _; isplitr
          swap; · iexact HS2
          ipureintro; exact View.read_writes_eq_canon _ _ _ (scover_A_2 V c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7
  · have hz : t.val ≠ 0 := by omega
    by_cases h1 : t.val % 4 = 3
    · rw [show (dat1 V c).leavesExact 7 t = owns (c : Thread nD τ) (ms1_7 t) fullShare ((dat1 V c).after 7 t) from by
        unfold Dat.leavesExact; rw [liveAt1_7 t ((hcond1_1 t).mpr h1)], after1_7]
      rw [outsAt1_C V c t h0 h1]
      unfold outC scC readBack; (try dsimp only)
      rw [PhiS1_castSucc V c t, PhiS1_pos V c _ _ hz]
      iintro ⟨⟨⟨Ho0, Ho1, Ho2, Ho3, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC V c t h0 h1 _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      isplitl [HS2]; · iexact HS2
      iintro ⟨H0, H1, H2, H3, H4, H5, H6, ⟨%e7, H7⟩, ⟨%es0, HS0⟩, ⟨%es1, HS1⟩, ⟨%es2, HS2⟩⟩
      isplitl [Ho0 Ho1 Ho2 Ho3 HS0 HS1 HS2 Hg]
      · isplitr [Hg]
        · isplitl [Ho0]; · iexact Ho0
          isplitl [Ho1]; · iexact Ho1
          isplitl [Ho2]; · iexact Ho2
          isplitl [Ho3]; · iexact Ho3
          isplitl [HS0]
          · unfold owns; iexists _; isplitr
            swap; · iexact HS0
            ipureintro; exact View.read_writes_eq_canon _ _ _ (scover_C_0 V c t h0 h1 _)
          isplitl [HS1]
          · unfold owns; iexists _; isplitr
            swap; · iexact HS1
            ipureintro; exact View.read_writes_eq_canon _ _ _ (scover_C_1 V c t h0 h1 _)
          unfold owns; iexists _; isplitr
          swap; · iexact HS2
          ipureintro; exact View.read_writes_eq_canon _ _ _ (scover_C_2 V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_eq_canon _ _ _ (cover_C_7 V c t h0 h1 _)
    · rw [Dat.leavesExact_idle (dat1 V c) 7 t (idleAt1_7 t (fun h => h1 ((hcond1_1 t).mp h))) (noFlush1_7 t (fun h => h1 ((hcond1_1 t).mp h)))]
      rw [outsAt1_B V c t h0 h1]
      unfold scB readBack; (try dsimp only)
      rw [PhiS1_castSucc V c t, PhiS1_pos V c _ _ hz]
      iintro ⟨⟨⟨Ho0, Ho1, Ho2, Ho3, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t h0 h1 _).2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      isplitl [HS2]; · iexact HS2
      iintro ⟨H0, H1, H2, H3, H4, H5, H6, H7, ⟨%es0, HS0⟩, ⟨%es1, HS1⟩, ⟨%es2, HS2⟩⟩
      isplitl [Ho0 Ho1 Ho2 Ho3 HS0 HS1 HS2 Hg]
      · isplitr [Hg]
        · isplitl [Ho0]; · iexact Ho0
          isplitl [Ho1]; · iexact Ho1
          isplitl [Ho2]; · iexact Ho2
          isplitl [Ho3]; · iexact Ho3
          isplitl [HS0]
          · unfold owns; iexists _; isplitr
            swap; · iexact HS0
            ipureintro; exact View.read_writes_eq_canon _ _ _ (scover_B_0 V c t h0 h1 _)
          isplitl [HS1]
          · unfold owns; iexists _; isplitr
            swap; · iexact HS1
            ipureintro; exact View.read_writes_eq_canon _ _ _ (scover_B_1 V c t h0 h1 _)
          unfold owns; iexists _; isplitr
          swap; · iexact HS2
          ipureintro; exact View.read_writes_eq_canon _ _ _ (scover_B_2 V c t h0 h1 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulators' named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 32 := N_1; omega), PhiA1_eq]
  iintro ⟨⟨Ho0, Ho1, Ho2, Ho3, HS0, HS1, HS2⟩, Hg⟩
  isplitr [Hg]
  · isplitl [Ho0]; · iexact Ho0
    isplitl [Ho1]; · iexact Ho1
    isplitl [Ho2]; · iexact Ho2
    isplitl [Ho3]; · iexact Ho3
    isplitl [HS0]; · iexists _; iexact HS0
    isplitl [HS1]; · iexists _; iexact HS1
    iexists _; iexact HS2
  iexact Hg

end Cert.KernelIdeal.Fr

end
-- ==== Proof.KI.Run.lean ====
import proofs.«149419_j58626303590625_1_alg».proof.Proof.KI.Region0
import proofs.«149419_j58626303590625_1_alg».proof.Proof.KI.R1Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # @main from the launch to the return

@main stacks `x` over `prototypes`, calls the projection kernel, slices its two results into their upper and lower
halves and reshapes the three scalars, and calls the pairwise kernel.  Below: what core `c`'s buffers hold at each of the
five boundaries, that no step touches an argument, the two calls as items of @main, and the launch. -/

variable (m : (ℓ : Loc nD τ sig) → Buf (Elt F) ℓ) (ρ : Dev nD → PrngReg)

/-! ## The buffers at the five boundaries -/

/-- At launch. -/
abbrev W0 : Dev nD → Valuation τ sig (Elt F) := fun c b => (s₀ m ρ).mem ((c : Dev nD), b)
/-- After the stacking: what the projection call is entered with. -/
abbrev W1 : Dev nD → Valuation τ sig (Elt F) := fun c => StableHlo.after hostOps0 (W0 m ρ c)
/-- The same at the core's own references. -/
abbrev V1 : (c : Dev nD) → (b : Ref sig .tc) → Buf (Elt F) ((c : Thread nD τ).loc b) := fun c b => W1 m ρ c b
/-- After the projection call: its four arrays at what its write-backs leave, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- After the slices and reshapes: what the pairwise call is entered with. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the pairwise call: its eight arrays at what its write-backs leave, every other buffer as before. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

/-! ## No step touches an argument -/

/-- The stacking writes only the stacked array. -/
theorem stack_keeps (W : Valuation τ sig (Elt F)) (b : Ref sig .tc) (hb : b ≠ main_v0) :
    StableHlo.after hostOps0 W (Proc.devRef .tc b) = W (Proc.devRef .tc b) :=
  StableHlo.after_of_forall_not_mem (b := Proc.devRef .tc b) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

/-- The slices and reshapes write only their seven results. -/
theorem slices_keep (W : Valuation τ sig (Elt F)) (b : Ref sig .tc)
    (hb : b ≠ main_v2 ∧ b ≠ main_v3 ∧ b ≠ main_v4 ∧ b ≠ main_v5 ∧ b ≠ main_v6 ∧ b ≠ main_v7 ∧ b ≠ main_v8) :
    StableHlo.after hostOps1 W (Proc.devRef .tc b) = W (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    exact ⟨StableHlo.devRef_ne_of_ne hb.1, StableHlo.devRef_ne_of_ne hb.2.1, StableHlo.devRef_ne_of_ne hb.2.2.1,
      StableHlo.devRef_ne_of_ne hb.2.2.2.1, StableHlo.devRef_ne_of_ne hb.2.2.2.2.1, StableHlo.devRef_ne_of_ne hb.2.2.2.2.2.1,
      StableHlo.devRef_ne_of_ne hb.2.2.2.2.2.2⟩))

/-- A buffer that is no array of either call and no result of a host operation ends as launched. -/
theorem W4_of_untouched (c : Dev nD) (b : Ref sig .tc) (h1 : ∀ w, Pipeline.arrRef spec1 w ≠ b)
    (hs : b ≠ main_v2 ∧ b ≠ main_v3 ∧ b ≠ main_v4 ∧ b ≠ main_v5 ∧ b ≠ main_v6 ∧ b ≠ main_v7 ∧ b ≠ main_v8)
    (h0 : ∀ w, Pipeline.arrRef spec0 w ≠ b) (hk : b ≠ main_v0) :
    W4 m ρ c (Proc.devRef .tc b) = m ((c : Thread nD τ).loc b) :=
  (W4_of_ne m ρ c b h1).trans ((slices_keep _ b hs).trans ((W2_of_ne m ρ c b h0).trans (stack_keeps _ b hk)))

theorem W4_main_arg0 (c : Dev nD) : W4 m ρ c (Proc.devRef .tc main_arg0) = m ((c : Thread nD τ).loc main_arg0) :=
  W4_of_untouched m ρ c main_arg0 (by decide) (by decide) (by decide) (by decide)
theorem W4_main_arg2 (c : Dev nD) : W4 m ρ c (Proc.devRef .tc main_arg2) = m ((c : Thread nD τ).loc main_arg2) :=
  W4_of_untouched m ρ c main_arg2 (by decide) (by decide) (by decide) (by decide)
theorem W4_main_arg3 (c : Dev nD) : W4 m ρ c (Proc.devRef .tc main_arg3) = m ((c : Thread nD τ).loc main_arg3) :=
  W4_of_untouched m ρ c main_arg3 (by decide) (by decide) (by decide) (by decide)
theorem W4_main_arg4 (c : Dev nD) : W4 m ρ c (Proc.devRef .tc main_arg4) = m ((c : Thread nD τ).loc main_arg4) :=
  W4_of_untouched m ρ c main_arg4 (by decide) (by decide) (by decide) (by decide)
theorem W4_main_arg5 (c : Dev nD) : W4 m ρ c (Proc.devRef .tc main_arg5) = m ((c : Thread nD τ).loc main_arg5) :=
  W4_of_untouched m ρ c main_arg5 (by decide) (by decide) (by decide) (by decide)
/-- `features` is the projection call's second input array: an input's array ends as it was entered. -/
theorem W4_main_arg1 (c : Dev nD) : W4 m ρ c (Proc.devRef .tc main_arg1) = m ((c : Thread nD τ).loc main_arg1) :=
  (W4_of_ne m ρ c main_arg1 (by decide)).trans ((slices_keep _ main_arg1 (by decide)).trans
    (((W2_arr m ρ c 1).trans (((dat0 (V1 m ρ) c).arrAt_in 1 rfl _).trans (A_eq0 (V1 m ρ) c 1))).trans
      (stack_keeps _ main_arg1 (by decide))))

/-! ## The two calls' proof data and what rides along -/

/-- Neither call has a prefetched table. -/
abbrev adm : (p : Fin 2) → (pcfgs (F := F) p).Adm := fun p => (cfgs p).toPCfg_adm
/-- Each call's proof data at the contents it is entered with. -/
def stages : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev noVariants : Variants := Variants.none
/-- No core owes another anything. -/
abbrev noPairs : GSem nD τ sig → Finset Unit := fun _ => ∅
abbrev noLevel : GSem nD τ sig → Unit → ℕ := fun _ _ => 0
/-- Beside the buffers every item carries the core's generator register at some state and the fact that it owes nothing. -/
abbrev riding (c : Dev nD) : sProp 𝕄 := iprop((∃ r, prngReg c r) ∗ ∃ O, owes (c : Thread nD τ) (0 : CellTallies nD τ sig Unit) O)
/-- A stretch of host operations as an item, from the contents `W`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

theorem stack_allocates_nothing : (hostOps0 : List (HloOp τ sig (Elt F))).Forall fun op => op.fresh = ∅ := by
  simp only [List.Forall]; repeat' constructor
theorem slices_allocate_nothing : (hostOps1 : List (HloOp τ sig (Elt F))).Forall fun op => op.fresh = ∅ := by
  simp only [List.Forall]; repeat' constructor
theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the last item leaves, apart from the core owing nothing. -/
abbrev endState (c : Dev nD) : sProp 𝕄 := iprop(StableHlo.held (c : Thread nD τ) (Pipeline.ucRefs τ sig) (W4 m ρ c) ∗ ∃ r, prngReg c r)

/-! ## The two calls as items -/

set_option backward.isDefEq.respectTransparency.types false in
/-- The projection call as an item of @main: entered with every unscoped buffer at `W1`, left with them at `W2`.
    On entry the call's arrays are taken out of the unscoped buffers; on exit they are put back at what the write-backs
    left; the generator register goes into the region's invariant and comes back; nothing is owed to another core and
    the kernel has no semaphore of its own. -/
def projRegion : Pipeline.RegionSeg (pcfgs (F := F)) adm (stages m ρ) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ noPairs noLevel 0 fun _ _ => rfl
  pre c := iprop(StableHlo.held (c : Thread nD τ) (Pipeline.ucRefs τ sig) (W1 m ρ c) ∗ riding c)
  post c := iprop(StableHlo.held (c : Thread nD τ) (Pipeline.ucRefs τ sig) (W2 m ρ c) ∗ riding c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (stages m ρ) launch0.win launch0.arr_whole c
      ((stages m ρ 0 c).share_full fun _ => rfl) (V1 m ρ c) fun _ => rfl
    rw [Pipeline.unscopedBufs_held] at hsplit
    iintro ⟨⟨Hbufs, Hgen, Howes⟩, -, -⟩
    ihave Hparts := hsplit $$ Hbufs
    icases Hparts with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%O, Howes⟩; iexists O; isplitr; · ipureintro; exact fun _ _ => Or.inl trivial
      iexact Howes
    isplitl [Hgen]; · iexact Hgen
    iexact Hrest
  hin c := by
    -- the class invariant is the scoped rest beside the generator register
    rw [show (stages m ρ 0 c).Φ 0 = Pipeline.ΦA spec0 c from rfl]; unfold Pipeline.ΦA
    iintro ⟨Hgen, -, Hscoped⟩
    isplitl [Hscoped]; · iexact Hscoped
    iexact Hgen
  hout c := by
    rw [Pipeline.ownSems0_none, show (stages m ρ 0 c).Φ (Fin.last _) = Pipeline.ΦA spec0 c from rfl]; unfold Pipeline.ΦA
    iintro ⟨Hscoped, Hgen⟩
    isplitl [Hgen]; · iexact Hgen
    isplitr; · iempintro
    iexact Hscoped
  hexit c := by
    have hjoin := Pipeline.unscopedBufs_of_arrays (p := 0) (pcfgs (F := F)) adm (Ix := Unit) (Name := ℕ) (U := UR sig nD τ) (Lvl := ℕ)
      launch0.win launch0.arr_whole c (stages m ρ) ((stages m ρ 0 c).share_full fun _ => rfl)
      (V1 m ρ c) (fun b => W2 m ρ c b) ((stages m ρ 0 c).arrAt · cfg0.N) (fun w => (W2_arr m ρ c w).symm)
      (fun b hb => W2_of_ne m ρ c b fun w e => hb (Finset.mem_image.mpr ⟨w, Finset.mem_univ _, e⟩))
    rw [Pipeline.unscopedBufs_held] at hjoin
    iintro ⟨Harr, Howes, Hgen, Hrest⟩
    imodintro
    isplitl [Harr Hrest]
    · iapply hjoin; isplitl [Harr] <;> iassumption
    isplitl [Hgen]; · iexact Hgen
    unfold Pipeline.Dat.owesAt Pipeline.owesWithin
    icases Howes with ⟨%O, -, Howes⟩; iexists O; iexact Howes

set_option backward.isDefEq.respectTransparency.types false in
/-- The pairwise call as an item of @main: entered with every unscoped buffer at `W3`, left with them at `W4`.
    On entry the call's arrays are taken out of the unscoped buffers; on exit they are put back at what the write-backs
    left; the generator register goes into the region's invariant and comes back; nothing is owed to another core and
    the kernel has no semaphore of its own. -/
def pairRegion : Pipeline.RegionSeg (pcfgs (F := F)) adm (stages m ρ) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ noPairs noLevel 1 fun _ _ => rfl
  pre c := iprop(StableHlo.held (c : Thread nD τ) (Pipeline.ucRefs τ sig) (W3 m ρ c) ∗ riding c)
  post c := iprop(endState m ρ c ∗ ∃ O, owes (c : Thread nD τ) (0 : CellTallies nD τ sig Unit) O)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (stages m ρ) launch1.win launch1.arr_whole c
      ((stages m ρ 1 c).share_full fun _ => rfl) (V3 m ρ c) fun _ => rfl
    rw [Pipeline.unscopedBufs_held] at hsplit
    iintro ⟨⟨Hbufs, Hgen, Howes⟩, -, -⟩
    ihave Hparts := hsplit $$ Hbufs
    icases Hparts with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%O, Howes⟩; iexists O; isplitr; · ipureintro; exact fun _ _ => Or.inl trivial
      iexact Howes
    isplitl [Hgen]; · iexact Hgen
    iexact Hrest
  hin c := by
    -- before the first point the tracked invariant is the class invariant
    rw [show (stages m ρ 1 c).Φ 0 = Pipeline.ΦA spec1 c from rfl]; unfold Pipeline.ΦA
    iintro ⟨Hgen, -, Hscoped⟩
    isplitl [Hscoped]; · iexact Hscoped
    iexact Hgen
  hout c := by
    -- after the last point the accumulators' contents are forgotten: the class invariant again
    rw [Pipeline.ownSems0_none]
    refine (hout1 (V3 m ρ) c).trans (?_ : Pipeline.ΦA spec1 c ⊢ _)
    unfold Pipeline.ΦA
    iintro ⟨Hscoped, Hgen⟩
    isplitl [Hgen]; · iexact Hgen
    isplitr; · iempintro
    iexact Hscoped
  hexit c := by
    have hjoin := Pipeline.unscopedBufs_of_arrays (p := 1) (pcfgs (F := F)) adm (Ix := Unit) (Name := ℕ) (U := UR sig nD τ) (Lvl := ℕ)
      launch1.win launch1.arr_whole c (stages m ρ) ((stages m ρ 1 c).share_full fun _ => rfl)
      (V3 m ρ c) (fun b => W4 m ρ c b) ((stages m ρ 1 c).arrAt · cfg1.N) (fun w => (W4_arr m ρ c w).symm)
      (fun b hb => W4_of_ne m ρ c b fun w e => hb (Finset.mem_image.mpr ⟨w, Finset.mem_univ _, e⟩))
    rw [Pipeline.unscopedBufs_held] at hjoin
    iintro ⟨Harr, Howes, Hgen, Hrest⟩
    imodintro
    isplitl [Harr Hrest Hgen]
    · isplitl [Harr Hrest]
      · iapply hjoin; isplitl [Harr] <;> iassumption
      iexact Hgen
    unfold Pipeline.Dat.owesAt Pipeline.owesWithin
    icases Howes with ⟨%O, -, Howes⟩; iexists O; iexact Howes

/-! ## The launch -/

/-- @main's four items in order. -/
abbrev items : List (Pipeline.Seg (pcfgs (F := F)) adm (stages m ρ) () defs₀ noVariants noPairs noLevel) :=
  [ .host (hostItem hostOps0 hostOps0_sub stack_allocates_nothing (W0 m ρ)),
    .region (projRegion m ρ),
    .host (hostItem hostOps1 hostOps1_sub slices_allocate_nothing (W2 m ρ)),
    .region (pairRegion m ρ) ]
theorem main_is_items (c : Dev nD) : main (F := F) c = Pipeline.Seg.run (items m ρ) := (main_chain c).trans (by chain_rfl)

set_option backward.isDefEq.respectTransparency.types false in
/-- Every weakly fair execution of @main from memory `m` with zero counters terminates, nothing faulting, and every final
    state has the result array at the last boundary's contents and the six argument arrays as launched. -/
theorem run_main : θ_run defs (onTc (τ := τ) (main (F := F))) ⟨m, fun _ => 0, ρ⟩ (fun r => ∀ c : Dev nD,
      r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (stages m ρ) () cellOf_inj emb₁ defs₀ noVariants noPairs noLevel m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the user component is the cells' launch state; no ghost resource beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ riding c)) (Tₙ := endState m ρ)
    (hch := ⟨fun _ => .rfl, fun _ => .rfl, fun _ => .rfl, fun _ => .rfl, fun _ => .rfl⟩)
    (hinit := by
      -- the launch hands each core its unscoped buffers at the launch memory, its generator register and nothing owed
      refine Pipeline.initEach noPairs noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hgen, -⟩, -⟩
      imodintro
      isplitl [Hbufs]; · iexact Hbufs
      isplitl [Hgen]; · iexists _; iexact Hgen
      iexists ∅; iexact Howes)
    (QY := fun c s => ∀ b ∈ Pipeline.ucRefs τ sig, s.mem (((c : Thread nD τ)).1, b) = W4 m ρ c b)
    (hfin := fun c s' => by
      -- the last state's buffers are read against the final memory
      iintro ⟨⟨Hbufs, -⟩, HSI⟩
      unfold StableHlo.held
      imodintro
      iapply (pointsTo_read_all (Pipeline.ucRefs τ sig) (fun b => (((c : Thread nD τ)).1, b)) (W4 m ρ c) s')
      isplitl [Hbufs] <;> iassumption)
    (hQ := fun s h c =>
      ⟨h c _ (unscoped_mem main_v9 (by decide)),
       (h c _ (unscoped_mem main_arg0 (by decide))).trans (W4_main_arg0 m ρ c),
       (h c _ (unscoped_mem main_arg1 (by decide))).trans (W4_main_arg1 m ρ c),
       (h c _ (unscoped_mem main_arg2 (by decide))).trans (W4_main_arg2 m ρ c),
       (h c _ (unscoped_mem main_arg3 (by decide))).trans (W4_main_arg3 m ρ c),
       (h c _ (unscoped_mem main_arg4 (by decide))).trans (W4_main_arg4 m ρ c),
       (h c _ (unscoped_mem main_arg5 (by decide))).trans (W4_main_arg5 m ρ c)⟩)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run_main m ρ)

end Cert.KernelIdeal.Fr

end
-- ==== Proof.KI.HostValue.lean ====
/- The host operations of @main around its two pallas_calls, read off a valuation and at an index. Before the
   first call one operation lays two [256, 1024] arguments end to end along the rows into a [512, 1024] array; between
   the calls four operations cut the first call's two [512, 512] results into their upper and lower row halves and
   three recast a [1] argument as [1, 1]. After a stretch, each written buffer holds its operation's function of the
   operand buffers as the stretch found them, and every other buffer what it held. At an index: a row half reads the
   source at the same row (the lower half 256 rows down); the rows laid end to end read the first piece in rows
   0 … 255 and the second in rows 256 … 511; the recast vector reads its one element. -/
import proofs.«149419_j58626303590625_1_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Fr

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]

/-! ## The buffers after each stretch, from any valuation -/

section After
variable (W : Valuation τ sig (Elt F))

/-- After the first stretch the concatenation's result buffer holds the two arguments laid end to end. -/
theorem after0_v0 : StableHlo.after hostOps0 W (Proc.devRef .tc main_v0)
    = concatenate S512x1024 0 [⟨S256x1024, W (Proc.devRef .tc main_arg0)⟩, ⟨S256x1024, W (Proc.devRef .tc main_arg2)⟩] concatenates_S256x1024_S256x1024_S512x1024_d0 := by
  show StableHlo.after hostOps0 _ (Proc.devRef .tc main_v0) = _
  after_results
  try rfl

/-- The first stretch leaves the second operand of the first call as it was. -/
theorem after0_arg1 : StableHlo.after hostOps0 W (Proc.devRef .tc main_arg1) = W (Proc.devRef .tc main_arg1) := by
  show StableHlo.after hostOps0 _ (Proc.devRef .tc main_arg1) = _
  after_results
  try rfl

/-- After the second stretch: the upper row half of the first call's first result, -/
theorem after1_v2 : StableHlo.after hostOps1 W (Proc.devRef .tc main_v2)
    = extractStridedSlice S256x512 ![0, 0] (W (Proc.devRef .tc main_v1_0)) slices_S512x512_S256x512_0_0 := by
  show StableHlo.after hostOps1 _ (Proc.devRef .tc main_v2) = _
  after_results
  try rfl
/-- its lower row half, -/
theorem after1_v3 : StableHlo.after hostOps1 W (Proc.devRef .tc main_v3)
    = extractStridedSlice S256x512 ![256, 0] (W (Proc.devRef .tc main_v1_0)) slices_S512x512_S256x512_256_0 := by
  show StableHlo.after hostOps1 _ (Proc.devRef .tc main_v3) = _
  after_results
  try rfl
/-- the upper row half of the second result, -/
theorem after1_v4 : StableHlo.after hostOps1 W (Proc.devRef .tc main_v4)
    = extractStridedSlice S256x512 ![0, 0] (W (Proc.devRef .tc main_v1_1)) slices_S512x512_S256x512_0_0 := by
  show StableHlo.after hostOps1 _ (Proc.devRef .tc main_v4) = _
  after_results
  try rfl
/-- its lower row half, -/
theorem after1_v5 : StableHlo.after hostOps1 W (Proc.devRef .tc main_v5)
    = extractStridedSlice S256x512 ![256, 0] (W (Proc.devRef .tc main_v1_1)) slices_S512x512_S256x512_256_0 := by
  show StableHlo.after hostOps1 _ (Proc.devRef .tc main_v5) = _
  after_results
  try rfl
/-- and the three one-element arguments recast as [1, 1]. -/
theorem after1_v6 : StableHlo.after hostOps1 W (Proc.devRef .tc main_v6)
    = shapeCast S1x1 (W (Proc.devRef .tc main_arg5)) shapeCasts_S1_S1x1 := by
  show StableHlo.after hostOps1 _ (Proc.devRef .tc main_v6) = _
  after_results
  try rfl
theorem after1_v7 : StableHlo.after hostOps1 W (Proc.devRef .tc main_v7)
    = shapeCast S1x1 (W (Proc.devRef .tc main_arg3)) shapeCasts_S1_S1x1 := by
  show StableHlo.after hostOps1 _ (Proc.devRef .tc main_v7) = _
  after_results
  try rfl
theorem after1_v8 : StableHlo.after hostOps1 W (Proc.devRef .tc main_v8)
    = shapeCast S1x1 (W (Proc.devRef .tc main_arg4)) shapeCasts_S1_S1x1 := by
  show StableHlo.after hostOps1 _ (Proc.devRef .tc main_v8) = _
  after_results
  try rfl

end After

/-! ## The operations at an index -/

section AtIndex
variable {α : Type}

/-- The upper row half at (r, f) is the source at (r, f). -/
theorem slice_lo_apply (X : S512x512.Idx → α) (r : Fin 256) (f : Fin 512) :
    extractStridedSlice S256x512 ![0, 0] X slices_S512x512_S256x512_0_0 (ix2 r f) = X (ix2 (⟨r.val, by omega⟩ : Fin 512) f) :=
  slice2_axis0_apply 0 X slices_S512x512_S256x512_0_0 r f ⟨r.val, by omega⟩ (Nat.zero_add _).symm

/-- The lower row half at (q, f) is the source at (256 + q, f). -/
theorem slice_hi_apply (X : S512x512.Idx → α) (q : Fin 256) (f : Fin 512) :
    extractStridedSlice S256x512 ![256, 0] X slices_S512x512_S256x512_256_0 (ix2 q f) = X (ix2 (⟨256 + q.val, by omega⟩ : Fin 512) f) :=
  slice2_axis0_apply 256 X slices_S512x512_S256x512_256_0 q f ⟨256 + q.val, by omega⟩ rfl

/-- Two [256, 1024] arrays laid end to end along the rows: row r < 256 reads the first at row r, -/
theorem cat_lo_apply (a b : S256x1024.Idx → α) (r : Fin 256) (d : Fin 1024) :
    concatenate S512x1024 0 [⟨S256x1024, a⟩, ⟨S256x1024, b⟩] concatenates_S256x1024_S256x1024_S512x1024_d0 (ix2 (⟨r.val, by omega⟩ : Fin 512) d) = a (ix2 r d) :=
  concatenate_pair_apply_left 0 a b concatenates_S256x1024_S256x1024_S512x1024_d0 _ rfl (ix2 r d) (fun bx => by
    match bx with
    | ⟨0, _⟩ => rfl
    | ⟨1, _⟩ => rfl)

/-- and row 256 + q reads the second at row q. -/
theorem cat_hi_apply (a b : S256x1024.Idx → α) (q : Fin 256) (d : Fin 1024) :
    concatenate S512x1024 0 [⟨S256x1024, a⟩, ⟨S256x1024, b⟩] concatenates_S256x1024_S256x1024_S512x1024_d0 (ix2 (⟨256 + q.val, by omega⟩ : Fin 512) d) = b (ix2 q d) :=
  concatenate_pair_apply_right 0 a b concatenates_S256x1024_S256x1024_S512x1024_d0 _ rfl rfl (ix2 q d) (fun bx hne => by
    match bx with
    | ⟨0, _⟩ => exact absurd rfl hne
    | ⟨1, _⟩ => rfl) (by show q.val + 256 = 256 + q.val; omega)

/-- A one-element vector recast as [1, 1] reads, at its one index, the vector's element. -/
theorem reshape11_apply (x : S1.Idx → α) :
    shapeCast S1x1 x shapeCasts_S1_S1x1 (ix2 (0 : Fin 1) (0 : Fin 1)) = x (ix1 (0 : Fin 1)) :=
  shapeCast_a_1a_apply x shapeCasts_S1_S1x1 0 0

end AtIndex

end Cert.KernelIdeal.Fr

end
-- ==== Proof.KI.Region0Value.lean ====
/- What the first pallas_call's two output arrays hold after the region, as functions of the two input arrays as
   the region finds them. The grid has one point and every window's block is its whole array, so each input block
   is the input array, what the point writes back is the body's payload of the two arrays, and the point's block
   covers the output array: window 2's array ends at the contraction of the two inputs over their second axis,
   window 3's at that contraction squashed. Then the two payloads read at an index over the extended reals: the
   first is the sum over the contracted axis of the products; the second is (tanh(10·(x − ½)) + 1)·½ of the first. -/
import proofs.«149419_j58626303590625_1_alg».proof.Proof.KI.Region0
import Idealize.ShloMosaic.Lib.Pipeline.Value
import Idealize.ShloMosaic.Lib.ValueIdx
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.SL.Sem
open Idealize.ShloMosaic.Pipeline (Dat)

variable {F : FTy → Type} [FloatOps F]

section Arrays
variable (V : (c : Dev nD) → (b : Ref sig .tc) → Buf (Elt F) ((c : Thread nD τ).loc b))

theorem hz : (![0, 0] : Fin 2 → Nat) = fun _ => 0 := funext fun a => by fin_cases a <;> rfl

/-! ## The one point's blocks are the whole arrays -/

/-- The one point's block of input window 0 is the whole array. -/
theorem iblk0_0_eq (c : Dev nD) (t : Fin cfg0.N) : iblk0 V c 0 t = V c main_v0 := by
  obtain rfl : t = t0_0 := fin_N0 t
  unfold iblk0
  have hz' : (fun a => win0_0.index t0_0 a * main_v0.ty.shape.size a) = fun _ => 0 := funext fun a => by fin_cases a <;> decide
  exact Memref.read_access_unit_zero (Elt F) main_v0 hz' (fun a => by rw [congrFun hz' a]; simp) _

/-- The one point's block of input window 1 is the whole array. -/
theorem iblk0_1_eq (c : Dev nD) (t : Fin cfg0.N) : iblk0 V c 1 t = V c main_arg1 := by
  obtain rfl : t = t0_0 := fin_N0 t
  unfold iblk0
  have hz' : (fun a => win0_1.index t0_0 a * main_arg1.ty.shape.size a) = fun _ => 0 := funext fun a => by fin_cases a <;> decide
  exact Memref.read_access_unit_zero (Elt F) main_arg1 hz' (fun a => by rw [congrFun hz' a]; simp) _

/-! ## What the one point writes back -/

/-- What the point writes back to output window 2's array is the contraction of the two input arrays, read
    through the point's block (the whole array). -/
theorem flushed0_2_eq (c : Dev nD) (t : Fin cfg0.N) :
    (dat0 V c).flushed 2 t = ((cfg0.win 2).blk t).view.read (Elt F) (k0_pay1 (V c main_v0) (V c main_arg1)) := by
  show (cfg0.win 2).cut (grid0.coords t) ((dat0 V c).after 2 t) = _
  rw [after0_2]
  unfold out0_2
  rw [View.canon_unit_zero hz]
  simp only [View.ld_unit_zero (S := S512x1024) hz]
  rw [iblk0_0_eq, iblk0_1_eq]
  obtain rfl : t = t0_0 := fin_N0 t
  have hz' : (fun a => win0_2.index t0_0 a * main_v1_0.ty.shape.size a) = fun _ => 0 := funext fun a => by fin_cases a <;> decide
  exact (Memref.read_access_unit_zero (Elt F) main_v1_0 hz' (fun a => by rw [congrFun hz' a]; simp) _).symm

/-- The same for output window 3 and the squashed contraction. -/
theorem flushed0_3_eq (c : Dev nD) (t : Fin cfg0.N) :
    (dat0 V c).flushed 3 t = ((cfg0.win 3).blk t).view.read (Elt F) (k0_pay2 (V c main_v0) (V c main_arg1)) := by
  show (cfg0.win 3).cut (grid0.coords t) ((dat0 V c).after 3 t) = _
  rw [after0_3]
  unfold out0_3
  rw [View.canon_unit_zero hz]
  simp only [View.ld_unit_zero (S := S512x1024) hz]
  rw [iblk0_0_eq, iblk0_1_eq]
  obtain rfl : t = t0_0 := fin_N0 t
  have hz' : (fun a => win0_3.index t0_0 a * main_v1_1.ty.shape.size a) = fun _ => 0 := funext fun a => by fin_cases a <;> decide
  exact (Memref.read_access_unit_zero (Elt F) main_v1_1 hz' (fun a => by rw [congrFun hz' a]; simp) _).symm

/-! ## The output arrays after the region -/

/-- Output window 2's array ends holding the contraction of the two input arrays: the one point's block covers it. -/
theorem arr0_2 (c : Dev nD) : (dat0 V c).arrAt 2 cfg0.N = k0_pay1 (V c main_v0) (V c main_arg1) :=
  (dat0 V c).arrAt_eq_of_cover 2 (k0_pay1 (V c main_v0) (V c main_arg1)) (fun t _ => flushed0_2_eq V c t) fun i =>
    ⟨t0_0, flush0_2 t0_0, by
      show i ∈ ((View.whole main_v1_0).slice (win0_2.rect t0_0)).set
      rw [View.set_slice_whole, Rect.mem_set_unit]
      intro a
      have h0 : (i 0 : Nat) < 512 := (i 0).isLt
      have h1 : (i 1 : Nat) < 512 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 512 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 512 from by decide +kernel]; omega⟩

/-- Output window 3's array ends holding the squashed contraction of the two input arrays. -/
theorem arr0_3 (c : Dev nD) : (dat0 V c).arrAt 3 cfg0.N = k0_pay2 (V c main_v0) (V c main_arg1) :=
  (dat0 V c).arrAt_eq_of_cover 3 (k0_pay2 (V c main_v0) (V c main_arg1)) (fun t _ => flushed0_3_eq V c t) fun i =>
    ⟨t0_0, flush0_3 t0_0, by
      show i ∈ ((View.whole main_v1_1).slice (win0_3.rect t0_0)).set
      rw [View.set_slice_whole, Rect.mem_set_unit]
      intro a
      have h0 : (i 0 : Nat) < 512 := (i 0).isLt
      have h1 : (i 1 : Nat) < 512 := (i 1).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 512 from by decide +kernel]; omega
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 512 from by decide +kernel]; omega⟩

end Arrays

/-! ## The two payloads at an index, over the extended reals -/

/-- The contraction's dimension numbers: both operands contract their second axis; the result's first axis is the
    left operand's first, its second the right operand's first. -/
abbrev D0 := dot_S512x1024_S512x1024_S512x512_1_1_0_0_n_n

theorem lhs0_0 (i : S512x512.Idx) (q : D0.contr.Idx) : (D0.lhsIdx i q 0).val = (i 0).val := by
  unfold DotDims.lhsIdx
  rw [dif_neg (show ¬(0 : Fin S512x1024.rank) ∈ D0.lhsBatch by decide), dif_pos (show (0 : Fin S512x1024.rank) ∈ D0.lhsNonContracting by decide)]
  rfl
theorem lhs0_1 (i : S512x512.Idx) (q : D0.contr.Idx) : (D0.lhsIdx i q 1).val = (q ⟨0, by decide⟩).val :=
  D0.lhsIdx_val_of_single rfl i q
theorem rhs0_0 (i : S512x512.Idx) (q : D0.contr.Idx) : (D0.rhsIdx i q 0).val = (i 1).val := by
  unfold DotDims.rhsIdx
  rw [dif_neg (show ¬(0 : Fin S512x1024.rank) ∈ D0.rhsBatch by decide), dif_pos (show (0 : Fin S512x1024.rank) ∈ D0.rhsNonContracting by decide)]
  rfl
theorem rhs0_1 (i : S512x512.Idx) (q : D0.contr.Idx) : (D0.rhsIdx i q 1).val = (q ⟨0, by decide⟩).val :=
  D0.rhsIdx_val_of_single rfl i q

/-- The first payload at an index: the sum over the contracted axis of the products (the narrowing format changes
    and the shape cast onto the same shape are the identity on extended reals; the accumulator is zero). -/
theorem pay1_apply (a w : Vec Ideal S512x1024 .f32) (r f : Fin 512) :
    k0_pay1 (F := Ideal) a w (ValueIdx.ix2 r f) = ∑ d : Fin 1024, a (ValueIdx.ix2 r d) * w (ValueIdx.ix2 f d) := by
  unfold k0_pay1
  show FloatOps.matmul D0 none (truncf (F := Ideal) .bf16 (shapeCast S512x1024 (a : FVec Ideal S512x1024 .f32) shapeCasts_S512x1024_S512x1024) bitsLt_bf16_f32) (truncf (F := Ideal) .bf16 (w : FVec Ideal S512x1024 .f32) bitsLt_bf16_f32) (constant S512x512 .f32 0x00000000#32) (ValueIdx.ix2 r f) = _
  rw [Ideal.matmul_constant_zero_apply, ← Equiv.sum_comp (ValueIdx.contrEquiv1 D0 1024 rfl rfl).symm]
  refine Finset.sum_congr rfl fun k _ => ?_
  have hk := ValueIdx.contrEquiv1_symm_val D0 1024 rfl rfl k
  have el : D0.lhsIdx (ValueIdx.ix2 r f) ((ValueIdx.contrEquiv1 D0 1024 rfl rfl).symm k) = ValueIdx.ix2 r k := funext fun a => Fin.ext (by
    match a with
    | ⟨0, _⟩ => exact lhs0_0 _ _
    | ⟨1, _⟩ => exact (lhs0_1 _ _).trans hk)
  have er : D0.rhsIdx (ValueIdx.ix2 r f) ((ValueIdx.contrEquiv1 D0 1024 rfl rfl).symm k) = ValueIdx.ix2 f k := funext fun a => Fin.ext (by
    match a with
    | ⟨0, _⟩ => exact rhs0_0 _ _
    | ⟨1, _⟩ => exact (rhs0_1 _ _).trans hk)
  rw [ValueIdx.truncf_apply, ValueIdx.truncf_apply, shapeCast_self, el, er]

/-- The second payload at an index: the first squashed, (tanh(10·(x − ½)) + 1)·½ with the four literals as the
    extended reals their words encode. -/
theorem pay2_apply (a w : Vec Ideal S512x1024 .f32) (r f : Fin 512) :
    k0_pay2 (F := Ideal) a w (ValueIdx.ix2 r f)
      = (Ideal.tanh (Ideal.ofBits .f32 0x41200000#32 * (k0_pay1 (F := Ideal) a w (ValueIdx.ix2 r f) - Ideal.ofBits .f32 0x3F000000#32))
          + Ideal.ofBits .f32 0x3F800000#32) * Ideal.ofBits .f32 0x3F000000#32 := rfl

end Cert.KernelIdeal.Fr
end
-- ==== Proof.Spec.lean ====
/-
  The specification: the [256, 256] result as ONE function of the six argument arrays, index by index, on the
  extended reals (every float operation exact, a float literal its exact binary value, never evaluated here).

  x0 : [256, 1024] are the inputs, x1 : [512, 1024] the features, x2 : [256, 1024] the prototypes; x3, x4, x5 : [1] the
  three weights (alpha, beta, theta). With the smooth indicator

      ind v = (tanh (10 · (v − 1/2)) + 1) · 1/2

  and the two projections on the features A r f = Σ_d x0 (r, d) · x1 (f, d), P q f = Σ_d x2 (q, d) · x1 (f, d), the
  entry (r, q) of the result is

      theta · Σ_f (A r f · ind (A r f)) · (P q f · ind (P q f))
        − alpha · (0 + Σ_f ((A r f − P q f) · (ind (A r f) · ind (P q f))) · ind (A r f − P q f))
        − beta  · (0 + Σ_f ((−(A r f − P q f)) · (ind (A r f) · ind (P q f))) · ind (−(A r f − P q f)))

  — the features both active, weighted by both activations; the features where the input exceeds the prototype; the
  features where the prototype exceeds the input. The grouping of every product and sum is kept as written: extended-real
  arithmetic is not a ring (⊤ + ⊥), so no law is used to regroup.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The smooth indicator of "v exceeds 1/2": (tanh (10 · (v − 1/2)) + 1) · 1/2, the constants the float words of
    10, 1/2 and 1. -/
def ind (v : EReal) : EReal :=
  (Ideal.tanh (Ideal.ofBits .f32 0x41200000#32 * (v - Ideal.ofBits .f32 0x3F000000#32)) + Ideal.ofBits .f32 0x3F800000#32)
    * Ideal.ofBits .f32 0x3F000000#32

/-- Row r of x against feature f: Σ_d x (r, d) · w (f, d). -/
def proj (x : (⟨2, ![256, 1024]⟩ : Shape).Idx → EReal) (w : (⟨2, ![512, 1024]⟩ : Shape).Idx → EReal)
    (r : Fin 256) (f : Fin 512) : EReal :=
  ∑ d : Fin 1024, x (ix2 r d) * w (ix2 f d)

/-- The common part: Σ_f (A r f · ind (A r f)) · (P q f · ind (P q f)). -/
def common (x0 : (⟨2, ![256, 1024]⟩ : Shape).Idx → EReal) (x1 : (⟨2, ![512, 1024]⟩ : Shape).Idx → EReal)
    (x2 : (⟨2, ![256, 1024]⟩ : Shape).Idx → EReal) (r q : Fin 256) : EReal :=
  ∑ f : Fin 512, (proj x0 x1 r f * ind (proj x0 x1 r f)) * (proj x2 x1 q f * ind (proj x2 x1 q f))

/-- The part where the input exceeds the prototype:
    0 + Σ_f ((A r f − P q f) · (ind (A r f) · ind (P q f))) · ind (A r f − P q f). -/
def adist (x0 : (⟨2, ![256, 1024]⟩ : Shape).Idx → EReal) (x1 : (⟨2, ![512, 1024]⟩ : Shape).Idx → EReal)
    (x2 : (⟨2, ![256, 1024]⟩ : Shape).Idx → EReal) (r q : Fin 256) : EReal :=
  Ideal.ofBits .f32 0x00000000#32 + ∑ f : Fin 512,
    ((proj x0 x1 r f - proj x2 x1 q f) * (ind (proj x0 x1 r f) * ind (proj x2 x1 q f)))
      * ind (proj x0 x1 r f - proj x2 x1 q f)

/-- The part where the prototype exceeds the input:
    0 + Σ_f ((−(A r f − P q f)) · (ind (A r f) · ind (P q f))) · ind (−(A r f − P q f)). -/
def bdist (x0 : (⟨2, ![256, 1024]⟩ : Shape).Idx → EReal) (x1 : (⟨2, ![512, 1024]⟩ : Shape).Idx → EReal)
    (x2 : (⟨2, ![256, 1024]⟩ : Shape).Idx → EReal) (r q : Fin 256) : EReal :=
  Ideal.ofBits .f32 0x00000000#32 + ∑ f : Fin 512,
    ((-(proj x0 x1 r f - proj x2 x1 q f)) * (ind (proj x0 x1 r f) * ind (proj x2 x1 q f)))
      * ind (-(proj x0 x1 r f - proj x2 x1 q f))

/-- The result: theta · common − alpha · adist − beta · bdist at every (r, q). -/
def G (x0 : (⟨2, ![256, 1024]⟩ : Shape).Idx → EReal) (x1 : (⟨2, ![512, 1024]⟩ : Shape).Idx → EReal)
    (x2 : (⟨2, ![256, 1024]⟩ : Shape).Idx → EReal) (x3 x4 x5 : (⟨1, ![1]⟩ : Shape).Idx → EReal) :
    (⟨2, ![256, 256]⟩ : Shape).Idx → EReal :=
  fun i => x5 (ix1 0) * common x0 x1 x2 (i 0) (i 1) - x3 (ix1 0) * adist x0 x1 x2 (i 0) (i 1)
    - x4 (ix1 0) * bdist x0 x1 x2 (i 0) (i 1)

end Cert.Spec

end
-- ==== Proof.KI.ProjValue.lean ====
/- The first pallas_call's two payloads over the rows of two arrays laid end to end, at the specification's terms.
   The call's first operand is two [256, 1024] arrays x0, x2 laid end to end along the rows; its second is x1. Over the
   extended reals the first payload at (row, f) is the sum over d of operand (row, d) · x1 (f, d): at a row below 256
   that is the projection of x0's row on feature f, at row 256 + q the projection of x2's row q. The second payload is
   the smooth indicator of the first. -/
import proofs.«149419_j58626303590625_1_alg».proof.Proof.KI.Region0Value
import proofs.«149419_j58626303590625_1_alg».proof.Proof.KI.HostValue
import proofs.«149419_j58626303590625_1_alg».proof.Proof.Spec

noncomputable section

namespace Cert.KernelIdeal.Fr

open Cert.KernelIdeal Cert.KernelIdeal.Gen
open Idealize.ShloMosaic Idealize.ShloMosaic.TcCoe Idealize.SL.Sem
open Idealize.ShloMosaic.ValueIdx

/-- The first payload at a row of the first piece is that row's projection on the feature. -/
theorem pay1_cat_lo (x0 x2 : Vec Ideal S256x1024 .f32) (x1 : Vec Ideal S512x1024 .f32) (r : Fin 256) (f : Fin 512) :
    k0_pay1 (F := Ideal) (concatenate S512x1024 0 [⟨S256x1024, x0⟩, ⟨S256x1024, x2⟩] concatenates_S256x1024_S256x1024_S512x1024_d0) x1 (ix2 (⟨r.val, by omega⟩ : Fin 512) f) = Cert.Spec.proj x0 x1 r f := by
  rw [pay1_apply]
  unfold Cert.Spec.proj
  refine Finset.sum_congr rfl fun d _ => ?_
  rw [cat_lo_apply]

/-- The first payload at a row of the second piece is that piece's row's projection on the feature. -/
theorem pay1_cat_hi (x0 x2 : Vec Ideal S256x1024 .f32) (x1 : Vec Ideal S512x1024 .f32) (q : Fin 256) (f : Fin 512) :
    k0_pay1 (F := Ideal) (concatenate S512x1024 0 [⟨S256x1024, x0⟩, ⟨S256x1024, x2⟩] concatenates_S256x1024_S256x1024_S512x1024_d0) x1 (ix2 (⟨256 + q.val, by omega⟩ : Fin 512) f) = Cert.Spec.proj x2 x1 q f := by
  rw [pay1_apply]
  unfold Cert.Spec.proj
  refine Finset.sum_congr rfl fun d _ => ?_
  rw [cat_hi_apply]

/-- The second payload at a row of the first piece is the smooth indicator of the projection. -/
theorem pay2_cat_lo (x0 x2 : Vec Ideal S256x1024 .f32) (x1 : Vec Ideal S512x1024 .f32) (r : Fin 256) (f : Fin 512) :
    k0_pay2 (F := Ideal) (concatenate S512x1024 0 [⟨S256x1024, x0⟩, ⟨S256x1024, x2⟩] concatenates_S256x1024_S256x1024_S512x1024_d0) x1 (ix2 (⟨r.val, by omega⟩ : Fin 512) f) = Cert.Spec.ind (Cert.Spec.proj x0 x1 r f) := by
  rw [pay2_apply, pay1_cat_lo]
  rfl

/-- The second payload at a row of the second piece is the smooth indicator of that piece's projection. -/
theorem pay2_cat_hi (x0 x2 : Vec Ideal S256x1024 .f32) (x1 : Vec Ideal S512x1024 .f32) (q : Fin 256) (f : Fin 512) :
    k0_pay2 (F := Ideal) (concatenate S512x1024 0 [⟨S256x1024, x0⟩, ⟨S256x1024, x2⟩] concatenates_S256x1024_S256x1024_S512x1024_d0) x1 (ix2 (⟨256 + q.val, by omega⟩ : Fin 512) f) = Cert.Spec.ind (Cert.Spec.proj x2 x1 q f) := by
  rw [pay2_apply, pay1_cat_hi]
  rfl

end Cert.KernelIdeal.Fr

end
-- ==== Proof.KI.Boundary.lean ====
/- The buffers the second pallas_call is entered with, at an index, as the specification's terms of the six
   arguments. The first host stretch lays arguments 0 and 2 end to end into the first call's first operand and
   leaves argument 1, its second operand, alone; the first call leaves in its two result arrays the contraction of
   the two operands and the smooth indicator of it; the second host stretch cuts each result into its upper and
   lower row halves and recasts the three one-element arguments. So the upper halves read the projection of
   argument 0's rows on the features and its indicator, the lower halves those of argument 2's rows, and the three
   recast buffers the three weights. -/
import proofs.«149419_j58626303590625_1_alg».proof.Proof.KI.Run
import proofs.«149419_j58626303590625_1_alg».proof.Proof.KI.HostValue
import proofs.«149419_j58626303590625_1_alg».proof.Proof.KI.ProjValue
import proofs.«149419_j58626303590625_1_alg».proof.Proof.KI.Region0Value
import proofs.«149419_j58626303590625_1_alg».proof.Proof.Spec

noncomputable section

namespace Cert.KernelIdeal.Fr

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (ρ : Dev nD → PrngReg) (c : Dev nD)

/-! ## The first call's operands and results -/

/-- The first call's first operand: arguments 0 and 2 laid end to end along the rows. -/
theorem V1_v0 : V1 m ρ c main_v0
    = concatenate S512x1024 0 [⟨S256x1024, m ((c : Thread nD τ).loc main_arg0)⟩, ⟨S256x1024, m ((c : Thread nD τ).loc main_arg2)⟩] concatenates_S256x1024_S256x1024_S512x1024_d0 :=
  after0_v0 (W0 m ρ c)

/-- Its second operand: argument 1 as launched. -/
theorem V1_arg1 : V1 m ρ c main_arg1 = m ((c : Thread nD τ).loc main_arg1) :=
  after0_arg1 (W0 m ρ c)

/-- The first call's first result array when it returns: the contraction of its two operands. -/
theorem W2_v1_0 : W2 m ρ c (Proc.devRef .tc main_v1_0) = k0_pay1 (V1 m ρ c main_v0) (V1 m ρ c main_arg1) :=
  (W2_arr m ρ c 2).trans (arr0_2 (V1 m ρ) c)

/-- Its second result array: the smooth indicator of the contraction. -/
theorem W2_v1_1 : W2 m ρ c (Proc.devRef .tc main_v1_1) = k0_pay2 (V1 m ρ c main_v0) (V1 m ρ c main_arg1) :=
  (W2_arr m ρ c 3).trans (arr0_3 (V1 m ρ) c)

/-- Argument 3's buffer when the second host stretch begins is the launch's: the first stretch does not write it and
    it is no array of the first call. -/
theorem W2_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

/-- Argument 4's buffer when the second host stretch begins is the launch's: the first stretch does not write it and
    it is no array of the first call. -/
theorem W2_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

/-- Argument 5's buffer when the second host stretch begins is the launch's: the first stretch does not write it and
    it is no array of the first call. -/
theorem W2_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg5) := rfl

/-! ## The second call's input arrays at an index -/

/-- The upper half of the first result: argument 0's rows projected on the features. -/
theorem V3_v2_at (r : Fin 256) (f : Fin 512) :
    (V3 m ρ c main_v2 : S256x512.Idx → EReal) (ix2 r f)
      = Cert.Spec.proj (m ((c : Thread nD τ).loc main_arg0)) (m ((c : Thread nD τ).loc main_arg1)) r f := by
  show StableHlo.after hostOps1 (W2 m ρ c) (Proc.devRef .tc main_v2) (ix2 r f) = _
  rw [after1_v2, slice_lo_apply, W2_v1_0, V1_v0, V1_arg1]
  exact pay1_cat_lo _ _ _ r f

/-- The lower half of the first result: argument 2's rows projected on the features. -/
theorem V3_v3_at (q : Fin 256) (f : Fin 512) :
    (V3 m ρ c main_v3 : S256x512.Idx → EReal) (ix2 q f)
      = Cert.Spec.proj (m ((c : Thread nD τ).loc main_arg2)) (m ((c : Thread nD τ).loc main_arg1)) q f := by
  show StableHlo.after hostOps1 (W2 m ρ c) (Proc.devRef .tc main_v3) (ix2 q f) = _
  rw [after1_v3, slice_hi_apply, W2_v1_0, V1_v0, V1_arg1]
  exact pay1_cat_hi _ _ _ q f

/-- The upper half of the second result: the indicator of argument 0's projections. -/
theorem V3_v4_at (r : Fin 256) (f : Fin 512) :
    (V3 m ρ c main_v4 : S256x512.Idx → EReal) (ix2 r f)
      = Cert.Spec.ind (Cert.Spec.proj (m ((c : Thread nD τ).loc main_arg0)) (m ((c : Thread nD τ).loc main_arg1)) r f) := by
  show StableHlo.after hostOps1 (W2 m ρ c) (Proc.devRef .tc main_v4) (ix2 r f) = _
  rw [after1_v4, slice_lo_apply, W2_v1_1, V1_v0, V1_arg1]
  exact pay2_cat_lo _ _ _ r f

/-- The lower half of the second result: the indicator of argument 2's projections. -/
theorem V3_v5_at (q : Fin 256) (f : Fin 512) :
    (V3 m ρ c main_v5 : S256x512.Idx → EReal) (ix2 q f)
      = Cert.Spec.ind (Cert.Spec.proj (m ((c : Thread nD τ).loc main_arg2)) (m ((c : Thread nD τ).loc main_arg1)) q f) := by
  show StableHlo.after hostOps1 (W2 m ρ c) (Proc.devRef .tc main_v5) (ix2 q f) = _
  rw [after1_v5, slice_hi_apply, W2_v1_1, V1_v0, V1_arg1]
  exact pay2_cat_hi _ _ _ q f

/-- The three weights, recast: argument 5, -/
theorem V3_v6_at : (V3 m ρ c main_v6 : S1x1.Idx → EReal) (ix2 (0 : Fin 1) (0 : Fin 1))
    = (m ((c : Thread nD τ).loc main_arg5) : S1.Idx → EReal) (ix1 (0 : Fin 1)) := by
  show StableHlo.after hostOps1 (W2 m ρ c) (Proc.devRef .tc main_v6) (ix2 (0 : Fin 1) (0 : Fin 1)) = _
  rw [after1_v6, reshape11_apply, W2_arg5]
/-- argument 3, -/
theorem V3_v7_at : (V3 m ρ c main_v7 : S1x1.Idx → EReal) (ix2 (0 : Fin 1) (0 : Fin 1))
    = (m ((c : Thread nD τ).loc main_arg3) : S1.Idx → EReal) (ix1 (0 : Fin 1)) := by
  show StableHlo.after hostOps1 (W2 m ρ c) (Proc.devRef .tc main_v7) (ix2 (0 : Fin 1) (0 : Fin 1)) = _
  rw [after1_v7, reshape11_apply, W2_arg3]
/-- and argument 4. -/
theorem V3_v8_at : (V3 m ρ c main_v8 : S1x1.Idx → EReal) (ix2 (0 : Fin 1) (0 : Fin 1))
    = (m ((c : Thread nD τ).loc main_arg4) : S1.Idx → EReal) (ix1 (0 : Fin 1)) := by
  show StableHlo.after hostOps1 (W2 m ρ c) (Proc.devRef .tc main_v8) (ix2 (0 : Fin 1) (0 : Fin 1)) = _
  rw [after1_v8, reshape11_apply, W2_arg4]

end Cert.KernelIdeal.Fr

end
-- ==== Proof.KI.R1Step.lean ====
import proofs.«149419_j58626303590625_1_alg».proof.Proof.Gen.KernelIdeal.Skeleton

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! # One grid point of the second pallas_call, as pure functions of its blocks

At a grid point the body reads a block `a` of the first operand's projections with its indicator block `ai` (64 rows,
128 features), a block `p` of the second operand's projections with its indicator block `pi` (128 rows, 128 features),
and adds to three 64 × 128 accumulators: the product of the indicator-weighted blocks, and the two signed sums of the
pairwise differences.  At the last point of a row of the grid the output block is the combination of the three
accumulators with the three scalar parameters. -/

/-- The three accumulators after one point, from their contents `xs` before it. -/
def stepAcc (a : Vec F S64x128 .f32) (p : Vec F S128x128 .f32) (ai : Vec F S64x128 .f32) (pi : Vec F S128x128 .f32)
    (xs : Vec F S64x128 .f32 × Vec F S64x128 .f32 × Vec F S64x128 .f32) : Vec F S64x128 .f32 × Vec F S64x128 .f32 × Vec F S64x128 .f32 :=
  (k1_pay11 a p ai pi xs.1,
   k1_pay1 (k1_pay12 a p) (k1_pay13 ai pi) (k1_pay14 a p) (k1_pay15 (F := F)) xs.2.1,
   k1_pay2 (k1_pay12 a p) (k1_pay13 ai pi) xs.2.2)

/-- The three accumulators as the first point of a row of the grid resets them. -/
def zeroAcc : Vec F S64x128 .f32 × Vec F S64x128 .f32 × Vec F S64x128 .f32 :=
  (k1_pay4 (F := F), k1_pay5 (F := F), k1_pay6 (F := F))

/-- The output block stored at the last point of a row of the grid, from the three scalar blocks and the accumulators. -/
def outOf (th al be : Vec F S1x1 .f32) (xs : Vec F S64x128 .f32 × Vec F S64x128 .f32 × Vec F S64x128 .f32) : Vec F S64x128 .f32 :=
  k1_pay3 th al be xs.1 xs.2.1 xs.2.2

end Cert.KernelIdeal.Fr

end
-- ==== Proof.KI.R1PiecesA.lean ====
/-
  The second pallas_call's accumulators after a point that zeroes them first, or only adds to them, as the pure step
  function of the point's blocks: the found pieces read back. A covering store through the whole buffer leaves its
  payload; a load of the whole buffer after such a store reads that payload; a load of a whole buffer reads its contents.
-/
import proofs.«149419_j58626303590625_1_alg».proof.Proof.KI.R1Frame
import proofs.«149419_j58626303590625_1_alg».proof.Proof.KI.R1Step
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

theorem hz2 : (![0, 0] : Fin 2 → Nat) = fun _ => 0 := funext fun a => by fin_cases a <;> rfl

/-- A point that only adds to the accumulators leaves the step function of its four blocks on their contents. -/
theorem scB_eq (c : Dev nD) (t : Fin cfg1.N) (h0 : ¬t.val % 4 = 0) (h1 : ¬t.val % 4 = 3) (xs : Vec F S64x128 .f32 × Vec F S64x128 .f32 × Vec F S64x128 .f32) :
    scB V c t h0 h1 xs = stepAcc (iblk1 V c 3 t) (iblk1 V c 5 t) (iblk1 V c 4 t) (iblk1 V c 6 t) xs := by
  unfold scB readBack runB kernelRun1_B stepAcc
  dsimp only
  sl_unfold_words
  simp only [View.canon_unit_zero (S := S64x128) hz2, View.readAt_eq_ld, Memref.IsWhole.read_unread, View.ld_unit_zero (S := S64x128) hz2, View.ld_unit_zero (S := S128x128) hz2]
  refine Prod.ext ?_ (Prod.ext ?_ ?_) <;> dsimp only <;> congr 1 <;> exact Memref.IsWhole.read_unread _ _

/-- A point that zeroes the accumulators first leaves the step function of its four blocks on the zero accumulators:
    each accumulator is stored twice, the zero fill and then the sum that reads the fill back. -/
theorem scA_eq (c : Dev nD) (t : Fin cfg1.N) (h0 : t.val % 4 = 0) (h1 : ¬t.val % 4 = 3) :
    scA V c t h0 h1 = stepAcc (iblk1 V c 3 t) (iblk1 V c 5 t) (iblk1 V c 4 t) (iblk1 V c 6 t) zeroAcc := by
  unfold scA readBack runA kernelRun1_A stepAcc zeroAcc
  dsimp only
  sl_unfold_words
  simp only [View.canon_cons_unit_zero (S := S64x128) hz2, View.readCov_unit_zero (S := S64x128) _ hz2, View.readAt_eq_ld, Memref.IsWhole.read_unread, View.ld_unit_zero (S := S64x128) hz2, View.ld_unit_zero (S := S128x128) hz2]

end Cert.KernelIdeal.Fr

end
-- ==== Proof.KI.R1PiecesC.lean ====
/-
  The second pallas_call's accumulators and output block after a point that also stores the output block: the
  accumulators gain the point's step as at any other point, and the output block is the combination of the three
  scalars with the accumulators AFTER this point's stores (its payload loads them back from the stores just made).
-/
import proofs.«149419_j58626303590625_1_alg».proof.Proof.KI.R1PiecesA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- A point that also stores the output block leaves in the accumulators the step function of its four blocks. -/
theorem scC_eq (c : Dev nD) (t : Fin cfg1.N) (h0 : ¬t.val % 4 = 0) (h1 : t.val % 4 = 3) (xs : Vec F S64x128 .f32 × Vec F S64x128 .f32 × Vec F S64x128 .f32) :
    scC V c t h0 h1 xs = stepAcc (iblk1 V c 3 t) (iblk1 V c 5 t) (iblk1 V c 4 t) (iblk1 V c 6 t) xs := by
  unfold scC readBack runC kernelRun1_C stepAcc
  dsimp only
  sl_unfold_words
  simp only [View.canon_unit_zero (S := S64x128) hz2, View.readAt_eq_ld, Memref.IsWhole.read_unread, View.ld_unit_zero (S := S64x128) hz2, View.ld_unit_zero (S := S128x128) hz2]
  refine Prod.ext ?_ (Prod.ext ?_ ?_) <;> dsimp only <;> congr 1 <;> exact Memref.IsWhole.read_unread _ _

/-- The output block it stores is the combination of the three scalar blocks with the accumulators after the step. -/
theorem outC_eq (c : Dev nD) (t : Fin cfg1.N) (h0 : ¬t.val % 4 = 0) (h1 : t.val % 4 = 3) (xs : Vec F S64x128 .f32 × Vec F S64x128 .f32 × Vec F S64x128 .f32) :
    outC V c t h0 h1 xs = outOf (iblk1 V c 0 t) (iblk1 V c 1 t) (iblk1 V c 2 t) (stepAcc (iblk1 V c 3 t) (iblk1 V c 5 t) (iblk1 V c 4 t) (iblk1 V c 6 t) xs) := by
  unfold outC readBack runC kernelRun1_C outOf stepAcc
  dsimp only
  sl_unfold_words
  simp only [View.canon_unit_zero (S := S64x128) hz2, View.readCov_unit_zero (S := S64x128) _ hz2, View.readAt_eq_ld, Memref.IsWhole.read_unread, View.ld_unit_zero (S := S64x128) hz2, View.ld_unit_zero (S := S128x128) hz2, View.ld_unit_zero (S := S1x1) hz2]
  refine congr (congr (congrArg (k1_pay3 _ _ _) ?_) ?_) ?_
  · exact congrArg (k1_pay11 _ _ _ _) (Memref.IsWhole.read_unread _ _)
  · exact congrArg (k1_pay1 _ _ _ _) (Memref.IsWhole.read_unread _ _)
  · exact congrArg (k1_pay2 _ _) (Memref.IsWhole.read_unread _ _)

end Cert.KernelIdeal.Fr

end
-- ==== Proof.KI.R1Pieces.lean ====
/-
  The second pallas_call's accumulators in closed form. After the body at a position the three accumulators are the
  step function of that point's blocks applied to the zero accumulators, at the first point of a row of the grid (last
  coordinate 0), or to the accumulators after the point before; the output block a row's last point stores is the
  combination of the three scalar blocks with the accumulators after that point. By induction on the position over
  the cases' found pieces, never by enumerating the grid. So after the last point of a row the accumulators are four
  steps from zero.
-/
import proofs.«149419_j58626303590625_1_alg».proof.Proof.KI.R1PiecesA
import proofs.«149419_j58626303590625_1_alg».proof.Proof.KI.R1PiecesC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- One point's step of the accumulators, from its four blocks. -/
abbrev stepAt (c : Dev nD) (t : Fin cfg1.N) (xs : Vec F S64x128 .f32 × Vec F S64x128 .f32 × Vec F S64x128 .f32) :
    Vec F S64x128 .f32 × Vec F S64x128 .f32 × Vec F S64x128 .f32 :=
  stepAcc (iblk1 V c 3 t) (iblk1 V c 5 t) (iblk1 V c 4 t) (iblk1 V c 6 t) xs

/-- The three accumulators after the body at position n. -/
def accAt (c : Dev nD) : (n : ℕ) → n < cfg1.N → Vec F S64x128 .f32 × Vec F S64x128 .f32 × Vec F S64x128 .f32
  | 0, h => stepAt V c ⟨0, h⟩ zeroAcc
  | n + 1, h => if (n + 1) % 4 = 0 then stepAt V c ⟨n + 1, h⟩ zeroAcc else stepAt V c ⟨n + 1, h⟩ (accAt c n (Nat.lt_of_succ_lt h))

/-- What the run leaves in the accumulators after position n is the closed form. -/
theorem outsAt_acc (c : Dev nD) : ∀ (n : ℕ) (h : n < cfg1.N), (outsAt1 V c n h).2 = accAt V c n h
  | 0, h => by
    rw [outsAt1_A V c ⟨0, h⟩ (Nat.zero_mod _) (show ¬(0 % 4 = 3) by decide)]
    exact scA_eq V c ⟨0, h⟩ _ _
  | n + 1, h => by
    by_cases h0 : (n + 1) % 4 = 0
    · rw [outsAt1_A V c ⟨n + 1, h⟩ h0 (by dsimp only; omega)]
      show scA V c ⟨n + 1, h⟩ _ _ = _
      rw [scA_eq, accAt, if_pos h0]
    · by_cases h1 : (n + 1) % 4 = 3
      · rw [outsAt1_C V c ⟨n + 1, h⟩ h0 h1]
        show scC V c ⟨n + 1, h⟩ h0 h1 (outsAt1 V c n _).2 = _
        rw [scC_eq, outsAt_acc c n, accAt, if_neg h0]
      · rw [outsAt1_B V c ⟨n + 1, h⟩ h0 h1]
        show scB V c ⟨n + 1, h⟩ h0 h1 (outsAt1 V c n _).2 = _
        rw [scB_eq, outsAt_acc c n, accAt, if_neg h0]

/-- The output block a row's last point stores: the three scalar blocks combined with the accumulators after it. -/
theorem outsAt_out (c : Dev nD) (t : Fin cfg1.N) (h1 : t.val % 4 = 3) :
    (outsAt1 V c t.val t.isLt).1 = outOf (iblk1 V c 0 t) (iblk1 V c 1 t) (iblk1 V c 2 t) (accAt V c t.val t.isLt) := by
  have h0 : ¬t.val % 4 = 0 := by omega
  obtain ⟨n, hn⟩ := t
  cases n with
  | zero => exact absurd (Nat.zero_mod _) h0
  | succ n =>
    rw [outsAt1_C V c ⟨n + 1, hn⟩ h0 h1]
    show outC V c ⟨n + 1, hn⟩ h0 h1 (outsAt1 V c n _).2 = _
    rw [outC_eq, outsAt_acc V c n, accAt, if_neg h0]

/-- After the last point of a row the accumulators are four steps from zero, through the row's four points. -/
theorem accAt_row (c : Dev nD) (s : ℕ) (hs0 : s % 4 = 0) (hs : s + 3 < cfg1.N) :
    accAt V c (s + 3) hs
      = stepAt V c ⟨s + 3, hs⟩ (stepAt V c ⟨s + 2, by omega⟩ (stepAt V c ⟨s + 1, by omega⟩ (stepAt V c ⟨s, by omega⟩ zeroAcc))) := by
  have e0 : accAt V c s (by omega) = stepAt V c ⟨s, by omega⟩ zeroAcc := by
    cases s with
    | zero => rfl
    | succ n => rw [accAt, if_pos hs0]
  rw [accAt, if_neg (by omega), accAt, if_neg (by omega), accAt, if_neg (by omega), e0]

end Cert.KernelIdeal.Fr

end
-- ==== Proof.KI.R1StepValue.lean ====
/-
  One grid point of the second pallas_call, read at an index on the extended reals. The three accumulators after a
  point are their contents before it plus a sum over the block's 128 features: the product of the two
  indicator-weighted blocks contracted over the features, and the two signed sums of the pairwise differences, each
  summand weighted by both indicators and by the indicator of the (negated) difference. The [64, 128, 128] arrays of
  the body read row r of the first operand's block against row q of the second's through a shape cast and a broadcast
  each; the kernel negates as 0 − x, which is −x because the float zero word is the real 0.
-/
import proofs.«149419_j58626303590625_1_alg».proof.Proof.KI.R1Step
import proofs.«149419_j58626303590625_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Fr

open Cert.KernelIdeal Cert.KernelIdeal.Gen
open Idealize.ShloMosaic Idealize.ShloMosaic.ValueIdx

/-! ## The layout operations of the body at an index -/

section Layout
variable {α : Type}

/-- A [64, 128] block cast to [64, 1, 128] reads, at (r, u, f), the block at (r, f). -/
theorem cast_mid_apply (v : S64x128.Idx → α) (h : S64x128.ShapeCasts S64x1x128) (r : Fin 64) (u : Fin 1) (f : Fin 128) :
    shapeCast S64x1x128 v h (ix3 r u f) = v (ix2 r f) :=
  shapeCast_apply v h _ _ (by
    have hu : u.val = 0 := by omega
    rw [Shape.rowMajor_val_three, Shape.rowMajor_val_two]
    show r.val * 128 + f.val = (r.val * 1 + u.val) * 128 + f.val
    rw [hu, Nat.mul_one, Nat.add_zero])

/-- A [64, 1, 128] array broadcast to [64, 128, 128] reads, at (r, q, f), its one middle entry at (r, 0, f). -/
theorem bcast_mid_apply (v : S64x1x128.Idx → α) (h : S64x1x128.Broadcasts S64x128x128) (r : Fin 64) (q : Fin 128) (f : Fin 128) :
    broadcastTo S64x128x128 v h (ix3 r q f) = v (ix3 r (0 : Fin 1) f) := by
  refine broadcastTo_apply v h (ix3 r q f) (ix3 r (0 : Fin 1) f) fun ax => ?_
  match ax with
  | ⟨0, _⟩ => rfl
  | ⟨1, _⟩ => rfl
  | ⟨2, _⟩ => rfl

/-- A [1, 128, 128] array broadcast to [64, 128, 128] reads, at (r, q, f), its one leading entry at (0, q, f). -/
theorem bcast_lead_apply (v : S1x128x128.Idx → α) (h : S1x128x128.Broadcasts S64x128x128) (r : Fin 64) (q : Fin 128) (f : Fin 128) :
    broadcastTo S64x128x128 v h (ix3 r q f) = v (ix3 (0 : Fin 1) q f) := by
  refine broadcastTo_apply v h (ix3 r q f) (ix3 (0 : Fin 1) q f) fun ax => ?_
  match ax with
  | ⟨0, _⟩ => rfl
  | ⟨1, _⟩ => rfl
  | ⟨2, _⟩ => rfl

end Layout

/-! ## The pairwise arrays at (r, q, f) -/

section Pairwise
variable (a ai : Vec Ideal S64x128 .f32) (p pi : Vec Ideal S128x128 .f32) (r : Fin 64) (q f : Fin 128)

/-- The difference of row r of the first block and row q of the second, at feature f. -/
theorem pay12_at : k1_pay12 (F := Ideal) a p (ix3 r q f) = a (ix2 r f) - p (ix2 q f) := by
  unfold k1_pay12 k1_pay7 k1_pay8
  rw [shapeCast_self, shapeCast_self]
  show broadcastTo S64x128x128 (shapeCast S64x1x128 a shapeCasts_S64x128_S64x1x128) broadcasts_S64x1x128_S64x128x128 (ix3 r q f)
      - broadcastTo S64x128x128 (shapeCast S1x128x128 p shapeCasts_S128x128_S1x128x128) broadcasts_S1x128x128_S64x128x128 (ix3 r q f) = _
  rw [bcast_mid_apply, bcast_lead_apply, cast_mid_apply, shapeCast_ab_1ab_apply]

/-- The product of the two indicators. -/
theorem pay13_at : k1_pay13 (F := Ideal) ai pi (ix3 r q f) = ai (ix2 r f) * pi (ix2 q f) := by
  unfold k1_pay13 k1_pay9 k1_pay10
  rw [shapeCast_self, shapeCast_self]
  show broadcastTo S64x128x128 (shapeCast S64x1x128 ai shapeCasts_S64x128_S64x1x128) broadcasts_S64x1x128_S64x128x128 (ix3 r q f)
      * broadcastTo S64x128x128 (shapeCast S1x128x128 pi shapeCasts_S128x128_S1x128x128) broadcasts_S1x128x128_S64x128x128 (ix3 r q f) = _
  rw [bcast_mid_apply, bcast_lead_apply, cast_mid_apply, shapeCast_ab_1ab_apply]

/-- The hyperbolic tangent inside the indicator of the difference. -/
theorem pay14_at : k1_pay14 (F := Ideal) a p (ix3 r q f)
    = Ideal.tanh (Ideal.ofBits .f32 0x41200000#32 * ((a (ix2 r f) - p (ix2 q f)) - Ideal.ofBits .f32 0x3F000000#32)) := by
  show Ideal.tanh (Ideal.ofBits .f32 0x41200000#32 * (k1_pay12 (F := Ideal) a p (ix3 r q f) - Ideal.ofBits .f32 0x3F000000#32)) = _
  rw [pay12_at]

end Pairwise

/-! ## The sum over the last axis of a [64, 128, 128] array -/

/-- A sum over the last axis of a [64, 128, 128] array, read at (r, q): the sum over the 128 features of the
    entries (r, q, f). -/
theorem reduce_last_at (src : FVec Ideal S64x128x128 .f32) (hφ : FKind.Formats .f32)
    (hacc : (0x00000000#32 : BitVec (FTy.bits .f32)) = FKind.add.neutral .f32 hφ) (r : Fin 64) (q : Fin 128) :
    multiReduction .add [2] S64x128 src 0x00000000#32 reduces_S64x128x128_S64x128 hφ hacc (ix2 r q)
      = ∑ f : Fin 128, src (ix3 r q f) := by
  refine (Ideal.multiReduction_add_single src _ reduces_S64x128x128_S64x128 hφ hacc (ix2 r q)).trans ?_
  refine Finset.sum_congr rfl fun f _ => congrArg src (funext fun c => Fin.ext ?_)
  match c with
  | ⟨0, _⟩ => rfl
  | ⟨1, _⟩ => rfl
  | ⟨2, _⟩ => rfl

/-! ## The contraction's operand indices -/

/-- The left operand of the contraction is read on the output's row. -/
theorem lhs_row (i : S64x128.Idx) (k : dot_S64x128_S128x128_S64x128_1_1_0_0_n_n.contr.Idx) : (dot_S64x128_S128x128_S64x128_1_1_0_0_n_n.lhsIdx i k 0).val = (i 0).val := by
  unfold DotDims.lhsIdx
  rw [dif_neg (show ¬(0 : Fin S64x128.rank) ∈ dot_S64x128_S128x128_S64x128_1_1_0_0_n_n.lhsBatch by decide), dif_pos (show (0 : Fin S64x128.rank) ∈ dot_S64x128_S128x128_S64x128_1_1_0_0_n_n.lhsNonContracting by decide)]
  rfl

/-- The right operand of the contraction is read on the row the output's column names. -/
theorem rhs_row (i : S64x128.Idx) (k : dot_S64x128_S128x128_S64x128_1_1_0_0_n_n.contr.Idx) : (dot_S64x128_S128x128_S64x128_1_1_0_0_n_n.rhsIdx i k 0).val = (i 1).val := by
  unfold DotDims.rhsIdx
  rw [dif_neg (show ¬(0 : Fin S128x128.rank) ∈ dot_S64x128_S128x128_S64x128_1_1_0_0_n_n.rhsBatch by decide), dif_pos (show (0 : Fin S128x128.rank) ∈ dot_S64x128_S128x128_S64x128_1_1_0_0_n_n.rhsNonContracting by decide)]
  rfl

/-! ## The payloads at (r, q) -/

section Payloads
variable (r : Fin 64) (q : Fin 128)

/-- The accumulator of the differences after a point, over the pairwise arrays it reads. -/
theorem pay1_at (v25 v30 v35 v36 : FVec Ideal S64x128x128 .f32) (v53 : Vec Ideal S64x128 .f32) :
    k1_pay1 (F := Ideal) v25 v30 v35 v36 v53 (ix2 r q)
      = v53 (ix2 r q) + ∑ f : Fin 128, (v25 (ix3 r q f) * v30 (ix3 r q f))
          * ((v35 (ix3 r q f) + v36 (ix3 r q f)) * Ideal.ofBits .f32 0x3F000000#32) := by
  show shapeCast S64x128 (addf v53 (multiReduction .add [2] S64x128
      (mulf (mulf v25 v30) (mulf (addf v35 v36) (broadcast S64x128x128 (Scalar.ofBits (F := Ideal) .f32 0x3F000000#32))))
      0x00000000#32 reduces_S64x128x128_S64x128 (.inl rfl) rfl)) shapeCasts_S64x128_S64x128 (ix2 r q) = _
  rw [shapeCast_self, addf_apply]
  refine congrArg (_ + ·) ((reduce_last_at _ _ _ r q).trans ?_)
  rfl

/-- The accumulator of the negated differences after a point, over the pairwise arrays it reads. -/
theorem pay2_at (v25 v30 : FVec Ideal S64x128x128 .f32) (v63 : Vec Ideal S64x128 .f32) :
    k1_pay2 (F := Ideal) v25 v30 v63 (ix2 r q)
      = v63 (ix2 r q) + ∑ f : Fin 128, ((Ideal.ofBits .f32 0x00000000#32 - v25 (ix3 r q f)) * v30 (ix3 r q f))
          * Cert.Spec.ind (Ideal.ofBits .f32 0x00000000#32 - v25 (ix3 r q f)) := by
  show shapeCast S64x128 (addf v63 (multiReduction .add [2] S64x128
      (mulf (mulf (subf (broadcast S64x128x128 (Scalar.ofBits (F := Ideal) .f32 0x00000000#32)) v25) v30)
        (mulf (addf (tanh (mulf (broadcast S64x128x128 (Scalar.ofBits (F := Ideal) .f32 0x41200000#32))
            (subf (subf (broadcast S64x128x128 (Scalar.ofBits (F := Ideal) .f32 0x00000000#32)) v25)
              (broadcast S64x128x128 (Scalar.ofBits (F := Ideal) .f32 0x3F000000#32)))))
          (broadcast S64x128x128 (Scalar.ofBits (F := Ideal) .f32 0x3F800000#32)))
          (broadcast S64x128x128 (Scalar.ofBits (F := Ideal) .f32 0x3F000000#32))))
      0x00000000#32 reduces_S64x128x128_S64x128 (.inl rfl) rfl)) shapeCasts_S64x128_S64x128 (ix2 r q) = _
  rw [shapeCast_self, addf_apply]
  refine congrArg (_ + ·) ((reduce_last_at _ _ _ r q).trans ?_)
  rfl

/-- The accumulator of the common part after a point: a contraction of the two indicator-weighted blocks over the
    features. -/
theorem pay11_at (a ai : Vec Ideal S64x128 .f32) (p pi : Vec Ideal S128x128 .f32) (acc : Vec Ideal S64x128 .f32) :
    k1_pay11 (F := Ideal) a p ai pi acc (ix2 r q)
      = acc (ix2 r q) + ∑ f : Fin 128, (a (ix2 r f) * ai (ix2 r f)) * (p (ix2 q f) * pi (ix2 q f)) := by
  show shapeCast S64x128 (addf acc (FloatOps.matmul (F := Ideal) dot_S64x128_S128x128_S64x128_1_1_0_0_n_n none
      (truncf .bf16 (mulf (shapeCast S64x128 a shapeCasts_S64x128_S64x128) (shapeCast S64x128 ai shapeCasts_S64x128_S64x128)) bitsLt_bf16_f32)
      (truncf .bf16 (mulf (shapeCast S128x128 p shapeCasts_S128x128_S128x128) (shapeCast S128x128 pi shapeCasts_S128x128_S128x128)) bitsLt_bf16_f32)
      (constant S64x128 .f32 0x00000000#32))) shapeCasts_S64x128_S64x128 (ix2 r q) = _
  rw [shapeCast_self, shapeCast_self, shapeCast_self, shapeCast_self, shapeCast_self, addf_apply,
    Ideal.matmul_constant_zero_apply, ← Equiv.sum_comp (contrEquiv1 dot_S64x128_S128x128_S64x128_1_1_0_0_n_n 128 rfl rfl).symm]
  refine congrArg (acc (ix2 r q) + ·) (Finset.sum_congr rfl fun f _ => ?_)
  have hk := contrEquiv1_symm_val dot_S64x128_S128x128_S64x128_1_1_0_0_n_n 128 rfl rfl f
  have el : dot_S64x128_S128x128_S64x128_1_1_0_0_n_n.lhsIdx (ix2 r q) ((contrEquiv1 dot_S64x128_S128x128_S64x128_1_1_0_0_n_n 128 rfl rfl).symm f) = ix2 r f := funext fun c => Fin.ext (by
    match c with
    | ⟨0, _⟩ => exact lhs_row _ _
    | ⟨1, _⟩ => exact (dot_S64x128_S128x128_S64x128_1_1_0_0_n_n.lhsIdx_val_of_single rfl _ _).trans hk)
  have er : dot_S64x128_S128x128_S64x128_1_1_0_0_n_n.rhsIdx (ix2 r q) ((contrEquiv1 dot_S64x128_S128x128_S64x128_1_1_0_0_n_n 128 rfl rfl).symm f) = ix2 q f := funext fun c => Fin.ext (by
    match c with
    | ⟨0, _⟩ => exact rhs_row _ _
    | ⟨1, _⟩ => exact (dot_S64x128_S128x128_S64x128_1_1_0_0_n_n.rhsIdx_val_of_single rfl _ _).trans hk)
  rw [el, er]
  rfl

end Payloads

/-! ## One point, the reset and the output -/

section Step
variable (a ai : Vec Ideal S64x128 .f32) (p pi : Vec Ideal S128x128 .f32)
  (xs : Vec Ideal S64x128 .f32 × Vec Ideal S64x128 .f32 × Vec Ideal S64x128 .f32) (r : Fin 64) (q : Fin 128)

/-- The first accumulator gains the contraction of the indicator-weighted blocks over the block's features. -/
theorem stepAcc_fst :
    (stepAcc (F := Ideal) a p ai pi xs).1 (ix2 r q)
      = xs.1 (ix2 r q) + ∑ f : Fin 128, (a (ix2 r f) * ai (ix2 r f)) * (p (ix2 q f) * pi (ix2 q f)) :=
  pay11_at r q a ai p pi xs.1

/-- The second accumulator gains the differences, weighted by both indicators and by the indicator of the
    difference. -/
theorem stepAcc_snd :
    (stepAcc (F := Ideal) a p ai pi xs).2.1 (ix2 r q)
      = xs.2.1 (ix2 r q) + ∑ f : Fin 128, ((a (ix2 r f) - p (ix2 q f)) * (ai (ix2 r f) * pi (ix2 q f)))
          * Cert.Spec.ind (a (ix2 r f) - p (ix2 q f)) := by
  show k1_pay1 (F := Ideal) (k1_pay12 a p) (k1_pay13 ai pi) (k1_pay14 a p) (k1_pay15 (F := Ideal)) xs.2.1 (ix2 r q) = _
  rw [pay1_at]
  refine congrArg (xs.2.1 (ix2 r q) + ·) (Finset.sum_congr rfl fun f _ => ?_)
  rw [pay12_at, pay13_at, pay14_at]
  rfl

/-- The third accumulator gains the negated differences, weighted by both indicators and by the indicator of the
    negated difference (the kernel's 0 − x is −x). -/
theorem stepAcc_trd :
    (stepAcc (F := Ideal) a p ai pi xs).2.2 (ix2 r q)
      = xs.2.2 (ix2 r q) + ∑ f : Fin 128, ((-(a (ix2 r f) - p (ix2 q f))) * (ai (ix2 r f) * pi (ix2 q f)))
          * Cert.Spec.ind (-(a (ix2 r f) - p (ix2 q f))) := by
  show k1_pay2 (F := Ideal) (k1_pay12 a p) (k1_pay13 ai pi) xs.2.2 (ix2 r q) = _
  rw [pay2_at]
  refine congrArg (xs.2.2 (ix2 r q) + ·) (Finset.sum_congr rfl fun f _ => ?_)
  rw [pay12_at, pay13_at, Ideal.ofBits_zero_f32, zero_sub]

/-- The reset accumulators hold the float zero word everywhere. -/
theorem zeroAcc_apply (i : S64x128.Idx) :
    (zeroAcc (F := Ideal)).1 i = Ideal.ofBits .f32 0x00000000#32
      ∧ (zeroAcc (F := Ideal)).2.1 i = Ideal.ofBits .f32 0x00000000#32
      ∧ (zeroAcc (F := Ideal)).2.2 i = Ideal.ofBits .f32 0x00000000#32 := by
  refine ⟨?_, ?_, ?_⟩
  · show shapeCast S64x128 (broadcast S64x128 (Scalar.ofBits (F := Ideal) .f32 0x00000000#32)) shapeCasts_S64x128_S64x128 i = _
    rw [shapeCast_self]; rfl
  · show shapeCast S64x128 (broadcast S64x128 (Scalar.ofBits (F := Ideal) .f32 0x00000000#32)) shapeCasts_S64x128_S64x128 i = _
    rw [shapeCast_self]; rfl
  · show shapeCast S64x128 (broadcast S64x128 (Scalar.ofBits (F := Ideal) .f32 0x00000000#32)) shapeCasts_S64x128_S64x128 i = _
    rw [shapeCast_self]; rfl

/-- The output block: the three accumulators combined with the three scalars. -/
theorem outOf_apply (th al be : Vec Ideal S1x1 .f32) :
    outOf (F := Ideal) th al be xs (ix2 r q)
      = th (ix2 0 0) * xs.1 (ix2 r q) - al (ix2 0 0) * xs.2.1 (ix2 r q) - be (ix2 0 0) * xs.2.2 (ix2 r q) := by
  have e : (fun c : Fin S1x1.rank => (⟨(![0, 0] : Fin 2 → Nat) c, inpos_S1x1_p0_0 c⟩ : Fin (S1x1.size c))) = ix2 (0 : Fin 1) (0 : Fin 1) :=
    funext fun c => Fin.ext (by match c with | ⟨0, _⟩ => rfl | ⟨1, _⟩ => rfl)
  show extractAt ![0, 0] th inpos_S1x1_p0_0 * xs.1 (ix2 r q) - extractAt ![0, 0] al inpos_S1x1_p0_0 * xs.2.1 (ix2 r q)
      - extractAt ![0, 0] be inpos_S1x1_p0_0 * xs.2.2 (ix2 r q) = _
  unfold extractAt
  rw [e]

end Step

end Cert.KernelIdeal.Fr

end
-- ==== Proof.KI.Blocked.lean ====
/-
  Four blocks of 128 features are the 512 features: the sums an accumulator gathers block after block, from its
  starting value, are the starting value plus the one sum over all the features. Only the associativity of the
  extended reals' addition is used (and, for an accumulator that starts at the float zero word and whose every block
  sum carries its own zero word, that this word is the real 0).
-/
import Idealize.ShloMosaic.PureOps.Ideal
import Idealize.ShloMosaic.PureOps.Ideal.Laws

noncomputable section

open scoped BigOperators

namespace Cert.Blocked

open Idealize.ShloMosaic

/-- Feature 128 · k + f of the 512, from the block k and the feature f inside it, is the product's standard
    enumeration of the pairs (k, f). -/
theorem pair_eq (k : Fin 4) (f : Fin 128) :
    (finProdFinEquiv (k, f) : Fin (4 * 128)) = (⟨128 * k.val + f.val, by omega⟩ : Fin 512) :=
  Fin.ext (by show f.val + 128 * k.val = 128 * k.val + f.val; omega)

/-- The sum over the 512 features is the sum of the four block sums, gathered from the left. -/
theorem sum_blocks {M : Type*} [AddCommMonoid M] (u : Fin 512 → M) :
    ∑ f : Fin 512, u f
      = (((∑ f : Fin 128, u ⟨128 * 0 + f.val, by omega⟩) + ∑ f : Fin 128, u ⟨128 * 1 + f.val, by omega⟩)
          + ∑ f : Fin 128, u ⟨128 * 2 + f.val, by omega⟩) + ∑ f : Fin 128, u ⟨128 * 3 + f.val, by omega⟩ := by
  have e1 : ∑ f : Fin 512, u f = ∑ p : Fin 4 × Fin 128, u (finProdFinEquiv p) :=
    (Equiv.sum_comp (finProdFinEquiv (m := 4) (n := 128)) u).symm
  rw [e1, Fintype.sum_prod_type, Fin.sum_univ_four]
  simp only [pair_eq]
  rfl

/-- An accumulator that starts at z and adds the four block sums one after the other ends at z plus the sum over
    the 512 features. -/
theorem acc_blocks (z : EReal) (u : Fin 512 → EReal) :
    (((z + ∑ f : Fin 128, u ⟨128 * 0 + f.val, by omega⟩) + ∑ f : Fin 128, u ⟨128 * 1 + f.val, by omega⟩)
        + ∑ f : Fin 128, u ⟨128 * 2 + f.val, by omega⟩) + ∑ f : Fin 128, u ⟨128 * 3 + f.val, by omega⟩
      = z + ∑ f : Fin 512, u f := by
  rw [sum_blocks u]
  simp only [add_assoc]

/-- The same for an accumulator that starts at the float zero word and whose every block sum carries its own zero
    word: it ends at the zero word plus the sum over the 512 features. -/
theorem acc_blocks_zero (u : Fin 512 → EReal) :
    ((((Ideal.ofBits .f32 0x00000000#32
          + (Ideal.ofBits .f32 0x00000000#32 + ∑ f : Fin 128, u ⟨128 * 0 + f.val, by omega⟩))
          + (Ideal.ofBits .f32 0x00000000#32 + ∑ f : Fin 128, u ⟨128 * 1 + f.val, by omega⟩))
          + (Ideal.ofBits .f32 0x00000000#32 + ∑ f : Fin 128, u ⟨128 * 2 + f.val, by omega⟩))
          + (Ideal.ofBits .f32 0x00000000#32 + ∑ f : Fin 128, u ⟨128 * 3 + f.val, by omega⟩))
      = Ideal.ofBits .f32 0x00000000#32 + ∑ f : Fin 512, u f := by
  rw [sum_blocks u, Ideal.ofBits_zero_f32]
  simp only [zero_add]

end Cert.Blocked

end
-- ==== Proof.KI.R1Entry.lean ====
/-
  The output block's entry after the four points of a row of the grid, on the extended reals: the three accumulators,
  started at the float zero word and stepped through the row's four blocks of 128 features, hold the zero word plus
  the sums over all 512 features; combined with the three scalars that is the specification's entry, once each
  block's entry is the array's at the block's place.
-/
import proofs.«149419_j58626303590625_1_alg».proof.Proof.KI.R1StepValue
import proofs.«149419_j58626303590625_1_alg».proof.Proof.KI.Blocked
import proofs.«149419_j58626303590625_1_alg».proof.Proof.Spec

set_option maxRecDepth 16384

noncomputable section

open scoped BigOperators

namespace Cert.KernelIdeal.Fr

open Cert.KernelIdeal Cert.KernelIdeal.Gen
open Idealize.ShloMosaic Idealize.ShloMosaic.ValueIdx

/-- The second pallas_call's output array as one function of its seven operand arrays: the three scalars and the
    projections and indicators of the two operands, [256, 512] each. -/
def outG (th al be : Vec Ideal S1x1 .f32) (A Ai P Pi : Vec Ideal S256x512 .f32) : S256x256.Idx → EReal :=
  fun i => th (ix2 0 0) * (∑ f : Fin 512, (A (ix2 (i 0) f) * Ai (ix2 (i 0) f)) * (P (ix2 (i 1) f) * Pi (ix2 (i 1) f)))
    - al (ix2 0 0) * (Ideal.ofBits .f32 0x00000000#32 + ∑ f : Fin 512,
        ((A (ix2 (i 0) f) - P (ix2 (i 1) f)) * (Ai (ix2 (i 0) f) * Pi (ix2 (i 1) f))) * Cert.Spec.ind (A (ix2 (i 0) f) - P (ix2 (i 1) f)))
    - be (ix2 0 0) * (Ideal.ofBits .f32 0x00000000#32 + ∑ f : Fin 512,
        ((-(A (ix2 (i 0) f) - P (ix2 (i 1) f))) * (Ai (ix2 (i 0) f) * Pi (ix2 (i 1) f))) * Cert.Spec.ind (-(A (ix2 (i 0) f) - P (ix2 (i 1) f))))

section Row
variable (a ai : Fin 4 → Vec Ideal S64x128 .f32) (p pi : Fin 4 → Vec Ideal S128x128 .f32)
  (A Ai P Pi : Vec Ideal S256x512 .f32) (r : Fin 64) (q : Fin 128) (R Q : Fin 256)
  (ha : ∀ (k : Fin 4) (f : Fin 128), a k (ix2 r f) = A (ix2 R ⟨128 * k.val + f.val, by omega⟩))
  (hai : ∀ (k : Fin 4) (f : Fin 128), ai k (ix2 r f) = Ai (ix2 R ⟨128 * k.val + f.val, by omega⟩))
  (hp : ∀ (k : Fin 4) (f : Fin 128), p k (ix2 q f) = P (ix2 Q ⟨128 * k.val + f.val, by omega⟩))
  (hpi : ∀ (k : Fin 4) (f : Fin 128), pi k (ix2 q f) = Pi (ix2 Q ⟨128 * k.val + f.val, by omega⟩))

/-- The accumulators after the four points of a row. -/
abbrev row4 : Vec Ideal S64x128 .f32 × Vec Ideal S64x128 .f32 × Vec Ideal S64x128 .f32 :=
  stepAcc (F := Ideal) (a 3) (p 3) (ai 3) (pi 3) (stepAcc (a 2) (p 2) (ai 2) (pi 2) (stepAcc (a 1) (p 1) (ai 1) (pi 1)
    (stepAcc (a 0) (p 0) (ai 0) (pi 0) zeroAcc)))

include ha hai hp hpi

/-- The first accumulator after a row: the contraction over all 512 features. -/
theorem row4_fst : (row4 a ai p pi).1 (ix2 r q)
    = ∑ f : Fin 512, (A (ix2 R f) * Ai (ix2 R f)) * (P (ix2 Q f) * Pi (ix2 Q f)) := by
  unfold row4
  rw [stepAcc_fst, stepAcc_fst, stepAcc_fst, stepAcc_fst, (zeroAcc_apply (ix2 r q)).1]
  simp only [ha, hai, hp, hpi]
  refine (Cert.Blocked.acc_blocks _ (fun f' => (A (ix2 R f') * Ai (ix2 R f')) * (P (ix2 Q f') * Pi (ix2 Q f')))).trans ?_
  rw [Ideal.ofBits_zero_f32, zero_add]

/-- The second accumulator after a row: the zero word plus the sum of the weighted differences over all 512 features. -/
theorem row4_snd : (row4 a ai p pi).2.1 (ix2 r q)
    = Ideal.ofBits .f32 0x00000000#32 + ∑ f : Fin 512,
        ((A (ix2 R f) - P (ix2 Q f)) * (Ai (ix2 R f) * Pi (ix2 Q f))) * Cert.Spec.ind (A (ix2 R f) - P (ix2 Q f)) := by
  unfold row4
  rw [stepAcc_snd, stepAcc_snd, stepAcc_snd, stepAcc_snd, (zeroAcc_apply (ix2 r q)).2.1]
  simp only [ha, hai, hp, hpi]
  exact Cert.Blocked.acc_blocks _ (fun f' => ((A (ix2 R f') - P (ix2 Q f')) * (Ai (ix2 R f') * Pi (ix2 Q f'))) * Cert.Spec.ind (A (ix2 R f') - P (ix2 Q f')))

/-- The third accumulator after a row: the same for the negated differences. -/
theorem row4_trd : (row4 a ai p pi).2.2 (ix2 r q)
    = Ideal.ofBits .f32 0x00000000#32 + ∑ f : Fin 512,
        ((-(A (ix2 R f) - P (ix2 Q f))) * (Ai (ix2 R f) * Pi (ix2 Q f))) * Cert.Spec.ind (-(A (ix2 R f) - P (ix2 Q f))) := by
  unfold row4
  rw [stepAcc_trd, stepAcc_trd, stepAcc_trd, stepAcc_trd, (zeroAcc_apply (ix2 r q)).2.2]
  simp only [ha, hai, hp, hpi]
  exact Cert.Blocked.acc_blocks _ (fun f' => ((-(A (ix2 R f') - P (ix2 Q f'))) * (Ai (ix2 R f') * Pi (ix2 Q f'))) * Cert.Spec.ind (-(A (ix2 R f') - P (ix2 Q f'))))

end Row

/-- The output block's entry at the last point of a row is the specification's entry of the operand arrays, given
    that the scalar blocks are the scalars and that each of the row's blocks reads its array at the block's place. -/
theorem entry (th al be TH AL BE : Vec Ideal S1x1 .f32) (a ai : Fin 4 → Vec Ideal S64x128 .f32) (p pi : Fin 4 → Vec Ideal S128x128 .f32)
    (A Ai P Pi : Vec Ideal S256x512 .f32) (y : S64x128.Idx) (i : S256x256.Idx)
    (hth : th (ix2 0 0) = TH (ix2 0 0)) (hal : al (ix2 0 0) = AL (ix2 0 0)) (hbe : be (ix2 0 0) = BE (ix2 0 0))
    (ha : ∀ (k : Fin 4) (f : Fin 128), a k (ix2 (y 0) f) = A (ix2 (i 0) ⟨128 * k.val + f.val, by omega⟩))
    (hai : ∀ (k : Fin 4) (f : Fin 128), ai k (ix2 (y 0) f) = Ai (ix2 (i 0) ⟨128 * k.val + f.val, by omega⟩))
    (hp : ∀ (k : Fin 4) (f : Fin 128), p k (ix2 (y 1) f) = P (ix2 (i 1) ⟨128 * k.val + f.val, by omega⟩))
    (hpi : ∀ (k : Fin 4) (f : Fin 128), pi k (ix2 (y 1) f) = Pi (ix2 (i 1) ⟨128 * k.val + f.val, by omega⟩)) :
    outOf (F := Ideal) th al be (row4 a ai p pi) y = outG TH AL BE A Ai P Pi i := by
  obtain ⟨r, q, rfl⟩ : ∃ (r : Fin 64) (q : Fin 128), y = ix2 r q := ⟨y 0, y 1, eq_ix2 y⟩
  rw [outOf_apply, row4_fst a ai p pi A Ai P Pi r q (i 0) (i 1) ha hai hp hpi,
    row4_snd a ai p pi A Ai P Pi r q (i 0) (i 1) ha hai hp hpi,
    row4_trd a ai p pi A Ai P Pi r q (i 0) (i 1) ha hai hp hpi, hth, hal, hbe]
  rfl

end Cert.KernelIdeal.Fr

end
-- ==== Proof.KI.R1Value.lean ====
/-
  What the second pallas_call's output array ends holding, on the extended reals: the specification's function of the
  seven operand arrays. The output block of a row of the grid (its last point, last coordinate 3) is the three scalars
  combined with the accumulators four steps from zero, through the row's four points; each point's blocks read the
  operand arrays at the block's place (the printed index maps, decided once over the 32 points: a point's coordinates
  are its number's quotients and remainders by 8, 4 and 2), so the four blocks of 128 features are the 512 features; and
  the 8 output blocks, one per row of the grid, tile the [256, 256] array.
-/
import proofs.«149419_j58626303590625_1_alg».proof.Proof.KI.R1Pieces
import proofs.«149419_j58626303590625_1_alg».proof.Proof.KI.R1Entry

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (V : (c : Dev nD) → (b : Ref sig .tc) → Buf (Elt Ideal) ((c : Thread nD τ).loc b))

/-- The printed index maps, decided over the grid: the scalars' blocks stay at 0; the first operand's blocks sit at
    (first coordinate, last coordinate), the second's at (middle, last), the output's at (first, middle). -/
theorem idx_facts1 : ∀ s : Fin cfg1.N,
    win1_0.index s (0 : Fin 2) = 0 ∧ win1_0.index s (1 : Fin 2) = 0
    ∧ win1_1.index s (0 : Fin 2) = 0 ∧ win1_1.index s (1 : Fin 2) = 0
    ∧ win1_2.index s (0 : Fin 2) = 0 ∧ win1_2.index s (1 : Fin 2) = 0
    ∧ win1_3.index s (0 : Fin 2) = s.val / 8 ∧ win1_3.index s (1 : Fin 2) = s.val % 4
    ∧ win1_4.index s (0 : Fin 2) = s.val / 8 ∧ win1_4.index s (1 : Fin 2) = s.val % 4
    ∧ win1_5.index s (0 : Fin 2) = s.val / 4 % 2 ∧ win1_5.index s (1 : Fin 2) = s.val % 4
    ∧ win1_6.index s (0 : Fin 2) = s.val / 4 % 2 ∧ win1_6.index s (1 : Fin 2) = s.val % 4
    ∧ win1_7.index s (0 : Fin 2) = s.val / 8 ∧ win1_7.index s (1 : Fin 2) = s.val / 4 % 2 :=
  (by decide +kernel : ∀ s : Fin grid1.N, _)

/-! ## Each block reads its array at the block's place -/

/-- The block of the first scalar is the scalar's whole [1, 1] array at every point. -/
theorem blk0_at (c : Dev nD) (s : Fin cfg1.N) : iblk1 V c 0 s (ix2 0 0) = V c main_v6 (ix2 0 0) := by
  show V c main_v6 (((cfg1.win 0).blk s).view.emb (ix2 0 0)) = V c main_v6 (ix2 0 0)
  refine congrArg (V c main_v6) (funext fun a => Fin.ext ?_)
  obtain ⟨e00, e01, e10, e11, e20, e21, -⟩ := idx_facts1 s
  match a with
  | ⟨0, _⟩ => show win1_0.index s (0 : Fin 2) * 1 + 1 * 0 = 0; rw [e00]
  | ⟨1, _⟩ => show win1_0.index s (1 : Fin 2) * 1 + 1 * 0 = 0; rw [e01]

/-- The block of the second scalar is the scalar's whole [1, 1] array at every point. -/
theorem blk1_at (c : Dev nD) (s : Fin cfg1.N) : iblk1 V c 1 s (ix2 0 0) = V c main_v7 (ix2 0 0) := by
  show V c main_v7 (((cfg1.win 1).blk s).view.emb (ix2 0 0)) = V c main_v7 (ix2 0 0)
  refine congrArg (V c main_v7) (funext fun a => Fin.ext ?_)
  obtain ⟨e00, e01, e10, e11, e20, e21, -⟩ := idx_facts1 s
  match a with
  | ⟨0, _⟩ => show win1_1.index s (0 : Fin 2) * 1 + 1 * 0 = 0; rw [e10]
  | ⟨1, _⟩ => show win1_1.index s (1 : Fin 2) * 1 + 1 * 0 = 0; rw [e11]

/-- The block of the third scalar is the scalar's whole [1, 1] array at every point. -/
theorem blk2_at (c : Dev nD) (s : Fin cfg1.N) : iblk1 V c 2 s (ix2 0 0) = V c main_v8 (ix2 0 0) := by
  show V c main_v8 (((cfg1.win 2).blk s).view.emb (ix2 0 0)) = V c main_v8 (ix2 0 0)
  refine congrArg (V c main_v8) (funext fun a => Fin.ext ?_)
  obtain ⟨e00, e01, e10, e11, e20, e21, -⟩ := idx_facts1 s
  match a with
  | ⟨0, _⟩ => show win1_2.index s (0 : Fin 2) * 1 + 1 * 0 = 0; rw [e20]
  | ⟨1, _⟩ => show win1_2.index s (1 : Fin 2) * 1 + 1 * 0 = 0; rw [e21]

/-- A block of the first operand's projections reads the array at the block's place: rows from 64 times the point's first coordinate,
    features from 128 times its last. -/
theorem blk3_at (c : Dev nD) (s : Fin cfg1.N) (y : S64x128.Idx) (i : S256x512.Idx)
    (h0 : (i 0).val = s.val / 8 * 64 + (y 0).val) (h1 : (i 1).val = s.val % 4 * 128 + (y 1).val) :
    iblk1 V c 3 s y = V c main_v2 i := by
  show V c main_v2 (((cfg1.win 3).blk s).view.emb y) = V c main_v2 i
  refine congrArg (V c main_v2) (funext fun a => Fin.ext ?_)
  obtain ⟨-, -, -, -, -, -, e30, e31, e40, e41, e50, e51, e60, e61, e70, e71⟩ := idx_facts1 s
  match a with
  | ⟨0, _⟩ => show win1_3.index s (0 : Fin 2) * 64 + 1 * (y 0).val = (i 0).val; rw [e30, h0]; omega
  | ⟨1, _⟩ => show win1_3.index s (1 : Fin 2) * 128 + 1 * (y 1).val = (i 1).val; rw [e31, h1]; omega

/-- A block of the first operand's indicators reads the array at the block's place: rows from 64 times the point's first coordinate,
    features from 128 times its last. -/
theorem blk4_at (c : Dev nD) (s : Fin cfg1.N) (y : S64x128.Idx) (i : S256x512.Idx)
    (h0 : (i 0).val = s.val / 8 * 64 + (y 0).val) (h1 : (i 1).val = s.val % 4 * 128 + (y 1).val) :
    iblk1 V c 4 s y = V c main_v4 i := by
  show V c main_v4 (((cfg1.win 4).blk s).view.emb y) = V c main_v4 i
  refine congrArg (V c main_v4) (funext fun a => Fin.ext ?_)
  obtain ⟨-, -, -, -, -, -, e30, e31, e40, e41, e50, e51, e60, e61, e70, e71⟩ := idx_facts1 s
  match a with
  | ⟨0, _⟩ => show win1_4.index s (0 : Fin 2) * 64 + 1 * (y 0).val = (i 0).val; rw [e40, h0]; omega
  | ⟨1, _⟩ => show win1_4.index s (1 : Fin 2) * 128 + 1 * (y 1).val = (i 1).val; rw [e41, h1]; omega

/-- A block of the second operand's projections reads the array at the block's place: rows from 128 times the point's middle coordinate,
    features from 128 times its last. -/
theorem blk5_at (c : Dev nD) (s : Fin cfg1.N) (y : S128x128.Idx) (i : S256x512.Idx)
    (h0 : (i 0).val = s.val / 4 % 2 * 128 + (y 0).val) (h1 : (i 1).val = s.val % 4 * 128 + (y 1).val) :
    iblk1 V c 5 s y = V c main_v3 i := by
  show V c main_v3 (((cfg1.win 5).blk s).view.emb y) = V c main_v3 i
  refine congrArg (V c main_v3) (funext fun a => Fin.ext ?_)
  obtain ⟨-, -, -, -, -, -, e30, e31, e40, e41, e50, e51, e60, e61, e70, e71⟩ := idx_facts1 s
  match a with
  | ⟨0, _⟩ => show win1_5.index s (0 : Fin 2) * 128 + 1 * (y 0).val = (i 0).val; rw [e50, h0]; omega
  | ⟨1, _⟩ => show win1_5.index s (1 : Fin 2) * 128 + 1 * (y 1).val = (i 1).val; rw [e51, h1]; omega

/-- A block of the second operand's indicators reads the array at the block's place: rows from 128 times the point's middle coordinate,
    features from 128 times its last. -/
theorem blk6_at (c : Dev nD) (s : Fin cfg1.N) (y : S128x128.Idx) (i : S256x512.Idx)
    (h0 : (i 0).val = s.val / 4 % 2 * 128 + (y 0).val) (h1 : (i 1).val = s.val % 4 * 128 + (y 1).val) :
    iblk1 V c 6 s y = V c main_v5 i := by
  show V c main_v5 (((cfg1.win 6).blk s).view.emb y) = V c main_v5 i
  refine congrArg (V c main_v5) (funext fun a => Fin.ext ?_)
  obtain ⟨-, -, -, -, -, -, e30, e31, e40, e41, e50, e51, e60, e61, e70, e71⟩ := idx_facts1 s
  match a with
  | ⟨0, _⟩ => show win1_6.index s (0 : Fin 2) * 128 + 1 * (y 0).val = (i 0).val; rw [e60, h0]; omega
  | ⟨1, _⟩ => show win1_6.index s (1 : Fin 2) * 128 + 1 * (y 1).val = (i 1).val; rw [e61, h1]; omega

/-! ## The output array -/

/-- What the output array ends holding: the specification's function of the seven operand arrays as the region finds them. -/
abbrev result1 (c : Dev nD) : Buf (Elt Ideal) ((c : Thread nD τ).loc main_v9) :=
  outG (V c main_v6) (V c main_v7) (V c main_v8) (V c main_v2) (V c main_v4) (V c main_v3) (V c main_v5)

/-- What a row's last point writes back is its block of that function. -/
theorem flushed_eq1 (c : Dev nD) (t : Fin cfg1.N) (hf : (cfg1.win 7).flush t = true) :
    (dat1 V c).flushed 7 t = ((cfg1.win 7).blk t).view.read (Elt Ideal) (result1 V c) := by
  have hN : cfg1.N = 32 := N_1
  have h3 : t.val % 4 = 3 := (flush1_7 t).mp hf
  obtain ⟨s, hs, rfl⟩ : ∃ (s : ℕ) (hs : s + 3 < cfg1.N), t = ⟨s + 3, hs⟩ :=
    ⟨t.val - 3, by have := t.isLt; omega, Fin.ext (by dsimp only; omega)⟩
  have hs0 : s % 4 = 0 := by dsimp only at h3; omega
  show (cfg1.win 7).cut (grid1.coords ⟨s + 3, hs⟩) ((dat1 V c).after 7 ⟨s + 3, hs⟩) = _
  rw [after1_7, outsAt_out V c ⟨s + 3, hs⟩ h3]
  show (cfg1.win 7).cut (grid1.coords ⟨s + 3, hs⟩) (outOf _ _ _ (accAt V c (s + 3) hs)) = _
  rw [accAt_row V c s hs0 hs]
  funext y
  obtain ⟨-, -, -, -, -, -, -, -, -, -, -, -, -, -, e70, e71⟩ := idx_facts1 ⟨s + 3, hs⟩
  show outOf (F := Ideal) (iblk1 V c 0 ⟨s + 3, hs⟩) (iblk1 V c 1 ⟨s + 3, hs⟩) (iblk1 V c 2 ⟨s + 3, hs⟩)
      (row4 (fun k : Fin 4 => iblk1 V c 3 ⟨s + k.val, by omega⟩) (fun k : Fin 4 => iblk1 V c 4 ⟨s + k.val, by omega⟩)
        (fun k : Fin 4 => iblk1 V c 5 ⟨s + k.val, by omega⟩) (fun k : Fin 4 => iblk1 V c 6 ⟨s + k.val, by omega⟩)) y
    = result1 V c (((cfg1.win 7).blk ⟨s + 3, hs⟩).view.emb y)
  have hy0 : ((((cfg1.win 7).blk ⟨s + 3, hs⟩).view.emb y) 0).val = (s + 3) / 8 * 64 + (y 0).val := by
    show win1_7.index ⟨s + 3, hs⟩ (0 : Fin 2) * 64 + 1 * (y 0).val = _
    rw [e70]; dsimp only; omega
  have hy1 : ((((cfg1.win 7).blk ⟨s + 3, hs⟩).view.emb y) 1).val = (s + 3) / 4 % 2 * 128 + (y 1).val := by
    show win1_7.index ⟨s + 3, hs⟩ (1 : Fin 2) * 128 + 1 * (y 1).val = _
    rw [e71]; dsimp only; omega
  refine entry _ _ _ (V c main_v6) (V c main_v7) (V c main_v8) _ _ _ _ (V c main_v2) (V c main_v4) (V c main_v3) (V c main_v5) y _
    (blk0_at V c _) (blk1_at V c _) (blk2_at V c _) ?_ ?_ ?_ ?_
  · intro k f
    have hk := k.isLt
    refine blk3_at V c ⟨s + k.val, by omega⟩ (ix2 (y 0) f) _ ?_ ?_
    · show ((((cfg1.win 7).blk ⟨s + 3, hs⟩).view.emb y) 0).val = (s + k.val) / 8 * 64 + (y 0).val
      rw [hy0]; omega
    · show 128 * k.val + f.val = (s + k.val) % 4 * 128 + f.val
      omega
  · intro k f
    have hk := k.isLt
    refine blk4_at V c ⟨s + k.val, by omega⟩ (ix2 (y 0) f) _ ?_ ?_
    · show ((((cfg1.win 7).blk ⟨s + 3, hs⟩).view.emb y) 0).val = (s + k.val) / 8 * 64 + (y 0).val
      rw [hy0]; omega
    · show 128 * k.val + f.val = (s + k.val) % 4 * 128 + f.val
      omega
  · intro k f
    have hk := k.isLt
    refine blk5_at V c ⟨s + k.val, by omega⟩ (ix2 (y 1) f) _ ?_ ?_
    · show ((((cfg1.win 7).blk ⟨s + 3, hs⟩).view.emb y) 1).val = (s + k.val) / 4 % 2 * 128 + (y 1).val
      rw [hy1]; omega
    · show 128 * k.val + f.val = (s + k.val) % 4 * 128 + f.val
      omega
  · intro k f
    have hk := k.isLt
    refine blk6_at V c ⟨s + k.val, by omega⟩ (ix2 (y 1) f) _ ?_ ?_
    · show ((((cfg1.win 7).blk ⟨s + 3, hs⟩).view.emb y) 1).val = (s + k.val) / 4 % 2 * 128 + (y 1).val
      rw [hy1]; omega
    · show 128 * k.val + f.val = (s + k.val) % 4 * 128 + f.val
      omega

/-- Every entry of the output array is in the block of its row of the grid's last point. -/
theorem cover1 (c : Dev nD) (i : ((cfg1.win 7).arr.view.loc (c.tc : Thread nD τ)).2.ty.Idx) :
    ∃ t : Fin cfg1.N, (cfg1.win 7).flush t = true ∧ i ∈ ((cfg1.win 7).blk t).view.set := by
  have hN : cfg1.N = 32 := N_1
  have hi0 : (i 0).val < 256 := (i 0).isLt
  have hi1 : (i 1).val < 256 := (i 1).isLt
  have hlt : 8 * ((i 0).val / 64) + 4 * ((i 1).val / 128) + 3 < cfg1.N := by omega
  refine ⟨⟨8 * ((i 0).val / 64) + 4 * ((i 1).val / 128) + 3, hlt⟩, (flush1_7 _).mpr (by dsimp only; omega), ?_⟩
  obtain ⟨-, -, -, -, -, -, -, -, -, -, -, -, -, -, e70, e71⟩ := idx_facts1 ⟨8 * ((i 0).val / 64) + 4 * ((i 1).val / 128) + 3, hlt⟩
  show i ∈ ((View.whole main_v9).slice (win1_7.rect ⟨8 * ((i 0).val / 64) + 4 * ((i 1).val / 128) + 3, hlt⟩)).set
  rw [View.set_slice_whole, Rect.mem_set_unit]
  intro a
  match a with
  | ⟨0, _⟩ =>
    show win1_7.index ⟨8 * ((i 0).val / 64) + 4 * ((i 1).val / 128) + 3, hlt⟩ (0 : Fin 2) * 64 ≤ (i 0).val
      ∧ (i 0).val < win1_7.index ⟨8 * ((i 0).val / 64) + 4 * ((i 1).val / 128) + 3, hlt⟩ (0 : Fin 2) * 64 + 64
    rw [e70]; dsimp only; omega
  | ⟨1, _⟩ =>
    show win1_7.index ⟨8 * ((i 0).val / 64) + 4 * ((i 1).val / 128) + 3, hlt⟩ (1 : Fin 2) * 128 ≤ (i 1).val
      ∧ (i 1).val < win1_7.index ⟨8 * ((i 0).val / 64) + 4 * ((i 1).val / 128) + 3, hlt⟩ (1 : Fin 2) * 128 + 128
    rw [e71]; dsimp only; omega

/-- The output array after the run. -/
theorem arr1_7 (c : Dev nD) : (dat1 V c).arrAt 7 cfg1.N = result1 V c :=
  (dat1 V c).arrAt_eq_of_cover 7 (result1 V c) (flushed_eq1 V c) (cover1 c)

end Cert.KernelIdeal.Fr

end
-- ==== Proof.KI.Final.lean ====
/- The result array of the whole program, on the extended reals, as the specification's function of the six
   arguments as launched. The second pallas_call's output array is a closed form of its seven input arrays: the three
   weights times sums over the 512 features of products of projections and indicators. Each input array, at an index,
   is the specification's term: the upper and lower row halves of the first call's two results are the projections of
   arguments 0 and 2 on the features and their smooth indicators, and the three recast one-element buffers are the
   three weights. Substituting them index by index gives the specification's entry, the grouping of every product and
   sum unchanged. -/
import proofs.«149419_j58626303590625_1_alg».proof.Proof.KI.Boundary
import proofs.«149419_j58626303590625_1_alg».proof.Proof.KI.R1Value

noncomputable section

open scoped BigOperators

namespace Cert.KernelIdeal.Fr

open Cert.KernelIdeal Cert.KernelIdeal.Gen
open Idealize.ShloMosaic Idealize.ShloMosaic.TcCoe Idealize.SL.Sem
open Idealize.ShloMosaic.ValueIdx

/-- The result array when @main returns is the specification's function of the six arguments as launched: the second
    call's output array is its closed form of its seven input arrays, each of which reads, at an index, the
    specification's projection, indicator or weight. -/
theorem result_eq (m : (ℓ : Loc nD τ sig) → Buf (Elt Ideal) ℓ) (ρ : Dev nD → PrngReg) (c : Dev nD) :
    W4 m ρ c (Proc.devRef .tc main_v9)
      = Cert.Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (W4_arr m ρ c 7).trans ((arr1_7 (V3 m ρ) c).trans (funext fun i => ?_))
  have e2 := V3_v2_at m ρ c (i 0)
  have e3 := V3_v3_at m ρ c (i 1)
  have e4 := V3_v4_at m ρ c (i 0)
  have e5 := V3_v5_at m ρ c (i 1)
  have e6 := V3_v6_at m ρ c
  have e7 := V3_v7_at m ρ c
  have e8 := V3_v8_at m ρ c
  show outG (V3 m ρ c main_v6) (V3 m ρ c main_v7) (V3 m ρ c main_v8) (V3 m ρ c main_v2) (V3 m ρ c main_v4) (V3 m ρ c main_v3) (V3 m ρ c main_v5) i = _
  unfold outG Cert.Spec.G Cert.Spec.common Cert.Spec.adist Cert.Spec.bdist
  simp only [e2, e3, e4, e5, e6, e7, e8]

end Cert.KernelIdeal.Fr

end
-- ==== Proof.RefIsSpec.lean ====
/-
  The reference computes the specification. The reference program's result, read index by index through its 91
  operations, is `Cert.Spec.G` of the argument arrays: the two projections on the features are the two
  contractions over the 1024 coordinates (the transposed features read back at (f, d)); the smooth indicator is the
  chain subtract 1/2, multiply by 10, tanh, add 1, multiply by 1/2, met five times (on each projection, on their
  difference and on its negation); the three [256, 256] parts are a contraction over the 512 features and two sums
  over the last axis of a [256, 256, 512] array whose entry (r, q, f) reads row r of the one projection and row q of
  the other through two broadcasts. Every step is a read at an index; no arithmetic law is used.
-/
import proofs.«149419_j58626303590625_1_alg».proof.Proof.Gen.ReferenceIdeal.Read
import proofs.«149419_j58626303590625_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 : (⟨S256x1024, .f32⟩ : BufTy).Contents (Elt Ideal)) (x1 : (⟨S512x1024, .f32⟩ : BufTy).Contents (Elt Ideal))
  (x2 : (⟨S256x1024, .f32⟩ : BufTy).Contents (Elt Ideal)) (x3 x4 x5 : (⟨S1, .f32⟩ : BufTy).Contents (Elt Ideal))

/-! ## The two projections on the features -/

/-- The inputs' projection: entry (r, f) of the first contraction is Σ_d x0 (r, d) · x1 (f, d). -/
theorem projA_at (r : Fin 256) (f : Fin 512) :
    val_main_v1 (F := Ideal) x0 x1 (ix2 r f) = Cert.Spec.proj x0 x1 r f := by
  rw [val_main_v1_apply]
  unfold Cert.Spec.proj
  refine Finset.sum_congr rfl fun d _ => ?_
  have el : lidx_main_v1 (ix2 r f) d = ix2 r d := funext fun a => Fin.ext (by match a with | ⟨0, _⟩ => rfl | ⟨1, _⟩ => rfl)
  have er : idx_main_v0 (ridx_main_v1 (ix2 r f) d) = ix2 f d := funext fun a => Fin.ext (by match a with | ⟨0, _⟩ => rfl | ⟨1, _⟩ => rfl)
  rw [val_main_v0_apply, el, er]

/-- The prototypes' projection: entry (q, f) of the second contraction is Σ_d x2 (q, d) · x1 (f, d). -/
theorem projP_at (q : Fin 256) (f : Fin 512) :
    val_main_v3 (F := Ideal) x1 x2 (ix2 q f) = Cert.Spec.proj x2 x1 q f := by
  rw [val_main_v3_apply]
  unfold Cert.Spec.proj
  refine Finset.sum_congr rfl fun d _ => ?_
  have el : lidx_main_v3 (ix2 q f) d = ix2 q d := funext fun a => Fin.ext (by match a with | ⟨0, _⟩ => rfl | ⟨1, _⟩ => rfl)
  have er : idx_main_v2 (ridx_main_v3 (ix2 q f) d) = ix2 f d := funext fun a => Fin.ext (by match a with | ⟨0, _⟩ => rfl | ⟨1, _⟩ => rfl)
  rw [val_main_v2_apply, el, er]

/-! ## Their indicators -/

/-- The inputs' activation at (r, f) is the indicator of the projection there. -/
theorem indA_at (r : Fin 256) (f : Fin 512) :
    val_main_v12 (F := Ideal) x0 x1 (ix2 r f) = Cert.Spec.ind (Cert.Spec.proj x0 x1 r f) := by
  rw [val_main_v12_apply, val_main_v10_apply, val_main_v8_apply, val_main_v7_apply, val_main_v5_apply, projA_at,
    val_main_v4_apply, val_main_v6_apply, val_main_v9_apply, val_main_v11_apply]
  rfl

/-- The prototypes' activation at (q, f) is the indicator of the projection there. -/
theorem indP_at (q : Fin 256) (f : Fin 512) :
    val_main_v21 (F := Ideal) x1 x2 (ix2 q f) = Cert.Spec.ind (Cert.Spec.proj x2 x1 q f) := by
  rw [val_main_v21_apply, val_main_v19_apply, val_main_v17_apply, val_main_v16_apply, val_main_v14_apply, projP_at,
    val_main_v13_apply, val_main_v15_apply, val_main_v18_apply, val_main_v20_apply]
  rfl

/-! ## The common part: a contraction over the features -/

theorem common_at (r q : Fin 256) :
    val_main_v25 (F := Ideal) x0 x1 x2 (ix2 r q) = Cert.Spec.common x0 x1 x2 r q := by
  rw [val_main_v25_apply]
  unfold Cert.Spec.common
  refine Finset.sum_congr rfl fun f _ => ?_
  have el : lidx_main_v25 (ix2 r q) f = ix2 r f := funext fun a => Fin.ext (by match a with | ⟨0, _⟩ => rfl | ⟨1, _⟩ => rfl)
  have er : idx_main_v24 (ridx_main_v25 (ix2 r q) f) = ix2 q f := funext fun a => Fin.ext (by match a with | ⟨0, _⟩ => rfl | ⟨1, _⟩ => rfl)
  rw [val_main_v24_apply, el, er, val_main_v22_apply, val_main_v23_apply, projA_at, projP_at, indA_at, indP_at]
  rfl

/-! ## The [256, 256, 512] arrays at (r, q, f) -/

/-- The difference of the two projections, row r of the one against row q of the other. -/
theorem diff_at (r q : Fin 256) (f : Fin 512) :
    val_main_v30 (F := Ideal) x0 x1 x2 (ix3 r q f) = Cert.Spec.proj x0 x1 r f - Cert.Spec.proj x2 x1 q f := by
  have e1 : idx_main_v26 (idx_main_v28 (ix3 r q f)) = ix2 r f := funext fun a => Fin.ext (by match a with | ⟨0, _⟩ => rfl | ⟨1, _⟩ => rfl)
  have e2 : idx_main_v27 (idx_main_v29 (ix3 r q f)) = ix2 q f := funext fun a => Fin.ext (by match a with | ⟨0, _⟩ => rfl | ⟨1, _⟩ => rfl)
  rw [val_main_v30_apply, val_main_v28_apply, val_main_v26_apply, e1, val_main_v29_apply, val_main_v27_apply, e2,
    projA_at, projP_at]
  rfl

/-- The product of the two activations. -/
theorem indprod_at (r q : Fin 256) (f : Fin 512) :
    val_main_v35 (F := Ideal) x0 x1 x2 (ix3 r q f)
      = Cert.Spec.ind (Cert.Spec.proj x0 x1 r f) * Cert.Spec.ind (Cert.Spec.proj x2 x1 q f) := by
  have e1 : idx_main_v31 (idx_main_v33 (ix3 r q f)) = ix2 r f := funext fun a => Fin.ext (by match a with | ⟨0, _⟩ => rfl | ⟨1, _⟩ => rfl)
  have e2 : idx_main_v32 (idx_main_v34 (ix3 r q f)) = ix2 q f := funext fun a => Fin.ext (by match a with | ⟨0, _⟩ => rfl | ⟨1, _⟩ => rfl)
  rw [val_main_v35_apply, val_main_v33_apply, val_main_v31_apply, e1, val_main_v34_apply, val_main_v32_apply, e2,
    indA_at, indP_at]
  rfl

/-- The indicator of the difference. -/
theorem indDiff_at (r q : Fin 256) (f : Fin 512) :
    val_main_v45 (F := Ideal) x0 x1 x2 (ix3 r q f)
      = Cert.Spec.ind (Cert.Spec.proj x0 x1 r f - Cert.Spec.proj x2 x1 q f) := by
  rw [val_main_v45_apply, val_main_v43_apply, val_main_v41_apply, val_main_v40_apply, val_main_v38_apply, diff_at,
    val_main_v37_apply, val_main_v39_apply, val_main_v42_apply, val_main_v44_apply]
  rfl

/-- The indicator of the negated difference. -/
theorem indNegDiff_at (r q : Fin 256) (f : Fin 512) :
    val_main_v59 (F := Ideal) x0 x1 x2 (ix3 r q f)
      = Cert.Spec.ind (-(Cert.Spec.proj x0 x1 r f - Cert.Spec.proj x2 x1 q f)) := by
  rw [val_main_v59_apply, val_main_v57_apply, val_main_v55_apply, val_main_v54_apply, val_main_v52_apply,
    val_main_v50_apply, diff_at, val_main_v51_apply, val_main_v53_apply, val_main_v56_apply, val_main_v58_apply]
  rfl

/-! ## The two sums over the features -/

theorem adist_at (r q : Fin 256) :
    val_main_v47 (F := Ideal) x0 x1 x2 (ix2 r q) = Cert.Spec.adist x0 x1 x2 r q := by
  rw [val_main_v47_apply]
  unfold Cert.Spec.adist
  refine congrArg₂ (· + ·) rfl (Finset.sum_congr rfl fun f _ => ?_)
  have e : idx_main_v47 (ix2 r q) f = ix3 r q f := funext fun a => Fin.ext (by match a with | ⟨0, _⟩ => rfl | ⟨1, _⟩ => rfl | ⟨2, _⟩ => rfl)
  rw [e, val_main_v46_apply, val_main_v36_apply, diff_at, indprod_at, indDiff_at]
  rfl

theorem bdist_at (r q : Fin 256) :
    val_main_v61 (F := Ideal) x0 x1 x2 (ix2 r q) = Cert.Spec.bdist x0 x1 x2 r q := by
  rw [val_main_v61_apply]
  unfold Cert.Spec.bdist
  refine congrArg₂ (· + ·) rfl (Finset.sum_congr rfl fun f _ => ?_)
  have e : idx_main_v61 (ix2 r q) f = ix3 r q f := funext fun a => Fin.ext (by match a with | ⟨0, _⟩ => rfl | ⟨1, _⟩ => rfl | ⟨2, _⟩ => rfl)
  rw [e, val_main_v60_apply, val_main_v49_apply, val_main_v48_apply, diff_at, indprod_at, indNegDiff_at]
  rfl

/-! ## The result -/

/-- The reference's result array is the specification of the argument arrays. -/
theorem ref_eq :
    val_main_v72 (F := Ideal) x0 x1 x2 x3 x4 x5 = Cert.Spec.G x0 x1 x2 x3 x4 x5 := by
  funext i
  obtain ⟨r, q, rfl⟩ : ∃ (r : Fin 256) (q : Fin 256), i = ix2 r q := ⟨i 0, i 1, eq_ix2 i⟩
  have e5 : idx_main_v62 (idx_main_v63 (ix2 r q)) = ix1 0 := funext fun a => Fin.ext (by match a with | ⟨0, _⟩ => rfl)
  have e3 : idx_main_v65 (idx_main_v66 (ix2 r q)) = ix1 0 := funext fun a => Fin.ext (by match a with | ⟨0, _⟩ => rfl)
  have e4 : idx_main_v69 (idx_main_v70 (ix2 r q)) = ix1 0 := funext fun a => Fin.ext (by match a with | ⟨0, _⟩ => rfl)
  rw [val_main_v72_apply, val_main_v68_apply, val_main_v64_apply, val_main_v63_apply, val_main_v62_apply, e5, common_at,
    val_main_v67_apply, val_main_v66_apply, val_main_v65_apply, e3, adist_at,
    val_main_v71_apply, val_main_v70_apply, val_main_v69_apply, e4, bdist_at]
  rfl

end Cert.ReferenceIdeal.RefValue

end
-- ==== Proof.lean ====
/-
  The certificate of the two-stage pairwise-similarity kernel against its jnp reference.

  The kernel projects the rows of `x` and of `prototypes` (stacked) on the rows of `features` in one matrix product and
  stores, beside each projection v, its smooth indicator (tanh (10 (v − 1/2)) + 1) / 2.  A second call walks a 4 × 2 × 4
  grid: for a 64-row block of inputs and a 128-row block of prototypes it accumulates, over four blocks of 128 features,
  the product of the indicator-weighted projections and the two signed sums of the pairwise differences (each weighted by
  both indicators and by the indicator of the difference), and at the fourth block stores
  theta · common − alpha · a − beta · b.  The reference computes the same three [256, 256] arrays with whole-array
  operations.  Over the extended reals the two agree index by index: a sum over 512 features is the sum of its four
  blocks of 128 taken in order, the matrix unit's product into a zero accumulator is the plain sum, the changes of float
  format are the identity, and 0 − v is −v.  No law used needs finiteness.

  Frames: each kernel program runs to the end, faults nowhere and leaves its arguments unchanged — the first call's body
  stores two whole blocks computed from its two input blocks; the second call's body is run once for each of its three
  control cases (accumulators reset, accumulators added to, output stored), the accumulators' contents carried from point
  to point by the region's invariant.  The reference's frame is its run with the result dropped.
-/
import proofs.«149419_j58626303590625_1_alg».proof.Defs
import proofs.«149419_j58626303590625_1_alg».proof.Proof.Gen.Kernel
import proofs.«149419_j58626303590625_1_alg».proof.Proof.Gen.KernelIdeal
import proofs.«149419_j58626303590625_1_alg».proof.Proof.Gen.ReferenceIdeal
import proofs.«149419_j58626303590625_1_alg».proof.Proof.Gen.ReferenceIdeal.Run
import proofs.«149419_j58626303590625_1_alg».proof.Proof.Gen.ReferenceIdeal.Read
import proofs.«149419_j58626303590625_1_alg».proof.Proof.Gen.Pre_finite_inputs
import proofs.«149419_j58626303590625_1_alg».proof.Proof.K.Run
import proofs.«149419_j58626303590625_1_alg».proof.Proof.KI.Run
import proofs.«149419_j58626303590625_1_alg».proof.Proof.KI.Final
import proofs.«149419_j58626303590625_1_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments unchanged. -/
theorem frame_k : Cert.frame_Kernel := fun m ρ _ => Cert.Kernel.Fr.frame m ρ

/-- So does the idealized kernel. -/
theorem frame_ki : Cert.frame_KernelIdeal := fun m ρ _ => Cert.KernelIdeal.Fr.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the specification's array of the arguments. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Fr.result_eq m ρ c), (h c).2⟩)
      (Cert.KernelIdeal.Fr.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v72_eq, Cert.ReferenceIdeal.RefValue.ref_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
